-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x16x64 : Shape := ⟨4, ![4, 4096, 16, 64]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel

variable [Facts]

def fn {F : FTy → Type} [FloatOps F] (main_arg0 : FVec F S4x4096x16x64 .f32) (main_arg1 : FVec F S4x4096x16x64 .f32) (main_arg2 : FVec F S4x4096x16x64 .f32) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  let main_v9 : FVec F S4x4096x16x64 .f32 := Host.absf main_arg2
  let main_cst_2 : FVec F S_ .f32 := constant S_ .f32 0x7F800000#32
  let main_v10 : FVec F S4x4096x16x64 .f32 := broadcastInDim S4x4096x16x64 ![] bcast_S_S4x4096x16x64 main_cst_2
  let main_v11 : IVec S4x4096x16x64 1 := cmpf .olt main_v9 main_v10
  let main_c_3 : IVec S_ 1 := constantI S_ 1 1#1
  let main_v12 : IVec S_ 1 := (fun x v => Host.reduce IntOp.andi x v reducesTo_S4x4096x16x64_S_d0_1_2_3 h_S_) main_v11 main_c_3
  let main_v13 : IVec S_ 1 := andi main_v8 main_v12
  main_v13
-- ==== Kernel.lean ====
abbrev S4x4096x16x64 : Shape := ⟨4, ![4, 4096, 16, 64]⟩
abbrev S16384x16x64 : Shape := ⟨3, ![16384, 16, 64]⟩
abbrev S256x16x64 : Shape := ⟨3, ![256, 16, 64]⟩
abbrev S256x8x8 : Shape := ⟨3, ![256, 8, 8]⟩
abbrev S256x8x64 : Shape := ⟨3, ![256, 8, 64]⟩
abbrev S256x1x64 : Shape := ⟨3, ![256, 1, 64]⟩
abbrev S256x8 : Shape := ⟨2, ![256, 8]⟩
abbrev S256x1x8 : Shape := ⟨3, ![256, 1, 8]⟩
abbrev S256x8x1 : Shape := ⟨3, ![256, 8, 1]⟩
abbrev S256x64 : Shape := ⟨2, ![256, 64]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S16384x16x64, .f32⟩
  | .hbm, ⟨4, _⟩ => ⟨S16384x16x64, .f32⟩
  | .hbm, ⟨5, _⟩ => ⟨S16384x16x64, .f32⟩
  | .hbm, ⟨6, _⟩ => ⟨S16384x16x64, .f32⟩
  | .hbm, ⟨7, _⟩ => ⟨S4x4096x16x64, .f32⟩
  | .local _ .vmem, ⟨0, _⟩ => ⟨S256x16x64, .f32⟩
  | .local _ .vmem, ⟨1, _⟩ => ⟨S256x16x64, .f32⟩
  | .local _ .vmem, ⟨2, _⟩ => ⟨S256x16x64, .f32⟩
  | .local _ .vmem, ⟨3, _⟩ => ⟨S256x16x64, .f32⟩
  | .local _ .vmem, ⟨4, _⟩ => ⟨S256x16x64, .f32⟩
  | .local _ .vmem, ⟨5, _⟩ => ⟨S256x16x64, .f32⟩
  | .local _ .vmem, ⟨6, _⟩ => ⟨S256x16x64, .f32⟩
  | .local _ .vmem, ⟨7, _⟩ => ⟨S256x16x64, .f32⟩
  | .local _ .vmem, ⟨8, _⟩ => ⟨S256x8x8, .f32⟩
  | .local _ .vmem, ⟨9, _⟩ => ⟨S256x8x64, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x16x64_S16384x16x64 : S4x4096x16x64.ShapeCasts S16384x16x64
  inb_S256x16x64_S256x8x64_0_0_0 : ∀ a, (![0, 0, 0] : Fin 3 → Nat) a + S256x8x64.size a ≤ S256x16x64.size a
  h_S256x8x64 : 0 < S256x8x64.numel
  shapeCasts_S256x8x64_S256x8x64 : S256x8x64.ShapeCasts S256x8x64
  slices_S256x8x64_o0_0_0_S256x1x64 : S256x8x64.Slices ![0, 0, 0] S256x1x64
  broadcasts_S256x1x64_S256x8x64 : S256x1x64.Broadcasts S256x8x64
  reduces_S256x8x64_S256x8 : S256x8x64.Reduces [2] S256x8
  inb_S256x8x8_S256x1x8_0_0_0 : ∀ a, (![0, 0, 0] : Fin 3 → Nat) a + S256x1x8.size a ≤ S256x8x8.size a
  h_S256x1x8 : 0 < S256x1x8.numel
  shapeCasts_S256x1x8_S256x8 : S256x1x8.ShapeCasts S256x8
  shapeCasts_S256x8_S256x1x8 : S256x8.ShapeCasts S256x1x8
  slices_S256x8x64_o0_1_0_S256x1x64 : S256x8x64.Slices ![0, 1, 0] S256x1x64
  inb_S256x8x8_S256x1x8_0_1_0 : ∀ a, (![0, 1, 0] : Fin 3 → Nat) a + S256x1x8.size a ≤ S256x8x8.size a
  slices_S256x8x64_o0_2_0_S256x1x64 : S256x8x64.Slices ![0, 2, 0] S256x1x64
  inb_S256x8x8_S256x1x8_0_2_0 : ∀ a, (![0, 2, 0] : Fin 3 → Nat) a + S256x1x8.size a ≤ S256x8x8.size a
  slices_S256x8x64_o0_3_0_S256x1x64 : S256x8x64.Slices ![0, 3, 0] S256x1x64
  inb_S256x8x8_S256x1x8_0_3_0 : ∀ a, (![0, 3, 0] : Fin 3 → Nat) a + S256x1x8.size a ≤ S256x8x8.size a
  slices_S256x8x64_o0_4_0_S256x1x64 : S256x8x64.Slices ![0, 4, 0] S256x1x64
  inb_S256x8x8_S256x1x8_0_4_0 : ∀ a, (![0, 4, 0] : Fin 3 → Nat) a + S256x1x8.size a ≤ S256x8x8.size a
  slices_S256x8x64_o0_5_0_S256x1x64 : S256x8x64.Slices ![0, 5, 0] S256x1x64
  inb_S256x8x8_S256x1x8_0_5_0 : ∀ a, (![0, 5, 0] : Fin 3 → Nat) a + S256x1x8.size a ≤ S256x8x8.size a
  slices_S256x8x64_o0_6_0_S256x1x64 : S256x8x64.Slices ![0, 6, 0] S256x1x64
  inb_S256x8x8_S256x1x8_0_6_0 : ∀ a, (![0, 6, 0] : Fin 3 → Nat) a + S256x1x8.size a ≤ S256x8x8.size a
  slices_S256x8x64_o0_7_0_S256x1x64 : S256x8x64.Slices ![0, 7, 0] S256x1x64
  inb_S256x8x8_S256x1x8_0_7_0 : ∀ a, (![0, 7, 0] : Fin 3 → Nat) a + S256x1x8.size a ≤ S256x8x8.size a
  inb_S256x8x8_S256x8x8_0_0_0 : ∀ a, (![0, 0, 0] : Fin 3 → Nat) a + S256x8x8.size a ≤ S256x8x8.size a
  h_S256x8x8 : 0 < S256x8x8.numel
  reduces_S256x8x8_S256x8 : S256x8x8.Reduces [2] S256x8
  shapeCasts_S256x8_S256x8x1 : S256x8.ShapeCasts S256x8x1
  broadcasts_S256x8x1_S256x8x8 : S256x8x1.Broadcasts S256x8x8
  slices_S256x8x8_o0_0_0_S256x1x8 : S256x8x8.Slices ![0, 0, 0] S256x1x8
  broadcasts_S256x8x1_S256x8x64 : S256x8x1.Broadcasts S256x8x64
  reduces_S256x8x64_S256x64 : S256x8x64.Reduces [1] S256x64
  inb_S256x8x64_S256x1x64_0_0_0 : ∀ a, (![0, 0, 0] : Fin 3 → Nat) a + S256x1x64.size a ≤ S256x8x64.size a
  h_S256x1x64 : 0 < S256x1x64.numel
  shapeCasts_S256x1x64_S256x64 : S256x1x64.ShapeCasts S256x64
  shapeCasts_S256x64_S256x1x64 : S256x64.ShapeCasts S256x1x64
  slices_S256x8x8_o0_1_0_S256x1x8 : S256x8x8.Slices ![0, 1, 0] S256x1x8
  inb_S256x8x64_S256x1x64_0_1_0 : ∀ a, (![0, 1, 0] : Fin 3 → Nat) a + S256x1x64.size a ≤ S256x8x64.size a
  slices_S256x8x8_o0_2_0_S256x1x8 : S256x8x8.Slices ![0, 2, 0] S256x1x8
  inb_S256x8x64_S256x1x64_0_2_0 : ∀ a, (![0, 2, 0] : Fin 3 → Nat) a + S256x1x64.size a ≤ S256x8x64.size a
  slices_S256x8x8_o0_3_0_S256x1x8 : S256x8x8.Slices ![0, 3, 0] S256x1x8
  inb_S256x8x64_S256x1x64_0_3_0 : ∀ a, (![0, 3, 0] : Fin 3 → Nat) a + S256x1x64.size a ≤ S256x8x64.size a
  slices_S256x8x8_o0_4_0_S256x1x8 : S256x8x8.Slices ![0, 4, 0] S256x1x8
  inb_S256x8x64_S256x1x64_0_4_0 : ∀ a, (![0, 4, 0] : Fin 3 → Nat) a + S256x1x64.size a ≤ S256x8x64.size a
  slices_S256x8x8_o0_5_0_S256x1x8 : S256x8x8.Slices ![0, 5, 0] S256x1x8
  inb_S256x8x64_S256x1x64_0_5_0 : ∀ a, (![0, 5, 0] : Fin 3 → Nat) a + S256x1x64.size a ≤ S256x8x64.size a
  slices_S256x8x8_o0_6_0_S256x1x8 : S256x8x8.Slices ![0, 6, 0] S256x1x8
  inb_S256x8x64_S256x1x64_0_6_0 : ∀ a, (![0, 6, 0] : Fin 3 → Nat) a + S256x1x64.size a ≤ S256x8x64.size a
  slices_S256x8x8_o0_7_0_S256x1x8 : S256x8x8.Slices ![0, 7, 0] S256x1x8
  inb_S256x8x64_S256x1x64_0_7_0 : ∀ a, (![0, 7, 0] : Fin 3 → Nat) a + S256x1x64.size a ≤ S256x8x64.size a
  inb_S256x8x64_S256x8x64_0_0_0 : ∀ a, (![0, 0, 0] : Fin 3 → Nat) a + S256x8x64.size a ≤ S256x8x64.size a
  inb_S256x16x64_S256x8x64_0_8_0 : ∀ a, (![0, 8, 0] : Fin 3 → Nat) a + S256x8x64.size a ≤ S256x16x64.size a
  shapeCasts_S16384x16x64_S4x4096x16x64 : S16384x16x64.ShapeCasts S4x4096x16x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x64.size a ≤ S16384x16x64.size a
  hwx0_0 : ∀ i : grid0.Coords, EltTy.bits .f32 = 32 ∨ (Rect.block (s := S16384x16x64) S256x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x64.size a ≤ S16384x16x64.size a
  hwx0_1 : ∀ i : grid0.Coords, EltTy.bits .f32 = 32 ∨ (Rect.block (s := S16384x16x64) S256x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x64.size a ≤ S16384x16x64.size a
  hwx0_2 : ∀ i : grid0.Coords, EltTy.bits .f32 = 32 ∨ (Rect.block (s := S16384x16x64) S256x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16x64.size a ≤ S16384x16x64.size a
  hwx0_3 : ∀ i : grid0.Coords, EltTy.bits .f32 = 32 ∨ (Rect.block (s := S16384x16x64) S256x16x64.size (cc0_transform_3 i) (hinb0_3 i)).WholeWords (EltTy.packing .f32)

variable [Facts₀]

abbrev win0_0 : Pipeline.Window sig grid0 :=
  Pipeline.Window.ofSpec (Memref.whole main_v0) S256x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x16x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x16x64 : Shape := ⟨4, ![4, 4096, 16, 64]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4x4096x8x64 : Shape := ⟨4, ![4, 4096, 8, 64]⟩
abbrev S4x4096x8x8 : Shape := ⟨4, ![4, 4096, 8, 8]⟩
abbrev S4x4096x8 : Shape := ⟨3, ![4, 4096, 8]⟩
abbrev S4x4096x8x1 : Shape := ⟨4, ![4, 4096, 8, 1]⟩

abbrev nBuf : Space → Nat
  | .hbm => 176
  | .vmem => 0
  | .smem => 0
  | _ => 0

abbrev hbmTy0_0 (i : Nat) : BufTy := match i % 128 with
  | 0 => ⟨S4x4096x16x64, .f32⟩
  | 1 => ⟨S4x4096x16x64, .f32⟩
  | 2 => ⟨S4x4096x16x64, .f32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S1, .i32⟩
  | 14 => ⟨S_, .i32⟩
  | 15 => ⟨S4096x1, .i32⟩
  | 16 => ⟨S4096x1, .i1⟩
  | 17 => ⟨S1x1, .i32⟩
  | 18 => ⟨S4096x1, .i32⟩
  | 19 => ⟨S4096x1, .i1⟩
  | 20 => ⟨S4096x1, .i1⟩
  | 21 => ⟨S_, .i1⟩
  | 22 => ⟨S4096, .i1⟩
  | 23 => ⟨S4x4096x16x64, .f32⟩
  | 24 => ⟨S4x4096x16x64, .i1⟩
  | 25 => ⟨S_, .f32⟩
  | 26 => ⟨S4x4096x16x64, .f32⟩
  | 27 => ⟨S4x4096x16x64, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S1, .i32⟩
  | 37 => ⟨S_, .i32⟩
  | 38 => ⟨S4096x1, .i32⟩
  | 39 => ⟨S4096x1, .i1⟩
  | 40 => ⟨S1x1, .i32⟩
  | 41 => ⟨S4096x1, .i32⟩
  | 42 => ⟨S4096x1, .i1⟩
  | 43 => ⟨S4096x1, .i1⟩
  | 44 => ⟨S_, .i1⟩
  | 45 => ⟨S4096, .i1⟩
  | 46 => ⟨S4x4096x16x64, .f32⟩
  | 47 => ⟨S4x4096x16x64, .i1⟩
  | 48 => ⟨S_, .f32⟩
  | 49 => ⟨S4x4096x16x64, .f32⟩
  | 50 => ⟨S4x4096x16x64, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S1, .i32⟩
  | 60 => ⟨S_, .i32⟩
  | 61 => ⟨S4096x1, .i32⟩
  | 62 => ⟨S4096x1, .i1⟩
  | 63 => ⟨S1x1, .i32⟩
  | 64 => ⟨S4096x1, .i32⟩
  | 65 => ⟨S4096x1, .i1⟩
  | 66 => ⟨S4096x1, .i1⟩
  | 67 => ⟨S_, .i1⟩
  | 68 => ⟨S4096, .i1⟩
  | 69 => ⟨S4x4096x16x64, .f32⟩
  | 70 => ⟨S4x4096x16x64, .i1⟩
  | 71 => ⟨S_, .f32⟩
  | 72 => ⟨S4x4096x16x64, .f32⟩
  | 73 => ⟨S4x4096x16x64, .f32⟩
  | 74 => ⟨S4x4096x8x64, .f32⟩
  | 75 => ⟨S4x4096x8x64, .f32⟩
  | 76 => ⟨S4x4096x8x64, .f32⟩
  | 77 => ⟨S4x4096x8x8, .f32⟩
  | 78 => ⟨S_, .f32⟩
  | 79 => ⟨S4x4096x8x8, .f32⟩
  | 80 => ⟨S4x4096x8x8, .f32⟩
  | 81 => ⟨S_, .f32⟩
  | 82 => ⟨S4x4096x8, .f32⟩
  | 83 => ⟨S_, .f32⟩
  | 84 => ⟨S4x4096x8, .f32⟩
  | 85 => ⟨S4x4096x8, .f32⟩
  | 86 => ⟨S4x4096x8x1, .f32⟩
  | 87 => ⟨S4x4096x8x8, .f32⟩
  | 88 => ⟨S4x4096x8x8, .f32⟩
  | 89 => ⟨S4x4096x8x8, .f32⟩
  | 90 => ⟨S_, .f32⟩
  | 91 => ⟨S4x4096x8, .f32⟩
  | 92 => ⟨S4x4096x8x1, .f32⟩
  | 93 => ⟨S4x4096x8x8, .f32⟩
  | 94 => ⟨S4x4096x8x8, .f32⟩
  | 95 => ⟨S_, .f32⟩
  | 96 => ⟨S4x4096x8x8, .i1⟩
  | 97 => ⟨S_, .f32⟩
  | 98 => ⟨S4x4096x8x8, .f32⟩
  | 99 => ⟨S4x4096x8x8, .f32⟩
  | 100 => ⟨S_, .f32⟩
  | 101 => ⟨S4x4096x8x8, .f32⟩
  | 102 => ⟨S4x4096x8x8, .i1⟩
  | 103 => ⟨S_, .f32⟩
  | 104 => ⟨S4x4096x8x8, .f32⟩
  | 105 => ⟨S4x4096x8x8, .f32⟩
  | 106 => ⟨S_, .f32⟩
  | 107 => ⟨S4x4096x8x8, .f32⟩
  | 108 => ⟨S4x4096x8x8, .i1⟩
  | 109 => ⟨S_, .f32⟩
  | 110 => ⟨S4x4096x8x8, .f32⟩
  | 111 => ⟨S4x4096x8x8, .f32⟩
  | 112 => ⟨S4x4096x8x64, .f32⟩
  | 113 => ⟨S4x4096x8x64, .f32⟩
  | 114 => ⟨S4x4096x8x64, .f32⟩
  | 115 => ⟨S4x4096x8x64, .f32⟩
  | 116 => ⟨S4x4096x8x8, .f32⟩
  | 117 => ⟨S_, .f32⟩
  | 118 => ⟨S4x4096x8x8, .f32⟩
  | 119 => ⟨S4x4096x8x8, .f32⟩
  | 120 => ⟨S_, .f32⟩
  | 121 => ⟨S4x4096x8, .f32⟩
  | 122 => ⟨S_, .f32⟩
  | 123 => ⟨S4x4096x8, .f32⟩
  | 124 => ⟨S4x4096x8, .f32⟩
  | 125 => ⟨S4x4096x8x1, .f32⟩
  | 126 => ⟨S4x4096x8x8, .f32⟩
  | 127 => ⟨S4x4096x8x8, .f32⟩
  | _ => ⟨S4x4096x16x64, .f32⟩

abbrev hbmTy0_1 (i : Nat) : BufTy := match i % 128 with
  | 0 => ⟨S4x4096x8x8, .f32⟩
  | 1 => ⟨S_, .f32⟩
  | 2 => ⟨S4x4096x8, .f32⟩
  | 3 => ⟨S4x4096x8x1, .f32⟩
  | 4 => ⟨S4x4096x8x8, .f32⟩
  | 5 => ⟨S4x4096x8x8, .f32⟩
  | 6 => ⟨S_, .f32⟩
  | 7 => ⟨S4x4096x8x8, .i1⟩
  | 8 => ⟨S_, .f32⟩
  | 9 => ⟨S4x4096x8x8, .f32⟩
  | 10 => ⟨S4x4096x8x8, .f32⟩
  | 11 => ⟨S_, .f32⟩
  | 12 => ⟨S4x4096x8x8, .f32⟩
  | 13 => ⟨S4x4096x8x8, .i1⟩
  | 14 => ⟨S_, .f32⟩
  | 15 => ⟨S4x4096x8x8, .f32⟩
  | 16 => ⟨S4x4096x8x8, .f32⟩
  | 17 => ⟨S_, .f32⟩
  | 18 => ⟨S4x4096x8x8, .f32⟩
  | 19 => ⟨S4x4096x8x8, .i1⟩
  | 20 => ⟨S_, .f32⟩
  | 21 => ⟨S4x4096x8x8, .f32⟩
  | 22 => ⟨S4x4096x8x8, .f32⟩
  | 23 => ⟨S4x4096x8x64, .f32⟩
  | 24 => ⟨S4x4096x16x64, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S1, .i32⟩
  | 34 => ⟨S_, .i32⟩
  | 35 => ⟨S4096x1, .i32⟩
  | 36 => ⟨S4096x1, .i1⟩
  | 37 => ⟨S1x1, .i32⟩
  | 38 => ⟨S4096x1, .i32⟩
  | 39 => ⟨S4096x1, .i1⟩
  | 40 => ⟨S4096x1, .i1⟩
  | 41 => ⟨S_, .i1⟩
  | 42 => ⟨S4096, .i1⟩
  | 43 => ⟨S4x4096x16x64, .f32⟩
  | 44 => ⟨S4x4096x16x64, .i1⟩
  | 45 => ⟨S_, .f32⟩
  | 46 => ⟨S4x4096x16x64, .f32⟩
  | 47 => ⟨S4x4096x16x64, .f32⟩
  | _ => ⟨S4x4096x16x64, .f32⟩

abbrev hbmTy (i : Nat) : BufTy := match i / 128 with
  | 0 => hbmTy0_0 i
  | 1 => hbmTy0_1 i
  | _ => ⟨S4x4096x16x64, .f32⟩

abbrev bufTy : (tb : Table) → Fin (tcTables nBuf tb) → BufTy
  | .hbm, ⟨i, _⟩ => hbmTy i
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_cst : Ref sig .tc := ⟨.hbm, 78, rfl⟩
abbrev main_v7 : Ref sig .tc := ⟨.hbm, 79, rfl⟩
abbrev main_v8 : Ref sig .tc := ⟨.hbm, 80, rfl⟩
abbrev main_cst_1 : Ref sig .tc := ⟨.hbm, 81, rfl⟩
abbrev main_v9 : Ref sig .tc := ⟨.hbm, 82, rfl⟩
abbrev main_cst_2 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_cst_3 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_cst_4 : Ref sig .tc := ⟨.hbm, 95, rfl⟩
abbrev main_call3_v0 : Ref sig .tc := ⟨.hbm, 96, rfl⟩
abbrev main_call3_v1 : Ref sig .tc := ⟨.hbm, 97, rfl⟩
abbrev main_call3_call0_v0 : Ref sig .tc := ⟨.hbm, 98, rfl⟩
abbrev main_call3_v2 : Ref sig .tc := ⟨.hbm, 99, rfl⟩
abbrev main_call3_cst : Ref sig .tc := ⟨.hbm, 100, rfl⟩
abbrev main_call3_v3 : Ref sig .tc := ⟨.hbm, 101, rfl⟩
abbrev main_call3_v4 : Ref sig .tc := ⟨.hbm, 102, rfl⟩
abbrev main_call3_cst_0 : Ref sig .tc := ⟨.hbm, 103, rfl⟩
abbrev main_call3_call1_v0 : Ref sig .tc := ⟨.hbm, 104, rfl⟩
abbrev main_call3_v5 : Ref sig .tc := ⟨.hbm, 105, rfl⟩
abbrev main_call3_cst_1 : Ref sig .tc := ⟨.hbm, 106, rfl⟩
abbrev main_call3_v6 : Ref sig .tc := ⟨.hbm, 107, rfl⟩
abbrev main_call3_v7 : Ref sig .tc := ⟨.hbm, 108, rfl⟩
abbrev main_call3_cst_2 : Ref sig .tc := ⟨.hbm, 109, rfl⟩
abbrev main_call3_call2_v0 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_cst_5 : Ref sig .tc := ⟨.hbm, 117, rfl⟩
abbrev main_v26 : Ref sig .tc := ⟨.hbm, 118, rfl⟩
abbrev main_v27 : Ref sig .tc := ⟨.hbm, 119, rfl⟩
abbrev main_cst_6 : Ref sig .tc := ⟨.hbm, 120, rfl⟩
abbrev main_v28 : Ref sig .tc := ⟨.hbm, 121, rfl⟩
abbrev main_cst_7 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_cst_8 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_cst_9 : Ref sig .tc := ⟨.hbm, 134, rfl⟩
abbrev main_call4_v0 : Ref sig .tc := ⟨.hbm, 135, rfl⟩
abbrev main_call4_v1 : Ref sig .tc := ⟨.hbm, 136, rfl⟩
abbrev main_call4_call0_v0 : Ref sig .tc := ⟨.hbm, 137, rfl⟩
abbrev main_call4_v2 : Ref sig .tc := ⟨.hbm, 138, rfl⟩
abbrev main_call4_cst : Ref sig .tc := ⟨.hbm, 139, rfl⟩
abbrev main_call4_v3 : Ref sig .tc := ⟨.hbm, 140, rfl⟩
abbrev main_call4_v4 : Ref sig .tc := ⟨.hbm, 141, rfl⟩
abbrev main_call4_cst_0 : Ref sig .tc := ⟨.hbm, 142, rfl⟩
abbrev main_call4_call1_v0 : Ref sig .tc := ⟨.hbm, 143, rfl⟩
abbrev main_call4_v5 : Ref sig .tc := ⟨.hbm, 144, rfl⟩
abbrev main_call4_cst_1 : Ref sig .tc := ⟨.hbm, 145, rfl⟩
abbrev main_call4_v6 : Ref sig .tc := ⟨.hbm, 146, rfl⟩
abbrev main_call4_v7 : Ref sig .tc := ⟨.hbm, 147, rfl⟩
abbrev main_call4_cst_2 : Ref sig .tc := ⟨.hbm, 148, rfl⟩
abbrev main_call4_call2_v0 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_c_1 : Ref sig .tc := ⟨.hbm, 161, rfl⟩
abbrev main_call5_c_2 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_3 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_call5_cst : Ref sig .tc := ⟨.hbm, 173, rfl⟩
abbrev main_call5_v15 : Ref sig .tc := ⟨.hbm, 174, rfl⟩
abbrev main_v42 : Ref sig .tc := ⟨.hbm, 175, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4x4096x16x64_1 : S4096.BroadcastsInDim S4x4096x16x64 (![1] : Fin 1 → Fin S4x4096x16x64.rank)
  bcast_S_S4x4096x16x64 : S_.BroadcastsInDim S4x4096x16x64 (![] : Fin 0 → Fin S4x4096x16x64.rank)
  slices_S4x4096x16x64_S4x4096x8x64_0_0_0_0 : S4x4096x16x64.Slices ![0, 0, 0, 0] S4x4096x8x64
  bcast_S_S4x4096x8x8 : S_.BroadcastsInDim S4x4096x8x8 (![] : Fin 0 → Fin S4x4096x8x8.rank)
  reducesTo_S4x4096x8x8_S4x4096x8_d3 : S4x4096x8x8.ReducesTo [3] S4x4096x8
  bcast_S_S4x4096x8 : S_.BroadcastsInDim S4x4096x8 (![] : Fin 0 → Fin S4x4096x8.rank)
  bcast_S4x4096x8_S4x4096x8x1_0_1_2 : S4x4096x8.BroadcastsInDim S4x4096x8x1 (![0, 1, 2] : Fin 3 → Fin S4x4096x8x1.rank)
  bcast_S4x4096x8x1_S4x4096x8x8_0_1_2_3 : S4x4096x8x1.BroadcastsInDim S4x4096x8x8 (![0, 1, 2, 3] : Fin 4 → Fin S4x4096x8x8.rank)
  slices_S4x4096x16x64_S4x4096x8x64_0_0_8_0 : S4x4096x16x64.Slices ![0, 0, 8, 0] S4x4096x8x64
  concatenates_S4x4096x8x64_S4x4096x8x64_S4x4096x16x64_d2 : Shape.Concatenates [S4x4096x8x64, S4x4096x8x64] S4x4096x16x64 2
  gather_S4x4096x16x64_S4096x1_S4x4096x16x64_023_1_n_n_1_1_411664_wf : GatherDims.WF S4x4096x16x64 S4096x1 S4x4096x16x64 [0, 2, 3] [1] [] [1] [] 1 ![4, 1, 16, 64]
  dot_S4x4096x8x64_S4x4096x8x64_S4x4096x8x8_3_3_2_2_01_01_wf : DotDims.WF S4x4096x8x64 S4x4096x8x64 S4x4096x8x8 [3] [3] [2] [2] [0, 1] [0, 1]
  dot_S4x4096x8x8_S4x4096x8x64_S4x4096x8x64_3_2_2_3_01_01_wf : DotDims.WF S4x4096x8x8 S4x4096x8x64 S4x4096x8x64 [3] [2] [2] [3] [0, 1] [0, 1]

variable [Facts₀]

def gather_S4x4096x16x64_S4096x1_S4x4096x16x64_023_1_n_n_1_1_411664 : GatherDims S4x4096x16x64 S4096x1 S4x4096x16x64 where
  offsetDims := [0, 2, 3]
  collapsedSliceDims := [1]
  operandBatchingDims := []
  startIndicesBatchingDims := []
  startIndexMap := [1]
  indexVectorDim := 1
  sliceSizes := ![4, 1, 16, 64]
  wf := gather_S4x4096x16x64_S4096x1_S4x4096x16x64_023_1_n_n_1_1_411664_wf
def dot_S4x4096x8x64_S4x4096x8x64_S4x4096x8x8_3_3_2_2_01_01 : DotDims S4x4096x8x64 S4x4096x8x64 S4x4096x8x8 where
  lhsContracting := [3]
  rhsContracting := [3]
  lhsNonContracting := [2]
  rhsNonContracting := [2]
  lhsBatch := [0, 1]
  rhsBatch := [0, 1]
  wf := dot_S4x4096x8x64_S4x4096x8x64_S4x4096x8x8_3_3_2_2_01_01_wf
def dot_S4x4096x8x8_S4x4096x8x64_S4x4096x8x64_3_2_2_3_01_01 : DotDims S4x4096x8x8 S4x4096x8x64 S4x4096x8x64 where
  lhsContracting := [3]
  rhsContracting := [2]
  lhsNonContracting := [2]
  rhsNonContracting := [3]
  lhsBatch := [0, 1]
  rhsBatch := [0, 1]
  wf := dot_S4x4096x8x8_S4x4096x8x64_S4x4096x8x64_3_2_2_3_01_01_wf

class Facts : Prop extends Facts₀ where

variable [Facts]
-- ==== Proof.HeadMix.lean ====
/-
  Head mixing at one sequence position.

  At one position the sixteen heads fall into two groups of eight.  Inside a group every head `i` scores itself
  against every head `j` of the group, `s i j = (∑ e, Q i e · K j e) · 1/8`; the scores of head `i` are turned into
  weights by a softmax over `j` — subtract the largest score, exponentiate, divide by the sum of the eight
  exponentials — and head `i`'s output row is the weighted sum `∑ j, w i j · V j d` of the group's value rows.
  Nothing at one position depends on any other position, so a whole `[4, 4096, 16, 64]` array of outputs is this
  formula read at every batch entry, position, group and head (`G`).

  When the query and key entries are real numbers so is every weight: the scores are finite sums of products, their
  maximum is one of them, each exponential is a positive real and the divisor, a sum of eight positive reals, is a
  nonzero real (`wgt_isReal`).
-/
import Idealize.ShloMosaic.PureOps.Ideal
import Idealize.ShloMosaic.PureOps.Ideal.Laws
import Idealize.ShloMosaic.Lib.ValueIdx
import Mathlib.Algebra.BigOperators.Fin
import Mathlib.Algebra.Order.BigOperators.Group.Finset

noncomputable section

namespace Cert.HeadMix

open Idealize.ShloMosaic Idealize.ShloMosaic.ValueIdx

/-- The scale `1/8` as the programs write it. -/
abbrev c8 : EReal := Ideal.ofBits .f32 0x3E000000#32
/-- The value every running maximum starts from, `-∞`. -/
abbrev ninf : EReal := Ideal.ofBits .f32 0xFF800000#32

/-- Head `i` scored against head `j`. -/
def score (Q K : Fin 8 → Fin 64 → EReal) (i j : Fin 8) : EReal := (∑ e : Fin 64, Q i e * K j e) * c8
/-- The largest of eight scores (both programs also compare it with `-∞` once more). -/
def rowMax (s : Fin 8 → EReal) : EReal := max ninf ((Finset.univ : Finset (Fin 8)).fold max ninf s)
/-- The shifted exponential of score `j`. -/
def ex (s : Fin 8 → EReal) (j : Fin 8) : EReal := Ideal.exp (s j - rowMax s)
/-- The softmax weight of score `j`. -/
def wgt (s : Fin 8 → EReal) (j : Fin 8) : EReal := Ideal.div (ex s j) (∑ j' : Fin 8, ex s j')
/-- Head `i`'s output row, entry `d`. -/
def mix (Q K V : Fin 8 → Fin 64 → EReal) (i : Fin 8) (d : Fin 64) : EReal :=
  ∑ j : Fin 8, wgt (score Q K i) j * V j d

/-- The arrays' shape. -/
abbrev A4 : Shape := ⟨4, ![4, 4096, 16, 64]⟩

/-- The eight rows of group `o` at batch entry `b`, position `s`. -/
def grp (x : A4.Idx → EReal) (b : Fin 4) (s : Fin 4096) (o : Fin 2) : Fin 8 → Fin 64 → EReal :=
  fun i e => x (ix4 b s (⟨8 * o.val + i.val, by have := o.isLt; have := i.isLt; omega⟩ : Fin 16) e)

/-- The output at batch entry `b`, position `s`, head `i` of group `o`, entry `d`. -/
def Gat (q k v : A4.Idx → EReal) (b : Fin 4) (s : Fin 4096) (o : Fin 2) (i : Fin 8) (d : Fin 64) : EReal :=
  mix (grp q b s o) (grp k b s o) (grp v b s o) i d

/-- The whole array of outputs. -/
def G (q k v : A4.Idx → EReal) : A4.Idx → EReal := fun j =>
  Gat q k v (j 0) (j 1) (⟨(j 2).val / 8, by have h : (j 2).val < 16 := (j 2).isLt; omega⟩ : Fin 2)
    (⟨(j 2).val % 8, Nat.mod_lt _ (by decide)⟩ : Fin 8) (j 3)

/-- `G` at head `8 o + i`. -/
theorem G_ix4 (q k v : A4.Idx → EReal) (b : Fin 4) (s : Fin 4096) (o : Fin 2) (i : Fin 8) (d : Fin 64)
    (h : 8 * o.val + i.val < 16) :
    G q k v (ix4 b s (⟨8 * o.val + i.val, h⟩ : Fin 16) d) = Gat q k v b s o i d := by
  have ho : (8 * o.val + i.val) / 8 = o.val := by have := i.isLt; omega
  have hi : (8 * o.val + i.val) % 8 = i.val := by have := i.isLt; omega
  show Gat q k v b s ⟨(8 * o.val + i.val) / 8, _⟩ ⟨(8 * o.val + i.val) % 8, _⟩ d = _
  congr 1
  · exact Fin.ext ho
  · exact Fin.ext hi

/-! ## Reals -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.max {a b : EReal} (ha : IsReal a) (hb : IsReal b) : IsReal (max a b) := by
  rcases max_choice a b with h | h <;> rw [h] <;> assumption
theorem IsReal.sum {ι : Type} (t : Finset ι) (f : ι → EReal) (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))
theorem IsReal.ne_top {a : EReal} (ha : IsReal a) : a ≠ ⊤ := by obtain ⟨r, rfl⟩ := ha; exact EReal.coe_ne_top r
theorem IsReal.ne_bot {a : EReal} (ha : IsReal a) : a ≠ ⊥ := by obtain ⟨r, rfl⟩ := ha; exact EReal.coe_ne_bot r

/-- The coercion of a finite real sum is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem ninf_eq : ninf = ⊥ := by simp [ninf, Ideal.ofBits, Ideal.ieee]

theorem c8_isReal : IsReal c8 := by
  unfold c8 Ideal.ofBits Ideal.ieee
  simp only []
  have h1 : ((0x3E000000#32 : BitVec 32).extractLsb' 23 8).toNat = 124 := by decide
  rw [h1]
  norm_num
  exact ⟨_, rfl⟩

/-- The largest of finitely many (at least one) reals is a real. -/
theorem fold_max_isReal (s : Fin 8 → EReal) (hs : ∀ j, IsReal (s j)) (t : Finset (Fin 8)) (ht : t.Nonempty) :
    IsReal (t.fold max ⊥ s) := by
  induction ht using Finset.Nonempty.cons_induction with
  | singleton a => rw [Finset.fold_singleton, max_bot_right]; exact hs a
  | cons a t ha _ ih => rw [Finset.fold_cons]; exact (hs a).max ih

theorem rowMax_isReal (s : Fin 8 → EReal) (hs : ∀ j, IsReal (s j)) : IsReal (rowMax s) := by
  unfold rowMax
  rw [ninf_eq, max_bot_left]
  exact fold_max_isReal s hs _ Finset.univ_nonempty

theorem score_isReal (Q K : Fin 8 → Fin 64 → EReal) (hQ : ∀ i e, IsReal (Q i e)) (hK : ∀ j e, IsReal (K j e))
    (i j : Fin 8) : IsReal (score Q K i j) :=
  (IsReal.sum _ _ fun e _ => (hQ i e).mul (hK j e)).mul c8_isReal

/-- For real scores every softmax weight is a real. -/
theorem wgt_isReal_of (s : Fin 8 → EReal) (hs : ∀ j, IsReal (s j)) (j : Fin 8) : IsReal (wgt s j) := by
  obtain ⟨mx, hmx⟩ := rowMax_isReal s hs
  choose a ha using hs
  have hex : ∀ j, ex s j = ((Real.exp (a j - mx) : ℝ) : EReal) := fun j => by
    unfold ex
    rw [hmx, ha j, ← EReal.coe_sub]
    rfl
  have hsum : (∑ j' : Fin 8, ex s j') = ((∑ j' : Fin 8, Real.exp (a j' - mx) : ℝ) : EReal) := by
    rw [coe_sum]
    exact Finset.sum_congr rfl fun j' _ => hex j'
  have hpos : (0 : ℝ) < ∑ j' : Fin 8, Real.exp (a j' - mx) :=
    Finset.sum_pos (fun j' _ => Real.exp_pos _) Finset.univ_nonempty
  unfold wgt
  rw [hsum, Ideal.div_coe (ne_of_gt hpos), hex j]
  exact ⟨_, (EReal.coe_mul _ _).symm⟩

theorem wgt_isReal (Q K : Fin 8 → Fin 64 → EReal) (hQ : ∀ i e, IsReal (Q i e)) (hK : ∀ j e, IsReal (K j e))
    (i j : Fin 8) : IsReal (wgt (score Q K i) j) :=
  wgt_isReal_of _ (fun j' => score_isReal Q K hQ hK i j') j

end Cert.HeadMix

end
-- ==== Proof.FiniteArgs.lean ====
/-
  From the precondition to real entries.

  The precondition is three tests joined by `and`: for each of the three arguments, "every entry's absolute value is
  below `+∞`".  An extended real whose absolute value `max x (-x)` is below `+∞` is neither `+∞` nor `-∞` (the
  absolute value of either is `+∞`), so it is a real number.  Hence under the precondition every entry of every
  argument is a real.
-/
import proofs.«144455_j4784593568285_2_alg».proof.Pre_finite_inputs
import proofs.«144455_j4784593568285_2_alg».proof.Proof.HeadMix
import Idealize.ShloMosaic.Lib.ReduceAll
import Idealize.ShloMosaic.Lib.Affine

noncomputable section

namespace Cert.FiniteArgs

open Idealize.ShloMosaic Cert.HeadMix

/-- An extended real whose absolute value is below `+∞` is a real. -/
theorem isReal_of_abs_lt (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

variable [Cert.Pre_finite_inputs.Facts]

/-- One `all(|x| < ∞)` test that came out true makes every entry of `x` a real. -/
theorem isReal_of_all (x : FVec Ideal Cert.Pre_finite_inputs.S4x4096x16x64 .f32)
    (h : Host.reduce IntOp.andi
        (cmpf .olt (Host.absf x)
          (broadcastInDim Cert.Pre_finite_inputs.S4x4096x16x64 ![] Cert.Pre_finite_inputs.Facts.bcast_S_S4x4096x16x64
            (constant (F := Ideal) Cert.Pre_finite_inputs.S_ .f32 0x7F800000#32)))
        (constantI Cert.Pre_finite_inputs.S_ 1 1#1) Cert.Pre_finite_inputs.Facts.reducesTo_S4x4096x16x64_S_d0_1_2_3
        Cert.Pre_finite_inputs.Facts.h_S_ ValueIdx.ix0 = 1#1)
    (j : Cert.Pre_finite_inputs.S4x4096x16x64.Idx) : IsReal (x j) :=
  isReal_of_abs_lt (x j) (Host.reduce_andi_all _ _ _ _ _ h j)

/-- Under the precondition every entry of every argument is a real. -/
theorem real_of_pre (q k v : FVec Ideal Cert.Pre_finite_inputs.S4x4096x16x64 .f32)
    (h : Cert.Pre_finite_inputs.fn (F := Ideal) q k v = fun _ => 1#1) :
    (∀ j, IsReal (q j)) ∧ (∀ j, IsReal (k j)) ∧ ∀ j, IsReal (v j) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨isReal_of_all q h0', isReal_of_all k h1, isReal_of_all v h2⟩

end Cert.FiniteArgs

end
-- ==== Proof.KernelSpec.lean ====
/-
  What one grid point leaves in its output block, as a statement.

  At a grid point the body sees three input blocks `x0`, `x1`, `x2` of 256 rows × 16 heads × 64 lanes (queries, keys,
  values) and leaves an output block of the same shape.  `OutSpec` says: at row `n`, head `8 o + i`, lane `d` the
  output block holds the head-mixing formula `mix` of that row's eight query, key and value rows of group `o`.
-/
import proofs.«144455_j4784593568285_2_alg».proof.Proof.Gen.KernelIdeal.Frame
import proofs.«144455_j4784593568285_2_alg».proof.Proof.HeadMix

noncomputable section

namespace Cert.KernelSpec

open Idealize.ShloMosaic Idealize.ShloMosaic.ValueIdx Cert.KernelIdeal Cert.KernelIdeal.Gen Cert.HeadMix

/-- The eight rows of group `o` at row `n` of a block. -/
def blkRows (x : Vec Ideal S256x16x64 .f32) (n : Fin 256) (o : Fin 2) : Fin 8 → Fin 64 → EReal :=
  fun a e => x (ix3 n (⟨8 * o.val + a.val, by have := o.isLt; have := a.isLt; omega⟩ : Fin 16) e)

/-- The body's output block is the head-mixing formula, row by row. -/
def OutSpec : Prop :=
  ∀ (c : Dev nD) (i : grid0.Coords) (arg1 : Memref sig .tc .vmem S256x16x64 .f32) (harg1 : arg1.IsWhole) (arg2 : Memref sig .tc .vmem S256x16x64 .f32) (harg2 : arg2.IsWhole) (arg3 : Memref sig .tc .vmem S256x16x64 .f32) (harg3 : arg3.IsWhole) (arg4 : Memref sig .tc .vmem S256x16x64 .f32) (harg4 : arg4.IsWhole) (arg5 : Memref sig .tc .vmem S256x8x8 .f32) (harg5 : arg5.IsWhole) (arg6 : Memref sig .tc .vmem S256x8x64 .f32) (harg6 : arg6.IsWhole) (x0 : Vec Ideal S256x16x64 .f32) (x1 : Vec Ideal S256x16x64 .f32) (x2 : Vec Ideal S256x16x64 .f32) (n : Fin 256) (o : Fin 2) (a : Fin 8) (d : Fin 64) (h : 8 * o.val + a.val < 16),
    out0_A_3 (F := Ideal) c i arg1 harg1 arg2 harg2 arg3 harg3 arg4 harg4 arg5 harg5 arg6 harg6 x0 x1 x2 (ix3 n (⟨8 * o.val + a.val, h⟩ : Fin 16) d)
      = mix (blkRows x0 n o) (blkRows x1 n o) (blkRows x2 n o) a d

end Cert.KernelSpec

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.LibRowOps.lean ====
/-
  Three more reads of rank-3 layout operations at an index, for any extents, beside the keepdims reads:

  * a slice that keeps one row `r` of the middle axis, `[a, b, c] → [a, 1, c]`, reads the operand at `(i, r, k)`;
  * an `[a, 1, c]` array cast to `[a, c]` reads, at `(i, k)`, the operand at `(i, 0, k)`;
  * hence one row of the middle axis broadcast over that axis again reads the operand at `(i, r, k)` everywhere.
-/
import Idealize.ShloMosaic.Lib.ValueIdx
import Idealize.ShloMosaic.Lib.Pipeline.Value

noncomputable section

namespace Idealize.ShloMosaic.RowOps

open Idealize.ShloMosaic Idealize.ShloMosaic.ValueIdx

variable {α : Type} {a b c : ℕ}

/-- The slice keeping row `r` of the middle axis, at `(i, u, k)`: the operand at `(i, r, k)`. -/
theorem slice_row_apply (x : (⟨3, ![a, b, c]⟩ : Shape).Idx → α) (off : Fin 3 → ℕ) (r : Fin b)
    (hoff : off = ![0, r.val, 0]) (h : (⟨3, ![a, b, c]⟩ : Shape).Slices off ⟨3, ![a, 1, c]⟩)
    (i : Fin a) (u : Fin 1) (k : Fin c) :
    extractStridedSlice ⟨3, ![a, 1, c]⟩ off x h (ix3 i u k) = x (ix3 i r k) := by
  subst hoff
  refine extractStridedSlice_apply _ x h (ix3 i u k) (ix3 i r k) fun ax => ?_
  have hu : u.val = 0 := by omega
  match ax with
  | ⟨0, _⟩ => show i.val = 0 + i.val; omega
  | ⟨1, _⟩ => show r.val = r.val + u.val; omega
  | ⟨2, _⟩ => show k.val = 0 + k.val; omega

/-- An `[a, 1, c]` array cast to `[a, c]` reads, at `(i, k)`, the operand at `(i, 0, k)`. -/
theorem shapeCast_a1c_ac_apply (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, b, 1]` array cast to `[a, b]` reads, at `(i, j)`, the operand at `(i, j, 0)`. -/
theorem shapeCast_ab1_ab_apply (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.RowOps

end
-- ==== Proof.AttnRows.lean ====
/-
  One block of 256 positions, one head group: the vector unit's steps read at an index.

  A block holds, for each of its 256 rows `n`, the group's eight query, key and value rows (`rowsAt`).
  * A score row: row `r` of the queries, spread over the eight key rows, multiplied entry by entry, summed along the
    last axis and scaled — at `(n, j)` this is `score` of row `n`'s queries and keys at `(r, j)`.
  * The largest score per `(n, i)`, compared once more with `-∞` and kept as a column — `rowMax` of the eight scores.
  * The weights, given that column: shifted exponentials divided by their sum along the last axis — `wgt`.
  * An output row: row `r` of the weights turned into a column, spread over the 64 lanes, multiplied with the value rows
    and summed along the MIDDLE axis — `∑ j, w (n, r, j) · v (n, j, d)`.
-/
import proofs.«144455_j4784593568285_2_alg».proof.Proof.HeadMix
import proofs.«144455_j4784593568285_2_alg».proof.Proof.LibKeepdims
import proofs.«144455_j4784593568285_2_alg».proof.Proof.LibRowOps

noncomputable section

namespace Cert.AttnRows

open Idealize.ShloMosaic Idealize.ShloMosaic.ValueIdx Idealize.ShloMosaic.Keepdims Idealize.ShloMosaic.RowOps Cert.HeadMix

/-- A group's rows over a block: `[256, 8, 64]`. -/
abbrev T : Shape := ⟨3, ![256, 8, 64]⟩
/-- A group's scores over a block: `[256, 8, 8]`. -/
abbrev P : Shape := ⟨3, ![256, 8, 8]⟩

/-- The eight rows of block row `n`. -/
def rowsAt (x : T.Idx → EReal) (n : Fin 256) : Fin 8 → Fin 64 → EReal := fun i e => x (ix3 n i e)

/-- One score row at `(n, j)`. -/
theorem scoreRow_apply (q8 k8 : FVec Ideal T .f32) (off : Fin 3 → ℕ) (r : Fin 8) (hoff : off = ![0, r.val, 0])
    (hs : T.Slices off ⟨3, ![256, 1, 64]⟩) (hb : (⟨3, ![256, 1, 64]⟩ : Shape).Broadcasts T)
    (hr : T.Reduces [2] ⟨2, ![256, 8]⟩) (hφ : FKind.Formats .f32)
    (hacc : (0x00000000#32 : BitVec 32) = FKind.add.neutral .f32 hφ) (n : Fin 256) (j : Fin 8) :
    mulf (multiReduction .add [2] ⟨2, ![256, 8]⟩
        (mulf (broadcastTo T (extractStridedSlice ⟨3, ![256, 1, 64]⟩ off q8 hs) hb) k8) 0x00000000#32 hr hφ hacc)
      (broadcast ⟨2, ![256, 8]⟩ (Scalar.ofBits (F := Ideal) .f32 0x3E000000#32)) (ix2 n j)
      = score (rowsAt q8 n) (rowsAt k8 n) r j := by
  have h1 : multiReduction (F := Ideal) .add [2] ⟨2, ![256, 8]⟩
      (mulf (broadcastTo T (extractStridedSlice ⟨3, ![256, 1, 64]⟩ off q8 hs) hb) k8) 0x00000000#32 hr hφ hacc (ix2 n j)
      = ∑ e : Fin 64, q8 (ix3 n r e) * k8 (ix3 n j e) := by
    refine (multiReduction_add_last _ _ hr hφ hacc n j).trans (Finset.sum_congr rfl fun e _ => ?_)
    have h2 : broadcastTo T (extractStridedSlice ⟨3, ![256, 1, 64]⟩ off q8 hs) hb (ix3 n j e) = q8 (ix3 n r e) :=
      (broadcastTo_a1c_abc_apply _ hb n j e).trans (slice_row_apply q8 off r hoff hs n 0 e)
    exact congrArg (· * k8 (ix3 n j e)) h2
  exact congrArg (· * c8) h1

/-- The largest score per `(n, i)`, as a column. -/
theorem maxCol_apply (s8 : FVec Ideal P .f32) (hr : P.Reduces [2] ⟨2, ![256, 8]⟩) (hφ : FKind.Formats .f32)
    (hacc : (0xFF800000#32 : BitVec 32) = FKind.maximumf.neutral .f32 hφ)
    (hc : (⟨2, ![256, 8]⟩ : Shape).ShapeCasts ⟨3, ![256, 8, 1]⟩) (n : Fin 256) (i : Fin 8) (u : Fin 1) :
    shapeCast ⟨3, ![256, 8, 1]⟩
        (maximumf (broadcast ⟨2, ![256, 8]⟩ (Scalar.ofBits (F := Ideal) .f32 0xFF800000#32))
          (multiReduction .maximumf [2] ⟨2, ![256, 8]⟩ s8 0xFF800000#32 hr hφ hacc)) hc (ix3 n i u)
      = rowMax fun j => s8 (ix3 n i j) := by
  refine (shapeCast_ab_ab1_apply _ hc n i u).trans ?_
  show max ninf (multiReduction .maximumf [2] ⟨2, ![256, 8]⟩ s8 0xFF800000#32 hr hφ hacc (ix2 n i)) = _
  exact congrArg (max ninf) (multiReduction_max_last s8 _ hr hφ hacc n i)

/-- The weights at `(n, i, j)`, given the column of row maxima. -/
theorem weights_apply (s8 : FVec Ideal P .f32) (mcol : FVec Ideal ⟨3, ![256, 8, 1]⟩ .f32)
    (hm : ∀ (n : Fin 256) (i : Fin 8), mcol (ix3 n i (0 : Fin 1)) = rowMax fun j => s8 (ix3 n i j))
    (hb : (⟨3, ![256, 8, 1]⟩ : Shape).Broadcasts P) (hr : P.Reduces [2] ⟨2, ![256, 8]⟩) (hφ : FKind.Formats .f32)
    (hacc : (0x00000000#32 : BitVec 32) = FKind.add.neutral .f32 hφ)
    (hc : (⟨2, ![256, 8]⟩ : Shape).ShapeCasts ⟨3, ![256, 8, 1]⟩) (n : Fin 256) (i j : Fin 8) :
    divf (exp (subf s8 (broadcastTo P mcol hb)))
        (broadcastTo P (shapeCast ⟨3, ![256, 8, 1]⟩
          (multiReduction .add [2] ⟨2, ![256, 8]⟩ (exp (subf s8 (broadcastTo P mcol hb))) 0x00000000#32 hr hφ hacc) hc) hb)
        (ix3 n i j)
      = wgt (fun j => s8 (ix3 n i j)) j := by
  have hex : ∀ j' : Fin 8, exp (subf s8 (broadcastTo P mcol hb)) (ix3 n i j') = ex (fun j => s8 (ix3 n i j)) j' := fun j' => by
    show Ideal.exp (s8 (ix3 n i j') - broadcastTo P mcol hb (ix3 n i j')) = Ideal.exp (s8 (ix3 n i j') - rowMax _)
    rw [broadcastTo_ab1_abc_apply mcol hb n i j', hm n i]
  show Ideal.div (exp (subf s8 (broadcastTo P mcol hb)) (ix3 n i j)) (broadcastTo P _ hb (ix3 n i j)) = Ideal.div _ _
  rw [hex j, broadcastTo_ab1_abc_apply _ hb n i j, shapeCast_ab_ab1_apply _ hc n i 0,
    multiReduction_add_last _ _ hr hφ hacc n i]
  exact congrArg (Ideal.div _) (Finset.sum_congr rfl fun j' _ => hex j')

/-- One output row at `(n, d)`. -/
theorem outRow_apply (w : FVec Ideal P .f32) (v8 : FVec Ideal T .f32) (off : Fin 3 → ℕ) (r : Fin 8)
    (hoff : off = ![0, r.val, 0]) (hs : P.Slices off ⟨3, ![256, 1, 8]⟩)
    (hc1 : (⟨3, ![256, 1, 8]⟩ : Shape).ShapeCasts ⟨2, ![256, 8]⟩)
    (hc2 : (⟨2, ![256, 8]⟩ : Shape).ShapeCasts ⟨3, ![256, 8, 1]⟩) (hb : (⟨3, ![256, 8, 1]⟩ : Shape).Broadcasts T)
    (hr : T.Reduces [1] ⟨2, ![256, 64]⟩) (hφ : FKind.Formats .f32)
    (hacc : (0x00000000#32 : BitVec 32) = FKind.add.neutral .f32 hφ) (n : Fin 256) (d : Fin 64) :
    multiReduction .add [1] ⟨2, ![256, 64]⟩
        (mulf (broadcastTo T (shapeCast ⟨3, ![256, 8, 1]⟩
          (shapeCast ⟨2, ![256, 8]⟩ (extractStridedSlice ⟨3, ![256, 1, 8]⟩ off w hs) hc1) hc2) hb) v8)
        0x00000000#32 hr hφ hacc (ix2 n d)
      = ∑ j : Fin 8, w (ix3 n r j) * v8 (ix3 n j d) := by
  refine (multiReduction_add_middle _ _ hr hφ hacc n d).trans (Finset.sum_congr rfl fun j _ => ?_)
  show broadcastTo T _ hb (ix3 n j d) * v8 (ix3 n j d) = _
  refine congrArg (· * v8 (ix3 n j d)) ?_
  rw [broadcastTo_ab1_abc_apply _ hb n j d, shapeCast_ab_ab1_apply _ hc2 n j 0, shapeCast_a1c_ac_apply _ hc1 n j]
  exact slice_row_apply w off r hoff hs n 0 j

end Cert.AttnRows

end
-- ==== Proof.AttnPieces.lean ====
/-
  The two scratch buffers as functions of their index, and each stored row as a block of that function.

  * `scoreFun q8 k8`: the `[256, 8, 8]` array whose entry `(n, i, j)` is the score of head `i` against head `j` at
    block row `n`.  The row stored through the rectangle "row `ρ` of the middle axis" is its block there.
  * `weightFun s`: the softmax of an array of scores along its last axis.
  * `mixFun q8 k8 v8`: the `[256, 8, 64]` array of output rows.  The row stored through "row `ρ`" — the weights of row
    `ρ` spread over the lanes, multiplied with the value rows, summed over the middle axis — is its block there.
-/
import proofs.«144455_j4784593568285_2_alg».proof.Proof.AttnRows
import Idealize.ShloMosaic.Lib.Pipeline.Value

noncomputable section

namespace Cert.AttnPieces

open Idealize.ShloMosaic Idealize.ShloMosaic.ValueIdx Idealize.ShloMosaic.Keepdims Idealize.ShloMosaic.RowOps
open Cert.HeadMix Cert.AttnRows

/-- The scores of a block. -/
def scoreFun (q8 k8 : T.Idx → EReal) : P.Idx → EReal := fun y =>
  score (rowsAt q8 (y 0)) (rowsAt k8 (y 0)) (y 1) (y 2)

/-- The softmax weights of an array of scores. -/
def weightFun (s8 : P.Idx → EReal) : P.Idx → EReal := fun y => wgt (fun j => s8 (ix3 (y 0) (y 1) j)) (y 2)

/-- The output rows of a block. -/
def mixFun (q8 k8 v8 : T.Idx → EReal) : T.Idx → EReal := fun y =>
  mix (rowsAt q8 (y 0)) (rowsAt k8 (y 0)) (rowsAt v8 (y 0)) (y 1) (y 2)

/-- Where local index `(n, u, k)` of the rectangle "row `ρ`" sits: `(n, ρ, k)`. -/
theorem emb_row {c : ℕ} (ρ : Fin 8)
    (inb : ∀ a, (![0, ρ.val, 0] : Fin 3 → ℕ) a + (![256, 1, c] : Fin 3 → ℕ) a ≤ (⟨3, ![256, 8, c]⟩ : Shape).size a)
    (n : Fin 256) (u : Fin 1) (k : Fin c) :
    (Rect.unit (s := ⟨3, ![256, 8, c]⟩) ![0, ρ.val, 0] ![256, 1, c] inb).emb (ix3 n u k) = ix3 n ρ k := by
  funext ax
  apply Fin.ext
  have hu : u.val = 0 := by omega
  match ax with
  | ⟨0, _⟩ => show 0 + 1 * n.val = n.val; omega
  | ⟨1, _⟩ => show ρ.val + 1 * u.val = ρ.val; omega
  | ⟨2, _⟩ => show 0 + 1 * k.val = k.val; omega

/-- A stored score row is the block of `scoreFun` at its rectangle. -/
theorem scorePiece (q8 k8 : FVec Ideal T .f32) (ρ : Fin 8) (off : Fin 3 → ℕ) (hoff : off = ![0, ρ.val, 0])
    (hs : T.Slices off ⟨3, ![256, 1, 64]⟩) (hb : (⟨3, ![256, 1, 64]⟩ : Shape).Broadcasts T)
    (hr : T.Reduces [2] ⟨2, ![256, 8]⟩) (hφ : FKind.Formats .f32)
    (hacc : (0x00000000#32 : BitVec 32) = FKind.add.neutral .f32 hφ)
    (hc : (⟨2, ![256, 8]⟩ : Shape).ShapeCasts ⟨3, ![256, 1, 8]⟩)
    (inb : ∀ a, (![0, ρ.val, 0] : Fin 3 → ℕ) a + (![256, 1, 8] : Fin 3 → ℕ) a ≤ P.size a)
    (x : (⟨3, ![256, 1, 8]⟩ : Shape).Idx) :
    shapeCast ⟨3, ![256, 1, 8]⟩
        (mulf (multiReduction .add [2] ⟨2, ![256, 8]⟩
            (mulf (broadcastTo T (extractStridedSlice ⟨3, ![256, 1, 64]⟩ off q8 hs) hb) k8) 0x00000000#32 hr hφ hacc)
          (broadcast ⟨2, ![256, 8]⟩ (Scalar.ofBits (F := Ideal) .f32 0x3E000000#32))) hc x
      = scoreFun q8 k8 ((Rect.unit (s := P) ![0, ρ.val, 0] ![256, 1, 8] inb).emb x) := by
  obtain ⟨n, u, j, rfl⟩ : ∃ (n : Fin 256) (u : Fin 1) (j : Fin 8), x = ix3 n u j := ⟨x 0, x 1, x 2, eq_ix3 x⟩
  rw [emb_row ρ inb n u j]
  refine (shapeCast_ac_a1c_apply _ hc n u j).trans ?_
  exact scoreRow_apply q8 k8 off ρ hoff hs hb hr hφ hacc n j

/-- A stored output row is the block of "weights times values" at its rectangle. -/
theorem outPiece (w : FVec Ideal P .f32) (v8 : FVec Ideal T .f32) (ρ : Fin 8) (off : Fin 3 → ℕ)
    (hoff : off = ![0, ρ.val, 0]) (hs : P.Slices off ⟨3, ![256, 1, 8]⟩)
    (hc1 : (⟨3, ![256, 1, 8]⟩ : Shape).ShapeCasts ⟨2, ![256, 8]⟩)
    (hc2 : (⟨2, ![256, 8]⟩ : Shape).ShapeCasts ⟨3, ![256, 8, 1]⟩) (hb : (⟨3, ![256, 8, 1]⟩ : Shape).Broadcasts T)
    (hr : T.Reduces [1] ⟨2, ![256, 64]⟩) (hφ : FKind.Formats .f32)
    (hacc : (0x00000000#32 : BitVec 32) = FKind.add.neutral .f32 hφ)
    (hc3 : (⟨2, ![256, 64]⟩ : Shape).ShapeCasts ⟨3, ![256, 1, 64]⟩)
    (inb : ∀ a, (![0, ρ.val, 0] : Fin 3 → ℕ) a + (![256, 1, 64] : Fin 3 → ℕ) a ≤ T.size a)
    (x : (⟨3, ![256, 1, 64]⟩ : Shape).Idx) :
    shapeCast ⟨3, ![256, 1, 64]⟩
        (multiReduction .add [1] ⟨2, ![256, 64]⟩
          (mulf (broadcastTo T (shapeCast ⟨3, ![256, 8, 1]⟩
            (shapeCast ⟨2, ![256, 8]⟩ (extractStridedSlice ⟨3, ![256, 1, 8]⟩ off w hs) hc1) hc2) hb) v8)
          0x00000000#32 hr hφ hacc) hc3 x
      = (fun y : T.Idx => ∑ j : Fin 8, w (ix3 (y 0) (y 1) j) * v8 (ix3 (y 0) j (y 2)))
          ((Rect.unit (s := T) ![0, ρ.val, 0] ![256, 1, 64] inb).emb x) := by
  obtain ⟨n, u, d, rfl⟩ : ∃ (n : Fin 256) (u : Fin 1) (d : Fin 64), x = ix3 n u d := ⟨x 0, x 1, x 2, eq_ix3 x⟩
  rw [emb_row ρ inb n u d]
  refine (shapeCast_ac_a1c_apply _ hc3 n u d).trans ?_
  exact outRow_apply w v8 off ρ hoff hs hc1 hc2 hb hr hφ hacc n d

/-- Weights of the scores, times values, summed: the output rows. -/
theorem mixFun_eq (q8 k8 v8 : T.Idx → EReal) (y : T.Idx) :
    (∑ j : Fin 8, weightFun (scoreFun q8 k8) (ix3 (y 0) (y 1) j) * v8 (ix3 (y 0) j (y 2))) = mixFun q8 k8 v8 y := rfl

end Cert.AttnPieces

end
-- ==== Proof.KernelBlock.lean ====
/-
  What the body leaves in its output block (`Cert.KernelSpec.OutSpec`).

  The body handles the two head groups one after the other and in the same way.  For group `o` it loads the group's
  eight query, key and value rows of every block row (`grpOf x o`).  It writes the eight score rows into the first
  scratch buffer, one store per row; read back whole, that buffer is the score array `scoreFun` — every store is the
  block of that one function at its row, and the eight rows tile the buffer.  The softmax of the scores along the last
  axis is `weightFun`.  The eight output rows go into the second scratch buffer, one store per row; read back whole it
  is `mixFun`, the head-mixing formula at every row.  That array is stored into rows `8 o … 8 o + 7` of the output
  block.  The second group's stores land on top of the first group's in both scratch buffers, and the newest store that
  covers an index is the one that is read.
-/
import proofs.«144455_j4784593568285_2_alg».proof.Proof.KernelSpec
import proofs.«144455_j4784593568285_2_alg».proof.Proof.AttnPieces
import Idealize.ShloMosaic.Lib.Pipeline.Value
import Idealize.ShloMosaic.Lib.Pipeline.CanonAppend
import Idealize.ShloMosaic.Lib.Tactic

noncomputable section

namespace Cert.KernelBlock

open Idealize.ShloMosaic Idealize.ShloMosaic.TcCoe Idealize.ShloMosaic.Tactic Idealize.SL.Sem Idealize.ShloMosaic.ValueIdx
open Cert.KernelIdeal Cert.KernelIdeal.Gen Cert.HeadMix Cert.AttnRows Cert.AttnPieces Cert.KernelSpec

/-- A property of each of eight listed things holds of every member of the list. -/
theorem forall_mem8 {α : Type} {p : α → Prop} {a0 a1 a2 a3 a4 a5 a6 a7 : α}
    (h0 : p a0) (h1 : p a1) (h2 : p a2) (h3 : p a3) (h4 : p a4) (h5 : p a5) (h6 : p a6) (h7 : p a7) :
    ∀ x ∈ [a0, a1, a2, a3, a4, a5, a6, a7], p x := by
  intro x hx
  simp only [List.mem_cons, List.not_mem_nil, or_false] at hx
  rcases hx with rfl | rfl | rfl | rfl | rfl | rfl | rfl | rfl <;> assumption

/-- The rows of head group `o` of a block, as a `[256, 8, 64]` array. -/
def grpOf (x : Vec Ideal S256x16x64 .f32) (o : Fin 2) : T.Idx → EReal := fun y =>
  x (ix3 (y 0) (⟨8 * o.val + (y 1).val, by have := o.isLt; have h : (y 1).val < 8 := (y 1).isLt; omega⟩ : Fin 16) (y 2))

/-- Row `n` of group `o`, either way. -/
theorem rowsAt_grpOf (x : Vec Ideal S256x16x64 .f32) (o : Fin 2) (n : Fin 256) : rowsAt (grpOf x o) n = blkRows x n o := rfl

/-- The whole-shape rectangle at zero offsets places an index at itself. -/
theorem idx_whole3 {d : Fin 3 → ℕ} (inb : ∀ a, (![0, 0, 0] : Fin 3 → ℕ) a + d a ≤ (⟨3, d⟩ : Shape).size a)
    (y : (⟨3, d⟩ : Shape).Idx) : (Rect.unit (s := ⟨3, d⟩) ![0, 0, 0] d inb).idx y = y := by
  funext ax
  apply Fin.ext
  match ax with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The load of group `o`'s eight rows of a staged block. -/
theorem load_grp (arg : Memref sig .tc .vmem S256x16x64 .f32) (harg : arg.IsWhole) (x : Vec Ideal S256x16x64 .f32)
    (o : Fin 2) (off : Fin 3 → ℕ) (hoff : off = ![0, 8 * o.val, 0])
    (inb : ∀ a, off a + S256x8x64.size a ≤ S256x16x64.size a) :
    View.readAt (Elt Ideal) arg.view (Rect.unit (s := S256x16x64) off S256x8x64.size inb).toLoadRect (harg.unread x)
      = grpOf x o := by
  subst hoff
  rw [View.readAt_eq_ld, harg.read_unread]
  funext y
  show x ((Rect.unit (s := S256x16x64) ![0, 8 * o.val, 0] S256x8x64.size inb).idx y) = x _
  refine congrArg x (funext fun ax => Fin.ext ?_)
  match ax with
  | ⟨0, _⟩ => show 0 + 1 * (y 0).val = (y 0).val; omega
  | ⟨1, _⟩ => show 8 * o.val + 1 * (y 1).val = 8 * o.val + (y 1).val; omega
  | ⟨2, _⟩ => show 0 + 1 * (y 2).val = (y 2).val; omega

/-- The softmax step in the first group's spelling. -/
theorem pay12_eq (s8 : Vec Ideal S256x8x8 .f32) : k0_pay12 (F := Ideal) s8 = weightFun s8 := by
  funext y
  obtain ⟨n, i, j, rfl⟩ : ∃ (n : Fin 256) (i j : Fin 8), y = ix3 n i j := ⟨y 0, y 1, y 2, eq_ix3 y⟩
  exact weights_apply s8 _ (fun n i => maxCol_apply s8 _ _ _ _ n i 0) _ _ _ _ _ n i j

/-- The softmax step in the second group's spelling (the column of row maxima made first). -/
theorem pay37_eq (s8 : Vec Ideal S256x8x8 .f32) : k0_pay37 (F := Ideal) s8 (k0_pay36 s8) = weightFun s8 := by
  funext y
  obtain ⟨n, i, j, rfl⟩ : ∃ (n : Fin 256) (i j : Fin 8), y = ix3 n i j := ⟨y 0, y 1, y 2, eq_ix3 y⟩
  exact weights_apply s8 _ (fun n i => maxCol_apply s8 _ _ _ _ n i 0) _ _ _ _ _ n i j

section Body

variable (c : Dev nD) (i : grid0.Coords) (arg1 : Memref sig .tc .vmem S256x16x64 .f32) (harg1 : arg1.IsWhole) (arg2 : Memref sig .tc .vmem S256x16x64 .f32) (harg2 : arg2.IsWhole) (arg3 : Memref sig .tc .vmem S256x16x64 .f32) (harg3 : arg3.IsWhole) (arg4 : Memref sig .tc .vmem S256x16x64 .f32) (harg4 : arg4.IsWhole) (arg5 : Memref sig .tc .vmem S256x8x8 .f32) (harg5 : arg5.IsWhole) (arg6 : Memref sig .tc .vmem S256x8x64 .f32) (harg6 : arg6.IsWhole) (x0 : Vec Ideal S256x16x64 .f32) (x1 : Vec Ideal S256x16x64 .f32) (x2 : Vec Ideal S256x16x64 .f32)

/-! ## The first group -/

theorem q0_eq : (k0_pay1 (F := Ideal) (View.readAt (Elt Ideal) arg1.view (Rect.unit (s := S256x16x64) ![0, 0, 0] S256x8x64.size inb_S256x16x64_S256x8x64_0_0_0).toLoadRect (harg1.unread x0))) = grpOf x0 0 :=
  (shapeCast_self _ _).trans (load_grp arg1 harg1 x0 0 _ rfl _)
theorem k0_eq : (k0_pay2 (F := Ideal) (View.readAt (Elt Ideal) arg2.view (Rect.unit (s := S256x16x64) ![0, 0, 0] S256x8x64.size inb_S256x16x64_S256x8x64_0_0_0).toLoadRect (harg2.unread x1))) = grpOf x1 0 :=
  (shapeCast_self _ _).trans (load_grp arg2 harg2 x1 0 _ rfl _)
theorem v0_eq : (kernelRun0_A.sl.r_2 (F := Ideal) c arg3 harg3 x2) = grpOf x2 0 :=
  (shapeCast_self _ _).trans (load_grp arg3 harg3 x2 0 _ rfl _)

/-- The first scratch buffer read back after the first group's eight stores: the group's scores. -/
theorem scores0 : (kernelRun0_A.sl.v78 (F := Ideal) c arg1 harg1 arg2 harg2 arg5 x0 x1) = scoreFun (grpOf x0 0) (grpOf x1 0) := by
  show arg5.view.readCov (kernelRun0_A.sl.HS0_8 (F := Ideal) c arg1 harg1 arg2 harg2 x0 x1) _ = _
  rw [View.readCov_eq_canon']
  funext y
  show View.canon (kernelRun0_A.sl.HS0_8 (F := Ideal) c arg1 harg1 arg2 harg2 x0 x1) ((Rect.unit (s := S256x8x8) ![0, 0, 0] S256x8x8.size inb_S256x8x8_S256x8x8_0_0_0).idx y) = _
  rw [idx_whole3]
  have hq := q0_eq arg1 harg1 x0
  have hk := k0_eq arg2 harg2 x1
  refine View.canon_apply_of_pieces (Val := Elt Ideal) (e := .f32) (S := S256x8x8) (scoreFun (grpOf x0 0) (grpOf x1 0)) _ ?_ y
    (View.cover_of_tiledL (s := S256x8x8) _ S256x1x8.size (by sl_kernel_rfl) y)
  refine forall_mem8 ?_ ?_ ?_ ?_ ?_ ?_ ?_ ?_ <;> intro x
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 7 _ rfl slices_S256x8x64_o0_7_0_S256x1x64 broadcasts_S256x1x64_S256x8x64 reduces_S256x8x64_S256x8 (.inl rfl) rfl shapeCasts_S256x8_S256x1x8 inb_S256x8x8_S256x1x8_0_7_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 6 _ rfl slices_S256x8x64_o0_6_0_S256x1x64 broadcasts_S256x1x64_S256x8x64 reduces_S256x8x64_S256x8 (.inl rfl) rfl shapeCasts_S256x8_S256x1x8 inb_S256x8x8_S256x1x8_0_6_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 5 _ rfl slices_S256x8x64_o0_5_0_S256x1x64 broadcasts_S256x1x64_S256x8x64 reduces_S256x8x64_S256x8 (.inl rfl) rfl shapeCasts_S256x8_S256x1x8 inb_S256x8x8_S256x1x8_0_5_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 4 _ rfl slices_S256x8x64_o0_4_0_S256x1x64 broadcasts_S256x1x64_S256x8x64 reduces_S256x8x64_S256x8 (.inl rfl) rfl shapeCasts_S256x8_S256x1x8 inb_S256x8x8_S256x1x8_0_4_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 3 _ rfl slices_S256x8x64_o0_3_0_S256x1x64 broadcasts_S256x1x64_S256x8x64 reduces_S256x8x64_S256x8 (.inl rfl) rfl shapeCasts_S256x8_S256x1x8 inb_S256x8x8_S256x1x8_0_3_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 2 _ rfl slices_S256x8x64_o0_2_0_S256x1x64 broadcasts_S256x1x64_S256x8x64 reduces_S256x8x64_S256x8 (.inl rfl) rfl shapeCasts_S256x8_S256x1x8 inb_S256x8x8_S256x1x8_0_2_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 1 _ rfl slices_S256x8x64_o0_1_0_S256x1x64 broadcasts_S256x1x64_S256x8x64 reduces_S256x8x64_S256x8 (.inl rfl) rfl shapeCasts_S256x8_S256x1x8 inb_S256x8x8_S256x1x8_0_1_0 x).trans (by rw [hq, hk] <;> rfl)
  · exact (scorePiece (k0_pay1 (F := Ideal) (View.readAt (Elt Ideal) arg1.view (Rect.unit (s := S256x16x64) ![0, 0, 0] S256x8x64.size inb_S256x16x64_S256x8x64_0_0_0).toLoadRect (harg1.unread x0))) (k0_pay2 (F := Ideal) (View.readAt (Elt Ideal) arg2.view (Rect.unit (s := S256x16x64) ![0, 0, 0] S256x8x64.size inb_S256x16x64_S256x8x64_0_0_0).toLoadRect (harg2.unread x1))) 0 _ rfl slices_S256x8x64_o0_0_0_S256x1x64 broadcasts_S256x1x64_S256x8x64 reduces_S256x8x64_S256x8 (.inl rfl) rfl shapeCasts_S256x8_S256x1x8 inb_S256x8x8_S256x1x8_0_0_0 x).trans (by rw [hq, hk] <;> rfl)

/-- The first group's softmax weights. -/
theorem weights0 : (k0_pay12 (F := Ideal) (kernelRun0_A.sl.v78 (F := Ideal) c arg1 harg1 arg2 harg2 arg5 x0 x1)) = weightFun (scoreFun (grpOf x0 0) (grpOf x1 0)) := by
  rw [pay12_eq, scores0]

/-- The second scratch buffer read back after the first group's eight stores: the group's output rows. -/
theorem outs0 : kernelRun0_A.sl.v162 (F := Ideal) c arg1 harg1 arg2 harg2 arg3 harg3 arg5 arg6 x0 x1 x2 = mixFun (grpOf x0 0) (grpOf x1 0) (grpOf x2 0) := by
  show arg6.view.readCov (kernelRun0_A.sl.HS1_8 (F := Ideal) c arg1 harg1 arg2 harg2 arg3 harg3 arg5 x0 x1 x2) _ = _
  rw [View.readCov_eq_canon']
  funext y
  show View.canon (kernelRun0_A.sl.HS1_8 (F := Ideal) c arg1 harg1 arg2 harg2 arg3 harg3 arg5 x0 x1 x2) ((Rect.unit (s := S256x8x64) ![0, 0, 0] S256x8x64.size inb_S256x8x64_S256x8x64_0_0_0).idx y) = _
  rw [idx_whole3]
  have hw := weights0 c arg1 harg1 arg2 harg2 arg5 x0 x1
  have hv := v0_eq c arg3 harg3 x2
  refine View.canon_apply_of_pieces (Val := Elt Ideal) (e := .f32) (S := S256x8x64) (mixFun (grpOf x0 0) (grpOf x1 0) (grpOf x2 0)) _ ?_ y
    (View.cover_of_tiledL (s := S256x8x64) _ S256x1x64.size (by sl_kernel_rfl) y)
  refine forall_mem8 ?_ ?_ ?_ ?_ ?_ ?_ ?_ ?_ <;> intro x
  · exact (outPiece (k0_pay12 (F := Ideal) (kernelRun0_A.sl.v78 (F := Ideal) c arg1 harg1 arg2 harg2 arg5 x0 x1)) (kernelRun0_A.sl.r_2 (F := Ideal) c arg3 harg3 x2) 7 _ rfl slices_S256x8x8_o0_7_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_7_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 6 _ rfl slices_S256x8x8_o0_6_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_6_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 5 _ rfl slices_S256x8x8_o0_5_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_5_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 4 _ rfl slices_S256x8x8_o0_4_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_4_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 3 _ rfl slices_S256x8x8_o0_3_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_3_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 2 _ rfl slices_S256x8x8_o0_2_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_2_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 1 _ rfl slices_S256x8x8_o0_1_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_1_0 x).trans (by rw [hw, hv]; exact mixFun_eq (grpOf x0 0) (grpOf x1 0) (grpOf x2 0) _)
  · exact (outPiece (k0_pay12 (F := Ideal) (kernelRun0_A.sl.v78 (F := Ideal) c arg1 harg1 arg2 harg2 arg5 x0 x1)) (kernelRun0_A.sl.r_2 (F := Ideal) c arg3 harg3 x2) 0 _ rfl slices_S256x8x8_o0_0_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_0_0 x).trans (by rw [hw, hv]; exact mixFun_eq (grpOf x0 0) (grpOf x1 0) (grpOf x2 0) _)

/-! ## The second group -/

theorem q1_eq : (k0_pay23 (F := Ideal) (View.readAt (Elt Ideal) arg1.view (Rect.unit (s := S256x16x64) ![0, 8, 0] S256x8x64.size inb_S256x16x64_S256x8x64_0_8_0).toLoadRect (harg1.unread x0))) = grpOf x0 1 :=
  (shapeCast_self _ _).trans (load_grp arg1 harg1 x0 1 _ rfl _)
theorem k1_eq : (k0_pay24 (F := Ideal) (View.readAt (Elt Ideal) arg2.view (Rect.unit (s := S256x16x64) ![0, 8, 0] S256x8x64.size inb_S256x16x64_S256x8x64_0_8_0).toLoadRect (harg2.unread x1))) = grpOf x1 1 :=
  (shapeCast_self _ _).trans (load_grp arg2 harg2 x1 1 _ rfl _)
theorem v1_eq : (kernelRun0_A.sl.r_10 (F := Ideal) c arg3 harg3 x2) = grpOf x2 1 :=
  (shapeCast_self _ _).trans (load_grp arg3 harg3 x2 1 _ rfl _)

/-- The first scratch buffer read back after the second group's eight stores, which land on top of the first group's. -/
theorem scores1 : (kernelRun0_A.sl.v242 (F := Ideal) c arg1 harg1 arg2 harg2 arg5 x0 x1) = scoreFun (grpOf x0 1) (grpOf x1 1) := by
  show arg5.view.readCov (kernelRun0_A.sl.HS0_16 (F := Ideal) c arg1 harg1 arg2 harg2 x0 x1) _ = _
  rw [View.readCov_eq_canon']
  funext y
  show View.canon ([⟨_, _⟩, ⟨_, _⟩, ⟨_, _⟩, ⟨_, _⟩, ⟨_, _⟩, ⟨_, _⟩, ⟨_, _⟩, ⟨_, _⟩] ++ kernelRun0_A.sl.HS0_8 (F := Ideal) c arg1 harg1 arg2 harg2 x0 x1) ((Rect.unit (s := S256x8x8) ![0, 0, 0] S256x8x8.size inb_S256x8x8_S256x8x8_0_0_0).idx y) = _
  rw [idx_whole3]
  have hq := q1_eq arg1 harg1 x0
  have hk := k1_eq arg2 harg2 x1
  refine View.canon_append_of_pieces (Val := Elt Ideal) (e := .f32) (S := S256x8x8) (scoreFun (grpOf x0 1) (grpOf x1 1)) _ _ ?_ y
    (View.cover_of_tiledL (s := S256x8x8) _ S256x1x8.size (by sl_kernel_rfl) y)
  refine forall_mem8 ?_ ?_ ?_ ?_ ?_ ?_ ?_ ?_ <;> intro x
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 7 _ rfl slices_S256x8x64_o0_7_0_S256x1x64 broadcasts_S256x1x64_S256x8x64 reduces_S256x8x64_S256x8 (.inl rfl) rfl shapeCasts_S256x8_S256x1x8 inb_S256x8x8_S256x1x8_0_7_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 6 _ rfl slices_S256x8x64_o0_6_0_S256x1x64 broadcasts_S256x1x64_S256x8x64 reduces_S256x8x64_S256x8 (.inl rfl) rfl shapeCasts_S256x8_S256x1x8 inb_S256x8x8_S256x1x8_0_6_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 5 _ rfl slices_S256x8x64_o0_5_0_S256x1x64 broadcasts_S256x1x64_S256x8x64 reduces_S256x8x64_S256x8 (.inl rfl) rfl shapeCasts_S256x8_S256x1x8 inb_S256x8x8_S256x1x8_0_5_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 4 _ rfl slices_S256x8x64_o0_4_0_S256x1x64 broadcasts_S256x1x64_S256x8x64 reduces_S256x8x64_S256x8 (.inl rfl) rfl shapeCasts_S256x8_S256x1x8 inb_S256x8x8_S256x1x8_0_4_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 3 _ rfl slices_S256x8x64_o0_3_0_S256x1x64 broadcasts_S256x1x64_S256x8x64 reduces_S256x8x64_S256x8 (.inl rfl) rfl shapeCasts_S256x8_S256x1x8 inb_S256x8x8_S256x1x8_0_3_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 2 _ rfl slices_S256x8x64_o0_2_0_S256x1x64 broadcasts_S256x1x64_S256x8x64 reduces_S256x8x64_S256x8 (.inl rfl) rfl shapeCasts_S256x8_S256x1x8 inb_S256x8x8_S256x1x8_0_2_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 1 _ rfl slices_S256x8x64_o0_1_0_S256x1x64 broadcasts_S256x1x64_S256x8x64 reduces_S256x8x64_S256x8 (.inl rfl) rfl shapeCasts_S256x8_S256x1x8 inb_S256x8x8_S256x1x8_0_1_0 x).trans (by rw [hq, hk] <;> rfl)
  · exact (scorePiece (k0_pay23 (F := Ideal) (View.readAt (Elt Ideal) arg1.view (Rect.unit (s := S256x16x64) ![0, 8, 0] S256x8x64.size inb_S256x16x64_S256x8x64_0_8_0).toLoadRect (harg1.unread x0))) (k0_pay24 (F := Ideal) (View.readAt (Elt Ideal) arg2.view (Rect.unit (s := S256x16x64) ![0, 8, 0] S256x8x64.size inb_S256x16x64_S256x8x64_0_8_0).toLoadRect (harg2.unread x1))) 0 _ rfl slices_S256x8x64_o0_0_0_S256x1x64 broadcasts_S256x1x64_S256x8x64 reduces_S256x8x64_S256x8 (.inl rfl) rfl shapeCasts_S256x8_S256x1x8 inb_S256x8x8_S256x1x8_0_0_0 x).trans (by rw [hq, hk] <;> rfl)

/-- The second group's softmax weights. -/
theorem weights1 : (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) = weightFun (scoreFun (grpOf x0 1) (grpOf x1 1)) := by
  rw [pay37_eq, scores1]

/-- The second scratch buffer read back after the second group's eight stores. -/
theorem outs1 : kernelRun0_A.sl.v326 (F := Ideal) c arg1 harg1 arg2 harg2 arg3 harg3 arg5 arg6 x0 x1 x2 = mixFun (grpOf x0 1) (grpOf x1 1) (grpOf x2 1) := by
  show arg6.view.readCov (kernelRun0_A.sl.HS1_16 (F := Ideal) c arg1 harg1 arg2 harg2 arg3 harg3 arg5 x0 x1 x2) _ = _
  rw [View.readCov_eq_canon']
  funext y
  show View.canon ([⟨_, _⟩, ⟨_, _⟩, ⟨_, _⟩, ⟨_, _⟩, ⟨_, _⟩, ⟨_, _⟩, ⟨_, _⟩, ⟨_, _⟩] ++ kernelRun0_A.sl.HS1_8 (F := Ideal) c arg1 harg1 arg2 harg2 arg3 harg3 arg5 x0 x1 x2) ((Rect.unit (s := S256x8x64) ![0, 0, 0] S256x8x64.size inb_S256x8x64_S256x8x64_0_0_0).idx y) = _
  rw [idx_whole3]
  have hw := weights1 c arg1 harg1 arg2 harg2 arg5 x0 x1
  have hv := v1_eq c arg3 harg3 x2
  refine View.canon_append_of_pieces (Val := Elt Ideal) (e := .f32) (S := S256x8x64) (mixFun (grpOf x0 1) (grpOf x1 1) (grpOf x2 1)) _ _ ?_ y
    (View.cover_of_tiledL (s := S256x8x64) _ S256x1x64.size (by sl_kernel_rfl) y)
  refine forall_mem8 ?_ ?_ ?_ ?_ ?_ ?_ ?_ ?_ <;> intro x
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 7 _ rfl slices_S256x8x8_o0_7_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_7_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 6 _ rfl slices_S256x8x8_o0_6_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_6_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 5 _ rfl slices_S256x8x8_o0_5_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_5_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 4 _ rfl slices_S256x8x8_o0_4_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_4_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 3 _ rfl slices_S256x8x8_o0_3_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_3_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 2 _ rfl slices_S256x8x8_o0_2_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_2_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 1 _ rfl slices_S256x8x8_o0_1_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_1_0 x).trans (by rw [hw, hv]; exact mixFun_eq (grpOf x0 1) (grpOf x1 1) (grpOf x2 1) _)
  · exact (outPiece (k0_pay37 (F := Ideal) (kernelRun0_A.sl.v242 (F := Ideal) c arg1 harg1 arg2 harg2 arg5 x0 x1) (k0_pay36 (F := Ideal) (kernelRun0_A.sl.v242 (F := Ideal) c arg1 harg1 arg2 harg2 arg5 x0 x1))) (kernelRun0_A.sl.r_10 (F := Ideal) c arg3 harg3 x2) 0 _ rfl slices_S256x8x8_o0_0_0_S256x1x8 shapeCasts_S256x1x8_S256x8 shapeCasts_S256x8_S256x8x1 broadcasts_S256x8x1_S256x8x64 reduces_S256x8x64_S256x64 (.inl rfl) rfl shapeCasts_S256x64_S256x1x64 inb_S256x8x64_S256x1x64_0_0_0 x).trans (by rw [hw, hv]; exact mixFun_eq (grpOf x0 1) (grpOf x1 1) (grpOf x2 1) _)

end Body

/-- Where local index `(n, a, d)` of the rectangle "rows `8 o … 8 o + 7`" sits: `(n, 8 o + a, d)`. -/
theorem emb_rows (o : Fin 2) (off : Fin 3 → ℕ) (hoff : off = ![0, 8 * o.val, 0])
    (inb : ∀ a, off a + (![256, 8, 64] : Fin 3 → ℕ) a ≤ S256x16x64.size a)
    (n : Fin 256) (a : Fin 8) (d : Fin 64) (h : 8 * o.val + a.val < 16) :
    (Rect.unit (s := S256x16x64) off ![256, 8, 64] inb).emb (ix3 n a d) = ix3 n (⟨8 * o.val + a.val, h⟩ : Fin 16) d := by
  subst hoff
  funext ax
  apply Fin.ext
  match ax with
  | ⟨0, _⟩ => show 0 + 1 * n.val = n.val; omega
  | ⟨1, _⟩ => show 8 * o.val + 1 * a.val = 8 * o.val + a.val; omega
  | ⟨2, _⟩ => show 0 + 1 * d.val = d.val; omega

/-- The output rows at `(n, a, d)` are the head-mixing formula of row `n`'s group rows. -/
theorem mixFun_grp (x0 x1 x2 : Vec Ideal S256x16x64 .f32) (o : Fin 2) (n : Fin 256) (a : Fin 8) (d : Fin 64) :
    mixFun (grpOf x0 o) (grpOf x1 o) (grpOf x2 o) (ix3 n a d) = mix (blkRows x0 n o) (blkRows x1 n o) (blkRows x2 n o) a d := by
  show mix (rowsAt (grpOf x0 o) n) (rowsAt (grpOf x1 o) n) (rowsAt (grpOf x2 o) n) a d = _
  rw [rowsAt_grpOf, rowsAt_grpOf, rowsAt_grpOf]

/-- The body's output block is the head-mixing formula, row by row. -/
theorem outSpec : OutSpec := by
  intro c i arg1 harg1 arg2 harg2 arg3 harg3 arg4 harg4 arg5 harg5 arg6 harg6 x0 x1 x2 n o a d h
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  rw [outs1 c arg1 harg1 arg2 harg2 arg3 harg3 arg5 arg6 x0 x1 x2, outs0 c arg1 harg1 arg2 harg2 arg3 harg3 arg5 arg6 x0 x1 x2]
  have ho : o = 0 ∨ o = 1 := by
    have := o.isLt
    rcases Nat.lt_or_ge o.val 1 with h0 | h1
    · left; exact Fin.ext (show o.val = 0 by omega)
    · right; exact Fin.ext (show o.val = 1 by omega)
  rcases ho with rfl | rfl
  · rw [View.canon_cons_of_not_mem _ _ (by
      rw [Rect.mem_set_unit]
      intro hh
      have h1 := (hh 1).1
      have h2 : (8 : ℕ) ≤ 8 * 0 + a.val := h1
      have := a.isLt
      omega)]
    rw [← emb_rows 0 ![0, 0, 0] rfl inb_S256x16x64_S256x8x64_0_0_0 n a d h, View.canon_cons_emb]
    exact mixFun_grp x0 x1 x2 0 n a d
  · rw [← emb_rows 1 ![0, 8, 0] rfl inb_S256x16x64_S256x8x64_0_8_0 n a d h, View.canon_cons_emb]
    exact mixFun_grp x0 x1 x2 1 n a d

end Cert.KernelBlock

end
-- ==== Proof.KernelEntry.lean ====
/-
  What the kernel's region finds, and what each grid point is handed.

  The program first flattens each argument `[4, 4096, 16, 64]` to `[16384, 16, 64]`: flat row `N = 4096 b + s` is batch
  entry `b`, position `s`.  The grid has 64 points; point `t` is handed rows `256 t … 256 t + 255` of each flattened
  argument, all sixteen heads and all 64 lanes.  So the block of argument `w` at point `t`, read at row `n`, head `h`,
  lane `e`, is the argument at `(b, s, h, e)` whenever `4096 b + s = 256 t + n`.
-/
import Idealize.ShloMosaic.PureOps.Ideal
import Idealize.ShloMosaic.Lib.Pipeline.Value
import Idealize.ShloMosaic.Lib.ValueIdx
import Idealize.ShloMosaic.Lib.StableHlo.Run
import proofs.«144455_j4784593568285_2_alg».proof.Proof.Gen.KernelIdeal.Frame

noncomputable section

open Idealize.ShloMosaic Idealize.ShloMosaic.TcCoe Idealize.SL.Sem Idealize.ShloMosaic.ValueIdx
open Idealize.ShloMosaic.Pipeline (Dat)

namespace Cert.KernelEntry

open Cert.KernelIdeal Cert.KernelIdeal.Gen
open Idealize.ShloMosaic.StableHlo

variable (m : (ℓ : Loc nD τ sig) → Buf (Elt Ideal) ℓ)

/-! ## The flattened arguments -/

/-- A flattened array at flat row `N = 4096 b + s` is the array at `(b, s)`. -/
theorem flat_apply (x : S4x4096x16x64.Idx → EReal) (hc : S4x4096x16x64.ShapeCasts S16384x16x64)
    (N : Fin 16384) (h : Fin 16) (e : Fin 64) (b : Fin 4) (s : Fin 4096) (hN : N.val = 4096 * b.val + s.val) :
    shapeCast S16384x16x64 x hc (ix3 N h e) = x (ix4 b s h e) :=
  shapeCast_apply x hc (ix3 N h e) (ix4 b s h e) (by
    rw [Shape.rowMajor_val_four, Shape.rowMajor_val_three]
    show ((b.val * 4096 + s.val) * 16 + h.val) * 64 + e.val = (N.val * 16 + h.val) * 64 + e.val
    omega)

/-- The region finds the first window's array at the flattened first argument. -/
theorem entry_v0 (c : Dev nD) :
    (V m c main_v0 : S16384x16x64.Idx → EReal)
      = shapeCast S16384x16x64 (m ((c.tc : Thread nD τ).loc main_arg0) : S4x4096x16x64.Idx → EReal)
          Facts₀.shapeCasts_S4x4096x16x64_S16384x16x64 := by
  show StableHlo.after hostOps0 (fun b => m (c, b)) (Proc.devRef .tc main_v0) = _
  after_results
  rfl

/-- The second window's array: the flattened second argument. -/
theorem entry_v1 (c : Dev nD) :
    (V m c main_v1 : S16384x16x64.Idx → EReal)
      = shapeCast S16384x16x64 (m ((c.tc : Thread nD τ).loc main_arg1) : S4x4096x16x64.Idx → EReal)
          Facts₀.shapeCasts_S4x4096x16x64_S16384x16x64 := by
  show StableHlo.after hostOps0 (fun b => m (c, b)) (Proc.devRef .tc main_v1) = _
  after_results
  rfl

/-- The third window's array: the flattened third argument. -/
theorem entry_v2 (c : Dev nD) :
    (V m c main_v2 : S16384x16x64.Idx → EReal)
      = shapeCast S16384x16x64 (m ((c.tc : Thread nD τ).loc main_arg2) : S4x4096x16x64.Idx → EReal)
          Facts₀.shapeCasts_S4x4096x16x64_S16384x16x64 := by
  show StableHlo.after hostOps0 (fun b => m (c, b)) (Proc.devRef .tc main_v2) = _
  after_results
  rfl

/-! ## The blocks -/

/-- Every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The grid's points are `0 … 63`. -/
theorem point_lt (t : Fin cfg0.N) : t.val < 64 := by
  have h64 : cfg0.N = 64 := N_0
  have := t.isLt
  omega

/-- The first window's block at point `t` is rows `256 t … 256 t + 255` of its array. -/
theorem iblk0_apply (c : Dev nD) (t : Fin cfg0.N) (n : Fin 256) (h : Fin 16) (e : Fin 64) (N : Fin 16384)
    (hN : N.val = 256 * t.val + n.val) :
    (iblk m c 0 t : Vec Ideal S256x16x64 .f32) (ix3 n h e) = (V m c main_v0 : S16384x16x64.Idx → EReal) (ix3 N h e) := by
  obtain ⟨⟨e0, e1, e2⟩, -, -, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 256 + 1 * n.val = N.val; rw [e0, hN]; omega
  | ⟨1, _⟩ => show win0_0.index t (1 : Fin 3) * 16 + 1 * h.val = h.val; rw [e1]; omega
  | ⟨2, _⟩ => show win0_0.index t (2 : Fin 3) * 64 + 1 * e.val = e.val; rw [e2]; omega

/-- The second window's block likewise. -/
theorem iblk1_apply (c : Dev nD) (t : Fin cfg0.N) (n : Fin 256) (h : Fin 16) (e : Fin 64) (N : Fin 16384)
    (hN : N.val = 256 * t.val + n.val) :
    (iblk m c 1 t : Vec Ideal S256x16x64 .f32) (ix3 n h e) = (V m c main_v1 : S16384x16x64.Idx → EReal) (ix3 N h e) := by
  obtain ⟨-, ⟨e0, e1, e2⟩, -, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 3) * 256 + 1 * n.val = N.val; rw [e0, hN]; omega
  | ⟨1, _⟩ => show win0_1.index t (1 : Fin 3) * 16 + 1 * h.val = h.val; rw [e1]; omega
  | ⟨2, _⟩ => show win0_1.index t (2 : Fin 3) * 64 + 1 * e.val = e.val; rw [e2]; omega

/-- The third window's block likewise. -/
theorem iblk2_apply (c : Dev nD) (t : Fin cfg0.N) (n : Fin 256) (h : Fin 16) (e : Fin 64) (N : Fin 16384)
    (hN : N.val = 256 * t.val + n.val) :
    (iblk m c 2 t : Vec Ideal S256x16x64 .f32) (ix3 n h e) = (V m c main_v2 : S16384x16x64.Idx → EReal) (ix3 N h e) := by
  obtain ⟨-, -, ⟨e0, e1, e2⟩, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 3) * 256 + 1 * n.val = N.val; rw [e0, hN]; omega
  | ⟨1, _⟩ => show win0_2.index t (1 : Fin 3) * 16 + 1 * h.val = h.val; rw [e1]; omega
  | ⟨2, _⟩ => show win0_2.index t (2 : Fin 3) * 64 + 1 * e.val = e.val; rw [e2]; omega

/-! ## A block entry as an entry of the argument -/

/-- The flat row `256 t + n` of point `t`'s row `n`. -/
def rowOf (t : Fin cfg0.N) (n : Fin 256) : Fin 16384 :=
  ⟨256 * t.val + n.val, by have := point_lt t; have := n.isLt; omega⟩

/-- The first block at `(n, h, e)` is the first argument at `(b, s, h, e)`, `4096 b + s = 256 t + n`. -/
theorem iblk0_arg (c : Dev nD) (t : Fin cfg0.N) (n : Fin 256) (h : Fin 16) (e : Fin 64) (b : Fin 4) (s : Fin 4096)
    (hbs : 4096 * b.val + s.val = 256 * t.val + n.val) :
    (iblk m c 0 t : Vec Ideal S256x16x64 .f32) (ix3 n h e)
      = (m ((c.tc : Thread nD τ).loc main_arg0) : S4x4096x16x64.Idx → EReal) (ix4 b s h e) :=
  (iblk0_apply m c t n h e (rowOf t n) rfl).trans
    ((congrFun (entry_v0 m c) (ix3 (rowOf t n) h e)).trans (flat_apply _ _ (rowOf t n) h e b s hbs.symm))

/-- The second block, of the second argument. -/
theorem iblk1_arg (c : Dev nD) (t : Fin cfg0.N) (n : Fin 256) (h : Fin 16) (e : Fin 64) (b : Fin 4) (s : Fin 4096)
    (hbs : 4096 * b.val + s.val = 256 * t.val + n.val) :
    (iblk m c 1 t : Vec Ideal S256x16x64 .f32) (ix3 n h e)
      = (m ((c.tc : Thread nD τ).loc main_arg1) : S4x4096x16x64.Idx → EReal) (ix4 b s h e) :=
  (iblk1_apply m c t n h e (rowOf t n) rfl).trans
    ((congrFun (entry_v1 m c) (ix3 (rowOf t n) h e)).trans (flat_apply _ _ (rowOf t n) h e b s hbs.symm))

/-- The third block, of the third argument. -/
theorem iblk2_arg (c : Dev nD) (t : Fin cfg0.N) (n : Fin 256) (h : Fin 16) (e : Fin 64) (b : Fin 4) (s : Fin 4096)
    (hbs : 4096 * b.val + s.val = 256 * t.val + n.val) :
    (iblk m c 2 t : Vec Ideal S256x16x64 .f32) (ix3 n h e)
      = (m ((c.tc : Thread nD τ).loc main_arg2) : S4x4096x16x64.Idx → EReal) (ix4 b s h e) :=
  (iblk2_apply m c t n h e (rowOf t n) rfl).trans
    ((congrFun (entry_v2 m c) (ix3 (rowOf t n) h e)).trans (flat_apply _ _ (rowOf t n) h e b s hbs.symm))

end Cert.KernelEntry

end
-- ==== Proof.KernelFinal.lean ====
/-
  From what each grid point writes to the whole result.

  Read along flat rows, the target is `Gflat q k v`: at flat row `N`, head `h`, lane `d` the head-mixing output at
  batch entry `N / 4096`, position `N % 4096`.  Grid point `t` writes rows `256 t … 256 t + 255` of the flat result.
  Given that a point's output block holds the head-mixing formula of its three input blocks row by row, and that
  those blocks are rows `256 t …` of the flattened arguments, what point `t` writes is block `t` of `Gflat`; row `N` lies in
  the block of point `N / 256`, so the 64 blocks cover the flat result and it ends holding `Gflat`.  The program's last
  step folds the flat rows back to `[4, 4096, 16, 64]`, row `4096 b + s` to `(b, s)`, which turns `Gflat` into `G`.
-/
import Idealize.ShloMosaic.PureOps.Ideal
import Idealize.ShloMosaic.Lib.Pipeline.Value
import Idealize.ShloMosaic.Lib.ValueIdx
import Idealize.ShloMosaic.Lib.StableHlo.Run
import proofs.«144455_j4784593568285_2_alg».proof.Proof.Gen.KernelIdeal.Frame
import proofs.«144455_j4784593568285_2_alg».proof.Proof.KernelSpec
import proofs.«144455_j4784593568285_2_alg».proof.Proof.HeadMix
import proofs.«144455_j4784593568285_2_alg».proof.Proof.KernelEntry

noncomputable section

open Idealize.ShloMosaic Idealize.ShloMosaic.TcCoe Idealize.SL.Sem Idealize.ShloMosaic.ValueIdx
open Idealize.ShloMosaic.Pipeline (Dat)

namespace Cert.KernelFinal

open Cert.KernelIdeal Cert.KernelIdeal.Gen Cert.HeadMix Cert.KernelSpec Cert.KernelEntry
open Idealize.ShloMosaic.StableHlo

/-! ## The target along flat rows -/

/-- The head-mixing outputs along flat rows: row `N` is batch entry `N / 4096`, position `N % 4096`. -/
def Gflat (q k v : A4.Idx → EReal) : S16384x16x64.Idx → EReal := fun y =>
  G q k v (ix4 (⟨(y 0).val / 4096, by have h : (y 0).val < 16384 := (y 0).isLt; omega⟩ : Fin 4)
    (⟨(y 0).val % 4096, Nat.mod_lt _ (by decide)⟩ : Fin 4096)
    (⟨(y 1).val, (y 1).isLt⟩ : Fin 16) (⟨(y 2).val, (y 2).isLt⟩ : Fin 64))

/-- Folding the flat rows back gives the whole array of outputs. -/
theorem unflat (q k v : A4.Idx → EReal) (hc : S16384x16x64.ShapeCasts S4x4096x16x64) :
    shapeCast S4x4096x16x64 (Gflat q k v) hc = G q k v := by
  funext j
  obtain ⟨b, s, h, e, rfl⟩ : ∃ (b : Fin 4) (s : Fin 4096) (h : Fin 16) (e : Fin 64), j = ix4 b s h e :=
    ⟨j 0, j 1, j 2, j 3, eq_ix4 j⟩
  have hN : 4096 * b.val + s.val < 16384 := by have := b.isLt; have := s.isLt; omega
  refine (shapeCast_apply (Gflat q k v) hc (ix4 b s h e) (ix3 (⟨4096 * b.val + s.val, hN⟩ : Fin 16384) h e) (by
    rw [Shape.rowMajor_val_three, Shape.rowMajor_val_four]
    show ((4096 * b.val + s.val) * 16 + h.val) * 64 + e.val = ((b.val * 4096 + s.val) * 16 + h.val) * 64 + e.val
    omega)).trans ?_
  show G q k v _ = G q k v _
  refine congrArg (G q k v) (funext fun ax => Fin.ext ?_)
  match ax with
  | ⟨0, _⟩ => show (4096 * b.val + s.val) / 4096 = b.val; have := s.isLt; omega
  | ⟨1, _⟩ => show (4096 * b.val + s.val) % 4096 = s.val; have := s.isLt; omega
  | ⟨2, _⟩ => rfl
  | ⟨3, _⟩ => rfl

section Launch
variable (m : (ℓ : Loc nD τ sig) → Buf (Elt Ideal) ℓ)

/-- The three arguments as launched. -/
abbrev argQ (c : Dev nD) : A4.Idx → EReal := m ((c.tc : Thread nD τ).loc main_arg0)
abbrev argK (c : Dev nD) : A4.Idx → EReal := m ((c.tc : Thread nD τ).loc main_arg1)
abbrev argV (c : Dev nD) : A4.Idx → EReal := m ((c.tc : Thread nD τ).loc main_arg2)

/-! ## What one point leaves -/

/-- Point `t`'s output block at row `n`, head `8 o + a`, lane `d`: the head-mixing output at `(b, s)`, group `o`, head
`a`, where `4096 b + s` is the flat row `256 t + n`. -/
theorem outs_ix3 (hout : OutSpec) (c : Dev nD) (t : Fin cfg0.N) (n : Fin 256) (o : Fin 2) (a : Fin 8) (d : Fin 64)
    (hlt : 8 * o.val + a.val < 16) (b : Fin 4) (s : Fin 4096) (hbs : 4096 * b.val + s.val = 256 * t.val + n.val) :
    (outsAt0 m c t : Vec Ideal S256x16x64 .f32) (ix3 n (⟨8 * o.val + a.val, hlt⟩ : Fin 16) d)
      = Gat (argQ m c) (argK m c) (argV m c) b s o a d := by
  unfold outsAt0
  refine (hout c (grid0.coords t) (ms0_0 t) (hs0_0 t) (ms0_1 t) (hs0_1 t) (ms0_2 t) (hs0_2 t) (ms0_3 t) (hs0_3 t)
    scM0_0 (Memref.isWhole_whole _) scM0_1 (Memref.isWhole_whole _)
    (iblk m c 0 t) (iblk m c 1 t) (iblk m c 2 t) n o a d hlt).trans ?_
  have r0 : blkRows (iblk m c 0 t) n o = grp (argQ m c) b s o :=
    funext fun a' => funext fun e => iblk0_arg m c t n _ e b s hbs
  have r1 : blkRows (iblk m c 1 t) n o = grp (argK m c) b s o :=
    funext fun a' => funext fun e => iblk1_arg m c t n _ e b s hbs
  have r2 : blkRows (iblk m c 2 t) n o = grp (argV m c) b s o :=
    funext fun a' => funext fun e => iblk2_arg m c t n _ e b s hbs
  unfold Gat
  rw [r0, r1, r2]

/-- The same at any index `y` of the block and the index `I` of the flat result that lies `256 t` rows further. -/
theorem outs_at (hout : OutSpec) (c : Dev nD) (t : Fin cfg0.N) (y : S256x16x64.Idx) (I : S16384x16x64.Idx)
    (h0 : (I 0).val = 256 * t.val + (y 0).val) (h1 : (I 1).val = (y 1).val) (h2 : (I 2).val = (y 2).val) :
    (outsAt0 m c t : Vec Ideal S256x16x64 .f32) y = Gflat (argQ m c) (argK m c) (argV m c) I := by
  obtain ⟨n, hh, d, rfl⟩ : ∃ (n : Fin 256) (hh : Fin 16) (d : Fin 64), y = ix3 n hh d := ⟨y 0, y 1, y 2, eq_ix3 y⟩
  have hI : I = ix3 (rowOf t n) hh d := by
    funext ax
    apply Fin.ext
    match ax with
    | ⟨0, _⟩ => exact h0
    | ⟨1, _⟩ => exact h1
    | ⟨2, _⟩ => exact h2
  subst hI
  obtain ⟨o, a, hlt, rfl⟩ : ∃ (o : Fin 2) (a : Fin 8) (hlt : 8 * o.val + a.val < 16), hh = ⟨8 * o.val + a.val, hlt⟩ :=
    ⟨⟨hh.val / 8, by have := hh.isLt; omega⟩, ⟨hh.val % 8, Nat.mod_lt _ (by decide)⟩,
      by show 8 * (hh.val / 8) + hh.val % 8 < 16; have := hh.isLt; omega,
      Fin.ext (by show hh.val = 8 * (hh.val / 8) + hh.val % 8; omega)⟩
  have hr : (rowOf t n).val = 256 * t.val + n.val := rfl
  have hb4 : (rowOf t n).val / 4096 < 4 := by have := (rowOf t n).isLt; omega
  refine (outs_ix3 m hout c t n o a d hlt (⟨(rowOf t n).val / 4096, hb4⟩ : Fin 4)
    (⟨(rowOf t n).val % 4096, Nat.mod_lt _ (by decide)⟩ : Fin 4096) (by
      show 4096 * ((rowOf t n).val / 4096) + (rowOf t n).val % 4096 = 256 * t.val + n.val
      omega)).trans ?_
  exact (G_ix4 _ _ _ _ _ o a d hlt).symm

/-! ## The flat result after the 64 points -/

/-- What point `t` writes back is block `t` of `Gflat` of the arguments. -/
theorem flushed_eq (hout : OutSpec) (c : Dev nD) (t : Fin cfg0.N) :
    (dats m 0 c).flushed 3 t
      = ((cfg0.win 3).blk t).view.read (Elt Ideal) (Gflat (argQ m c) (argK m c) (argV m c)) := by
  obtain ⟨-, -, -, e0, e1, e2⟩ := idx_facts t
  show (cfg0.win 3).cut (grid0.coords t) ((dats m 0 c).after 3 t) = _
  rw [after0_3]
  funext y
  show (outsAt0 m c t : Vec Ideal S256x16x64 .f32) y
    = Gflat (argQ m c) (argK m c) (argV m c) (((cfg0.win 3).blk t).view.emb y)
  refine outs_at m hout c t y _ ?_ ?_ ?_
  · show win0_3.index t (0 : Fin 3) * 256 + 1 * (y 0).val = 256 * t.val + (y 0).val
    rw [e0]; omega
  · show win0_3.index t (1 : Fin 3) * 16 + 1 * (y 1).val = (y 1).val
    rw [e1]; omega
  · show win0_3.index t (2 : Fin 3) * 64 + 1 * (y 2).val = (y 2).val
    rw [e2]; omega

/-- An index of the flat result is in point `t`'s block iff each coordinate is in the block's range on its axis. -/
theorem mem_blk (t : Fin cfg0.N) (i : S16384x16x64.Idx) :
    i ∈ ((cfg0.win 3).blk t).view.set ↔ ∀ a : Fin 3, win0_3.index t a * S256x16x64.size a ≤ (i a).val
      ∧ (i a).val < win0_3.index t a * S256x16x64.size a + S256x16x64.size a := by
  show i ∈ ((View.whole main_v3).slice (win0_3.rect t)).set ↔ _
  rw [View.set_slice_whole, Rect.mem_set_unit]
  exact Iff.rfl

/-- Row `N` of the flat result lies in the block of point `N / 256`. -/
theorem cover (i : S16384x16x64.Idx) :
    ∃ t : Fin cfg0.N, (cfg0.win 3).flush t = true ∧ i ∈ ((cfg0.win 3).blk t).view.set := by
  have hi0 : (i 0).val < 16384 := (i 0).isLt
  have hi1 : (i 1).val < 16 := (i 1).isLt
  have hi2 : (i 2).val < 64 := (i 2).isLt
  have h64 : cfg0.N = 64 := N_0
  obtain ⟨t, ht⟩ : ∃ t : Fin cfg0.N, t.val = (i 0).val / 256 := ⟨⟨(i 0).val / 256, by omega⟩, rfl⟩
  obtain ⟨-, -, -, e0, e1, e2⟩ := idx_facts t
  refine ⟨t, flush0_3 t, ?_⟩
  rw [mem_blk]
  intro a
  match a with
  | ⟨0, _⟩ =>
    show win0_3.index t (0 : Fin 3) * 256 ≤ (i 0).val ∧ (i 0).val < win0_3.index t (0 : Fin 3) * 256 + 256
    rw [e0, ht]; omega
  | ⟨1, _⟩ =>
    show win0_3.index t (1 : Fin 3) * 16 ≤ (i 1).val ∧ (i 1).val < win0_3.index t (1 : Fin 3) * 16 + 16
    rw [e1]; omega
  | ⟨2, _⟩ =>
    show win0_3.index t (2 : Fin 3) * 64 ≤ (i 2).val ∧ (i 2).val < win0_3.index t (2 : Fin 3) * 64 + 64
    rw [e2]; omega

/-- So the flat result ends holding `Gflat` of the arguments. -/
theorem final (hout : OutSpec) (c : Dev nD) :
    (dats m 0 c).arrAt 3 cfg0.N = Gflat (argQ m c) (argK m c) (argV m c) :=
  (dats m 0 c).arrAt_eq_of_cover 3 (Gflat (argQ m c) (argK m c) (argV m c)) (fun t _ => flushed_eq m hout c t) cover

/-! ## The last step: the flat rows folded back -/

/-- After the program's last step the result array holds `G` of the arguments. -/
theorem tail_v4 (hout : OutSpec) (c : Dev nD) :
    Pipeline.afterTail₀ cfgs (dats m) 0 (V0 m) [hostOps1] c main_v4 = G (argQ m c) (argK m c) (argV m c) := by
  have hw : Pipeline.withArrays (cfgs 0).spec c (V0 m c) (fun w => (dats m 0 c).arrAt w (cfgs 0).N)
      (Proc.devRef .tc main_v3) = Gflat (argQ m c) (argK m c) (argV m c) :=
    (Pipeline.withArrays_arr spec0 launch0.win.arr_inj c _ _ 3).trans (final m hout c)
  unfold Pipeline.afterTail₀
  show StableHlo.after hostOps1 _ (Proc.devRef .tc main_v4) = _
  after_results
  exact (congrArg (fun x : S16384x16x64.Idx → EReal =>
      shapeCast S4x4096x16x64 x Facts₀.shapeCasts_S16384x16x64_S4x4096x16x64) hw).trans (unflat _ _ _ _)

end Launch

/-! ## The run, read -/

/-- Every weakly fair run of the program ends with the result array at `G` of the three arguments, and the arguments
as launched — given what one grid point leaves in its output block. -/
theorem run (hout : Cert.KernelSpec.OutSpec) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Cert.HeadMix.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelFinal

end
-- ==== Proof.RefStages.lean ====
/-
  The reference's computation as pure functions of arrays, stage by stage, in the program's own spelling.

  * `takeSeq x idx`: the rows of `x` re-ordered along the sequence axis by an index table — a negative entry is first
    wrapped by the axis length, the entry is used as a gather's start index on the sequence axis, and where an entry
    falls outside `0 … 4095` the whole row is replaced by a fixed filler.
  * `scores`, `rmaxB`, `expo`, `soft`: one head group's scores `(∑ e, q · k) · 1/8` and their softmax along the last
    axis (largest score subtracted, exponentials, divided by their sum).
  * `nanToNum`: three selects in a row that replace an undefined entry by the given scalar, `+∞` by the largest finite
    number and `-∞` by the smallest.
  * `half`: the weights applied to the group's value rows; `refOut`: both groups side by side along the head axis,
    between the re-ordering by the first table on the way in and by the second table on the way out.
-/
import proofs.«144455_j4784593568285_2_alg».proof.ReferenceIdeal

noncomputable section

namespace Cert.RefStages

open Idealize.ShloMosaic Cert.ReferenceIdeal

variable {F : FTy → Type} [FloatOps F] [Cert.ReferenceIdeal.Facts]
open Cert.ReferenceIdeal.Facts₀ Cert.ReferenceIdeal.Facts

/-- An array of the arguments' shape. -/
abbrev Arr (F : FTy → Type) [FloatOps F] : Type := (⟨S4x4096x16x64, .f32⟩ : BufTy).Contents (Elt F)
/-- One head group's rows. -/
abbrev Arr8 (F : FTy → Type) [FloatOps F] : Type := (⟨S4x4096x8x64, .f32⟩ : BufTy).Contents (Elt F)
/-- One head group's scores. -/
abbrev Sc8 (F : FTy → Type) [FloatOps F] : Type := (⟨S4x4096x8x8, .f32⟩ : BufTy).Contents (Elt F)
/-- An index table along the sequence axis. -/
abbrev Tbl (F : FTy → Type) [FloatOps F] : Type := (⟨S4096, .i32⟩ : BufTy).Contents (Elt F)

/-- The table with its negative entries wrapped by the axis length, as a column. -/
def takeIdx (idx : Tbl F) : (⟨S4096x1, .i32⟩ : BufTy).Contents (Elt F) :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 4096#32))) idx)

/-- Per table entry: does it lie in `0 … 4095`? -/
def takeOk (idx : Tbl F) : (⟨S4096, .i1⟩ : BufTy).Contents (Elt F) :=
  Host.reduce IntOp.andi
    (andi (cmpi .sge (takeIdx (F := F) idx) (broadcastInDim S4096x1 ![] bcast_S_S4096x1 (constantI S_ 32 0#32)))
      (cmpi .sle (takeIdx (F := F) idx)
        (broadcastInDim S4096x1 ![0, 1] bcast_S1x1_S4096x1_0_1
          (broadcastInDim S1x1 ![1] bcast_S1_S1x1_1 (constantI S1 32 4095#32)))))
    (constantI S_ 1 1#1) reducesTo_S4096x1_S4096_d1 h_S_

/-- The rows of `x` re-ordered along the sequence axis by the table. -/
def takeSeq (x : Arr F) (idx : Tbl F) : Arr F :=
  select (broadcastInDim S4x4096x16x64 ![1] bcast_S4096_S4x4096x16x64_1 (takeOk (F := F) idx))
    (Host.gather gather_S4x4096x16x64_S4096x1_S4x4096x16x64_023_1_n_n_1_1_411664 x (takeIdx (F := F) idx))
    (broadcastInDim S4x4096x16x64 ![] bcast_S_S4x4096x16x64 (constant S_ .f32 0x7FC00000#32))

/-- One group's scaled scores; `off` says where the group's eight heads start. -/
def scores (off : Fin 4 → ℕ) (hs : S4x4096x16x64.Slices off S4x4096x8x64) (tq tk : Arr F) : Sc8 F :=
  mulf
    (Host.dotGeneral dot_S4x4096x8x64_S4x4096x8x64_S4x4096x8x8_3_3_2_2_01_01 none
      (extractStridedSlice S4x4096x8x64 off tq hs) (extractStridedSlice S4x4096x8x64 off tk hs))
    (broadcastInDim S4x4096x8x8 ![] bcast_S_S4x4096x8x8 (constant S_ .f32 0x3E000000#32))

/-- A `[4, 4096, 8]` array put back over the last axis. -/
def overLast (y : (⟨S4x4096x8, .f32⟩ : BufTy).Contents (Elt F)) : Sc8 F :=
  broadcastInDim S4x4096x8x8 ![0, 1, 2, 3] bcast_S4x4096x8x1_S4x4096x8x8_0_1_2_3
    (broadcastInDim S4x4096x8x1 ![0, 1, 2] bcast_S4x4096x8_S4x4096x8x1_0_1_2 y)

/-- The largest score of each row, over the row again. -/
def rmaxB (s8 : Sc8 F) : Sc8 F :=
  overLast (F := F)
    (maximumf (broadcastInDim S4x4096x8 ![] bcast_S_S4x4096x8 (constant S_ .f32 0xFF800000#32))
      (Host.reduce FloatOps.maximumf s8 (constant S_ .f32 0xFF800000#32) reducesTo_S4x4096x8x8_S4x4096x8_d3 h_S_))

/-- The shifted exponentials. -/
def expo (s8 : Sc8 F) : Sc8 F := Host.exp (subf s8 (rmaxB (F := F) s8))

/-- The softmax weights. -/
def soft (s8 : Sc8 F) : Sc8 F :=
  Host.divf (expo (F := F) s8)
    (overLast (F := F)
      (Host.reduceAdd (expo (F := F) s8) (constant S_ .f32 0x00000000#32) reducesTo_S4x4096x8x8_S4x4096x8_d3 h_S_))

/-- An undefined entry replaced by `z`. -/
def nan1 (x : Sc8 F) (z : (⟨S_, .f32⟩ : BufTy).Contents (Elt F)) : Sc8 F :=
  select (cmpf .une x x) (broadcastInDim S4x4096x8x8 ![] bcast_S_S4x4096x8x8 (id z)) x
/-- `+∞` replaced by the largest finite number. -/
def nan2 (a : Sc8 F) : Sc8 F :=
  select (cmpf .oeq a (broadcastInDim S4x4096x8x8 ![] bcast_S_S4x4096x8x8 (constant S_ .f32 0x7F800000#32)))
    (broadcastInDim S4x4096x8x8 ![] bcast_S_S4x4096x8x8 (constant S_ .f32 0x7F7FFFFF#32)) a
/-- `-∞` replaced by the smallest finite number. -/
def nan3 (b : Sc8 F) : Sc8 F :=
  select (cmpf .oeq b (broadcastInDim S4x4096x8x8 ![] bcast_S_S4x4096x8x8 (constant S_ .f32 0xFF800000#32)))
    (broadcastInDim S4x4096x8x8 ![] bcast_S_S4x4096x8x8 (constant S_ .f32 0xFF7FFFFF#32)) b
/-- The three replacements in a row. -/
def nanToNum (x : Sc8 F) (z : (⟨S_, .f32⟩ : BufTy).Contents (Elt F)) : Sc8 F :=
  nan3 (F := F) (nan2 (F := F) (nan1 (F := F) x z))

/-- One group's output rows. -/
def half (off : Fin 4 → ℕ) (hs : S4x4096x16x64.Slices off S4x4096x8x64) (tq tk tv : Arr F) : Arr8 F :=
  Host.dotGeneral dot_S4x4096x8x8_S4x4096x8x64_S4x4096x8x64_3_2_2_3_01_01 none
    (nanToNum (F := F) (soft (F := F) (scores (F := F) off hs tq tk)) (constant S_ .f32 0x00000000#32))
    (extractStridedSlice S4x4096x8x64 off tv hs)

/-- Both groups side by side along the head axis. -/
def both (tq tk tv : Arr F) : Arr F :=
  concatenate S4x4096x16x64 2
    [⟨S4x4096x8x64, half (F := F) ![0, 0, 0, 0] slices_S4x4096x16x64_S4x4096x8x64_0_0_0_0 tq tk tv⟩,
     ⟨S4x4096x8x64, half (F := F) ![0, 0, 8, 0] slices_S4x4096x16x64_S4x4096x8x64_0_0_8_0 tq tk tv⟩]
    concatenates_S4x4096x8x64_S4x4096x8x64_S4x4096x16x64_d2

/-- The first table as the program holds it. -/
def tbl0 : Tbl F := fun i => lit0 (S4096.rowMajor i)
/-- The second table. -/
def tbl1 : Tbl F := fun i => lit1 (S4096.rowMajor i)

/-- The reference's result as a function of its three arguments. -/
def refOut (q k v : Arr F) : Arr F :=
  takeSeq (F := F)
    (both (F := F) (takeSeq (F := F) q (tbl0 (F := F))) (takeSeq (F := F) k (tbl0 (F := F)))
      (takeSeq (F := F) v (tbl0 (F := F))))
    (tbl1 (F := F))

end Cert.RefStages

end
-- ==== Proof.RefOps.lean ====
/-
  The reference's @main as a straight line of host operations.

  @main calls module-local functions: `_take` three times, `nan_to_num` twice, `_take_1` once; `_take` and `_take_1` each
  call `_where`, and `nan_to_num` calls `_where_0` three times. A call executes the callee's body on the operands, every
  value of the body in a buffer of that call's own, so the program is the one line of operations obtained by writing
  each callee's operations in the place of its call, over the call's buffers. The line is listed in stretches — the two
  index tables; each call of @main; each run of @main's own operations between two calls — and `ops` is the stretches
  one after the other. Of each stretch two facts are recorded: its operations touch TensorCore buffers only
  (`opsK_sub`), and every buffer it writes is in the list `opsK_W` (`opsK_writes`), so that a buffer outside the list keeps
  its contents through the stretch.

  `main_eq`: @main is `seq ops` — the functions' definitions unfolded at their calls, both sides are one chain of
  operation steps once sequencing is re-associated. `run_main`: every weakly fair execution of @main terminates with
  every buffer at the fold of the operations over the launch contents.
-/
import proofs.«144455_j4784593568285_2_alg».proof.Proof.Gen.ReferenceIdeal
import proofs.«144455_j4784593568285_2_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer `y` is in the list `W` writes inside `W`. -/
theorem writes_sub {Val : EltTy → Type} {op : HloOp τ sig Val} {W : List (Ref sig .tc)} (y : Ref sig .tc)
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- Operations 1 … 2 of the 173. -/
abbrev ops0 : List (HloOp τ sig (Elt F)) :=
  [ StableHlo.nullary main_c (Cert.RefStages.tbl0 (F := F)),
    StableHlo.nullary main_c_0 (Cert.RefStages.tbl1 (F := F)) ]
theorem ops0_sub : (ops0 : List (HloOp τ sig (Elt F))).Forall fun op => op.bufs ⊆ tcRefs τ sig :=
  ⟨nullary_bufs_sub .., nullary_bufs_sub ..⟩
/-- The buffers they write, in order. -/
abbrev ops0_W : List (Ref sig .tc) :=
  [main_c, main_c_0]
theorem ops0_writes : (ops0 : List (HloOp τ sig (Elt F))).Forall fun op =>
    op.writes ⊆ (ops0_W.map (Proc.devRef (τ := τ) .tc)).toFinset :=
  ⟨writes_sub main_c rfl (by decide), writes_sub main_c_0 rfl (by decide)⟩

/-- Operations 3 … 25 of the 173. -/
abbrev ops1 : List (HloOp τ sig (Elt F)) :=
  [ StableHlo.TRef.nullary main_call0.c (constantI S_ 32 0#32),
    StableHlo.TRef.unary main_call0.c main_call0.v0 (broadcastInDim S4096 ![] bcast_S_S4096),
    StableHlo.TRef.binary (TRef.of (T := ⟨S4096, .i32⟩) main_c) main_call0.v0 main_call0.v1 (cmpi .slt),
    StableHlo.TRef.nullary main_call0.c_0 (constantI S_ 32 4096#32),
    StableHlo.TRef.unary main_call0.c_0 main_call0.v2 (broadcastInDim S4096 ![] bcast_S_S4096),
    StableHlo.TRef.binary (TRef.of (T := ⟨S4096, .i32⟩) main_c) main_call0.v2 main_call0.v3 addi,
    StableHlo.TRef.ternary main_call0.v1 main_call0.v3 (TRef.of (T := ⟨S4096, .i32⟩) main_c) main_call0.call0.v0 select,
    StableHlo.TRef.unary main_call0.call0.v0 main_call0.v5 (broadcastInDim S4096x1 ![0] bcast_S4096_S4096x1_0),
    StableHlo.TRef.nullary main_call0.c_1 (constantI S1 32 4095#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (TRef.of (T := ⟨S4x4096x16x64, .f32⟩) main_arg0) main_call0.v5 main_call0.v13 (fun x i => Host.gather gather_S4x4096x16x64_S4096x1_S4x4096x16x64_023_1_n_n_1_1_411664 x i),
    StableHlo.TRef.unary main_call0.v12 main_call0.v14 (broadcastInDim S4x4096x16x64 ![1] bcast_S4096_S4x4096x16x64_1),
    StableHlo.TRef.nullary main_call0.cst (constant S_ .f32 0x7FC00000#32),
    StableHlo.TRef.unary main_call0.cst main_call0.v15 (broadcastInDim S4x4096x16x64 ![] bcast_S_S4x4096x16x64),
    StableHlo.TRef.ternary main_call0.v14 main_call0.v13 main_call0.v15 main_call0.v16 select ]
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
/-- The buffers they write, in order. -/
abbrev ops1_W : List (Ref sig .tc) :=
  [main_call0.c.ref, main_call0.v0.ref, main_call0.v1.ref, main_call0.c_0.ref, main_call0.v2.ref, main_call0.v3.ref,
   main_call0.call0.v0.ref, main_call0.v5.ref, main_call0.c_1.ref, main_call0.c_2.ref, main_call0.v6.ref, main_call0.v7.ref,
   main_call0.v8.ref, main_call0.v9.ref, main_call0.v10.ref, main_call0.v11.ref, main_call0.c_3.ref, main_call0.v12.ref,
   main_call0.v13.ref, main_call0.v14.ref, main_call0.cst.ref, main_call0.v15.ref, main_call0.v16.ref]
theorem ops1_writes : (ops1 : List (HloOp τ sig (Elt F))).Forall fun op =>
    op.writes ⊆ (ops1_W.map (Proc.devRef (τ := τ) .tc)).toFinset :=
  ⟨writes_sub main_call0.c.ref rfl (by decide), writes_sub main_call0.v0.ref rfl (by decide), writes_sub main_call0.v1.ref rfl (by decide),
   writes_sub main_call0.c_0.ref rfl (by decide), writes_sub main_call0.v2.ref rfl (by decide), writes_sub main_call0.v3.ref rfl (by decide),
   writes_sub main_call0.call0.v0.ref rfl (by decide), writes_sub main_call0.v5.ref rfl (by decide), writes_sub main_call0.c_1.ref rfl (by decide),
   writes_sub main_call0.c_2.ref rfl (by decide), writes_sub main_call0.v6.ref rfl (by decide), writes_sub main_call0.v7.ref rfl (by decide),
   writes_sub main_call0.v8.ref rfl (by decide), writes_sub main_call0.v9.ref rfl (by decide), writes_sub main_call0.v10.ref rfl (by decide),
   writes_sub main_call0.v11.ref rfl (by decide), writes_sub main_call0.c_3.ref rfl (by decide), writes_sub main_call0.v12.ref rfl (by decide),
   writes_sub main_call0.v13.ref rfl (by decide), writes_sub main_call0.v14.ref rfl (by decide), writes_sub main_call0.cst.ref rfl (by decide),
   writes_sub main_call0.v15.ref rfl (by decide), writes_sub main_call0.v16.ref rfl (by decide)⟩

/-- Operations 26 … 48 of the 173. -/
abbrev ops2 : List (HloOp τ sig (Elt F)) :=
  [ StableHlo.TRef.nullary main_call1.c (constantI S_ 32 0#32),
    StableHlo.TRef.unary main_call1.c main_call1.v0 (broadcastInDim S4096 ![] bcast_S_S4096),
    StableHlo.TRef.binary (TRef.of (T := ⟨S4096, .i32⟩) main_c) main_call1.v0 main_call1.v1 (cmpi .slt),
    StableHlo.TRef.nullary main_call1.c_0 (constantI S_ 32 4096#32),
    StableHlo.TRef.unary main_call1.c_0 main_call1.v2 (broadcastInDim S4096 ![] bcast_S_S4096),
    StableHlo.TRef.binary (TRef.of (T := ⟨S4096, .i32⟩) main_c) main_call1.v2 main_call1.v3 addi,
    StableHlo.TRef.ternary main_call1.v1 main_call1.v3 (TRef.of (T := ⟨S4096, .i32⟩) main_c) main_call1.call0.v0 select,
    StableHlo.TRef.unary main_call1.call0.v0 main_call1.v5 (broadcastInDim S4096x1 ![0] bcast_S4096_S4096x1_0),
    StableHlo.TRef.nullary main_call1.c_1 (constantI S1 32 4095#32),
    StableHlo.TRef.nullary main_call1.c_2 (constantI S_ 32 0#32),
    StableHlo.TRef.unary main_call1.c_2 main_call1.v6 (broadcastInDim S4096x1 ![] bcast_S_S4096x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S4096x1 ![0, 1] bcast_S1x1_S4096x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x1_S4096_d1 h_S_),
    StableHlo.TRef.binary (TRef.of (T := ⟨S4x4096x16x64, .f32⟩) main_arg1) main_call1.v5 main_call1.v13 (fun x i => Host.gather gather_S4x4096x16x64_S4096x1_S4x4096x16x64_023_1_n_n_1_1_411664 x i),
    StableHlo.TRef.unary main_call1.v12 main_call1.v14 (broadcastInDim S4x4096x16x64 ![1] bcast_S4096_S4x4096x16x64_1),
    StableHlo.TRef.nullary main_call1.cst (constant S_ .f32 0x7FC00000#32),
    StableHlo.TRef.unary main_call1.cst main_call1.v15 (broadcastInDim S4x4096x16x64 ![] bcast_S_S4x4096x16x64),
    StableHlo.TRef.ternary main_call1.v14 main_call1.v13 main_call1.v15 main_call1.v16 select ]
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
/-- The buffers they write, in order. -/
abbrev ops2_W : List (Ref sig .tc) :=
  [main_call1.c.ref, main_call1.v0.ref, main_call1.v1.ref, main_call1.c_0.ref, main_call1.v2.ref, main_call1.v3.ref,
   main_call1.call0.v0.ref, main_call1.v5.ref, main_call1.c_1.ref, main_call1.c_2.ref, main_call1.v6.ref, main_call1.v7.ref,
   main_call1.v8.ref, main_call1.v9.ref, main_call1.v10.ref, main_call1.v11.ref, main_call1.c_3.ref, main_call1.v12.ref,
   main_call1.v13.ref, main_call1.v14.ref, main_call1.cst.ref, main_call1.v15.ref, main_call1.v16.ref]
theorem ops2_writes : (ops2 : List (HloOp τ sig (Elt F))).Forall fun op =>
    op.writes ⊆ (ops2_W.map (Proc.devRef (τ := τ) .tc)).toFinset :=
  ⟨writes_sub main_call1.c.ref rfl (by decide), writes_sub main_call1.v0.ref rfl (by decide), writes_sub main_call1.v1.ref rfl (by decide),
   writes_sub main_call1.c_0.ref rfl (by decide), writes_sub main_call1.v2.ref rfl (by decide), writes_sub main_call1.v3.ref rfl (by decide),
   writes_sub main_call1.call0.v0.ref rfl (by decide), writes_sub main_call1.v5.ref rfl (by decide), writes_sub main_call1.c_1.ref rfl (by decide),
   writes_sub main_call1.c_2.ref rfl (by decide), writes_sub main_call1.v6.ref rfl (by decide), writes_sub main_call1.v7.ref rfl (by decide),
   writes_sub main_call1.v8.ref rfl (by decide), writes_sub main_call1.v9.ref rfl (by decide), writes_sub main_call1.v10.ref rfl (by decide),
   writes_sub main_call1.v11.ref rfl (by decide), writes_sub main_call1.c_3.ref rfl (by decide), writes_sub main_call1.v12.ref rfl (by decide),
   writes_sub main_call1.v13.ref rfl (by decide), writes_sub main_call1.v14.ref rfl (by decide), writes_sub main_call1.cst.ref rfl (by decide),
   writes_sub main_call1.v15.ref rfl (by decide), writes_sub main_call1.v16.ref rfl (by decide)⟩

/-- Operations 49 … 71 of the 173. -/
abbrev ops3 : List (HloOp τ sig (Elt F)) :=
  [ StableHlo.TRef.nullary main_call2.c (constantI S_ 32 0#32),
    StableHlo.TRef.unary main_call2.c main_call2.v0 (broadcastInDim S4096 ![] bcast_S_S4096),
    StableHlo.TRef.binary (TRef.of (T := ⟨S4096, .i32⟩) main_c) main_call2.v0 main_call2.v1 (cmpi .slt),
    StableHlo.TRef.nullary main_call2.c_0 (constantI S_ 32 4096#32),
    StableHlo.TRef.unary main_call2.c_0 main_call2.v2 (broadcastInDim S4096 ![] bcast_S_S4096),
    StableHlo.TRef.binary (TRef.of (T := ⟨S4096, .i32⟩) main_c) main_call2.v2 main_call2.v3 addi,
    StableHlo.TRef.ternary main_call2.v1 main_call2.v3 (TRef.of (T := ⟨S4096, .i32⟩) main_c) main_call2.call0.v0 select,
    StableHlo.TRef.unary main_call2.call0.v0 main_call2.v5 (broadcastInDim S4096x1 ![0] bcast_S4096_S4096x1_0),
    StableHlo.TRef.nullary main_call2.c_1 (constantI S1 32 4095#32),
    StableHlo.TRef.nullary main_call2.c_2 (constantI S_ 32 0#32),
    StableHlo.TRef.unary main_call2.c_2 main_call2.v6 (broadcastInDim S4096x1 ![] bcast_S_S4096x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S4096x1 ![0, 1] bcast_S1x1_S4096x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x1_S4096_d1 h_S_),
    StableHlo.TRef.binary (TRef.of (T := ⟨S4x4096x16x64, .f32⟩) main_arg2) main_call2.v5 main_call2.v13 (fun x i => Host.gather gather_S4x4096x16x64_S4096x1_S4x4096x16x64_023_1_n_n_1_1_411664 x i),
    StableHlo.TRef.unary main_call2.v12 main_call2.v14 (broadcastInDim S4x4096x16x64 ![1] bcast_S4096_S4x4096x16x64_1),
    StableHlo.TRef.nullary main_call2.cst (constant S_ .f32 0x7FC00000#32),
    StableHlo.TRef.unary main_call2.cst main_call2.v15 (broadcastInDim S4x4096x16x64 ![] bcast_S_S4x4096x16x64),
    StableHlo.TRef.ternary main_call2.v14 main_call2.v13 main_call2.v15 main_call2.v16 select ]
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
/-- The buffers they write, in order. -/
abbrev ops3_W : List (Ref sig .tc) :=
  [main_call2.c.ref, main_call2.v0.ref, main_call2.v1.ref, main_call2.c_0.ref, main_call2.v2.ref, main_call2.v3.ref,
   main_call2.call0.v0.ref, main_call2.v5.ref, main_call2.c_1.ref, main_call2.c_2.ref, main_call2.v6.ref, main_call2.v7.ref,
   main_call2.v8.ref, main_call2.v9.ref, main_call2.v10.ref, main_call2.v11.ref, main_call2.c_3.ref, main_call2.v12.ref,
   main_call2.v13.ref, main_call2.v14.ref, main_call2.cst.ref, main_call2.v15.ref, main_call2.v16.ref]
theorem ops3_writes : (ops3 : List (HloOp τ sig (Elt F))).Forall fun op =>
    op.writes ⊆ (ops3_W.map (Proc.devRef (τ := τ) .tc)).toFinset :=
  ⟨writes_sub main_call2.c.ref rfl (by decide), writes_sub main_call2.v0.ref rfl (by decide), writes_sub main_call2.v1.ref rfl (by decide),
   writes_sub main_call2.c_0.ref rfl (by decide), writes_sub main_call2.v2.ref rfl (by decide), writes_sub main_call2.v3.ref rfl (by decide),
   writes_sub main_call2.call0.v0.ref rfl (by decide), writes_sub main_call2.v5.ref rfl (by decide), writes_sub main_call2.c_1.ref rfl (by decide),
   writes_sub main_call2.c_2.ref rfl (by decide), writes_sub main_call2.v6.ref rfl (by decide), writes_sub main_call2.v7.ref rfl (by decide),
   writes_sub main_call2.v8.ref rfl (by decide), writes_sub main_call2.v9.ref rfl (by decide), writes_sub main_call2.v10.ref rfl (by decide),
   writes_sub main_call2.v11.ref rfl (by decide), writes_sub main_call2.c_3.ref rfl (by decide), writes_sub main_call2.v12.ref rfl (by decide),
   writes_sub main_call2.v13.ref rfl (by decide), writes_sub main_call2.v14.ref rfl (by decide), writes_sub main_call2.cst.ref rfl (by decide),
   writes_sub main_call2.v15.ref rfl (by decide), writes_sub main_call2.v16.ref rfl (by decide)⟩

/-- Operations 72 … 93 of the 173. -/
abbrev ops4 : List (HloOp τ sig (Elt F)) :=
  [ StableHlo.unary main_v0 main_v3 ((extractStridedSlice S4x4096x8x64 ![0, 0, 0, 0] · slices_S4x4096x16x64_S4x4096x8x64_0_0_0_0) : (⟨S4x4096x16x64, .f32⟩ : BufTy).Contents (Elt F) → (⟨S4x4096x8x64, .f32⟩ : BufTy).Contents (Elt F)),
    StableHlo.unary main_v1 main_v4 ((extractStridedSlice S4x4096x8x64 ![0, 0, 0, 0] · slices_S4x4096x16x64_S4x4096x8x64_0_0_0_0) : (⟨S4x4096x16x64, .f32⟩ : BufTy).Contents (Elt F) → (⟨S4x4096x8x64, .f32⟩ : BufTy).Contents (Elt F)),
    StableHlo.unary main_v2 main_v5 ((extractStridedSlice S4x4096x8x64 ![0, 0, 0, 0] · slices_S4x4096x16x64_S4x4096x8x64_0_0_0_0) : (⟨S4x4096x16x64, .f32⟩ : BufTy).Contents (Elt F) → (⟨S4x4096x8x64, .f32⟩ : BufTy).Contents (Elt F)),
    StableHlo.binary main_v3 main_v4 main_v6 ((fun l r => Host.dotGeneral dot_S4x4096x8x64_S4x4096x8x64_S4x4096x8x8_3_3_2_2_01_01 none l r) : (⟨S4x4096x8x64, .f32⟩ : BufTy).Contents (Elt F) → (⟨S4x4096x8x64, .f32⟩ : BufTy).Contents (Elt F) → (⟨S4x4096x8x8, .f32⟩ : BufTy).Contents (Elt F)),
    StableHlo.nullary main_cst (constant S_ .f32 0x3E000000#32),
    StableHlo.unary main_cst main_v7 (broadcastInDim S4x4096x8x8 ![] bcast_S_S4x4096x8x8 : (⟨S_, .f32⟩ : BufTy).Contents (Elt F) → (⟨S4x4096x8x8, .f32⟩ : BufTy).Contents (Elt F)),
    StableHlo.binary main_v6 main_v7 main_v8 (mulf : (⟨S4x4096x8x8, .f32⟩ : BufTy).Contents (Elt F) → (⟨S4x4096x8x8, .f32⟩ : BufTy).Contents (Elt F) → (⟨S4x4096x8x8, .f32⟩ : BufTy).Contents (Elt F)),
    StableHlo.nullary main_cst_1 (constant S_ .f32 0xFF800000#32),
    StableHlo.binary main_v8 main_cst_1 main_v9 ((fun x v => Host.reduce FloatOps.maximumf x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    StableHlo.nullary main_cst_2 (constant S_ .f32 0xFF800000#32),
    StableHlo.unary main_cst_2 main_v10 (broadcastInDim S4x4096x8 ![] bcast_S_S4x4096x8 : (⟨S_, .f32⟩ : BufTy).Contents (Elt F) → (⟨S4x4096x8, .f32⟩ : BufTy).Contents (Elt F)),
    StableHlo.binary main_v10 main_v9 main_v11 (maximumf : (⟨S4x4096x8, .f32⟩ : BufTy).Contents (Elt F) → (⟨S4x4096x8, .f32⟩ : BufTy).Contents (Elt F) → (⟨S4x4096x8, .f32⟩ : BufTy).Contents (Elt F)),
    StableHlo.unary main_v11 main_v12 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    StableHlo.unary main_v12 main_v13 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    StableHlo.binary main_v8 main_v13 main_v14 (subf : (⟨S4x4096x8x8, .f32⟩ : BufTy).Contents (Elt F) → (⟨S4x4096x8x8, .f32⟩ : BufTy).Contents (Elt F) → (⟨S4x4096x8x8, .f32⟩ : BufTy).Contents (Elt F)),
    StableHlo.unary main_v14 main_v15 (Host.exp : (⟨S4x4096x8x8, .f32⟩ : BufTy).Contents (Elt F) → (⟨S4x4096x8x8, .f32⟩ : BufTy).Contents (Elt F)),
    StableHlo.nullary main_cst_3 (constant S_ .f32 0x00000000#32),
    StableHlo.binary main_v15 main_cst_3 main_v16 ((fun x v => Host.reduceAdd x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    StableHlo.unary main_v16 main_v17 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    StableHlo.unary main_v17 main_v18 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    StableHlo.binary main_v15 main_v18 main_v19 (Host.divf : (⟨S4x4096x8x8, .f32⟩ : BufTy).Contents (Elt F) → (⟨S4x4096x8x8, .f32⟩ : BufTy).Contents (Elt F) → (⟨S4x4096x8x8, .f32⟩ : BufTy).Contents (Elt F)),
    StableHlo.nullary main_cst_4 (constant S_ .f32 0x00000000#32) ]
theorem ops4_sub : (ops4 : List (HloOp τ sig (Elt F))).Forall fun op => op.bufs ⊆ tcRefs τ sig :=
  ⟨unary_bufs_sub .., unary_bufs_sub .., unary_bufs_sub .., binary_bufs_sub .., nullary_bufs_sub .., unary_bufs_sub ..,
   binary_bufs_sub .., nullary_bufs_sub .., binary_bufs_sub .., nullary_bufs_sub .., unary_bufs_sub .., binary_bufs_sub ..,
   unary_bufs_sub .., unary_bufs_sub .., binary_bufs_sub .., unary_bufs_sub .., nullary_bufs_sub .., binary_bufs_sub ..,
   unary_bufs_sub .., unary_bufs_sub .., binary_bufs_sub .., nullary_bufs_sub ..⟩
/-- The buffers they write, in order. -/
abbrev ops4_W : List (Ref sig .tc) :=
  [main_v3, main_v4, main_v5, main_v6, main_cst, main_v7,
   main_v8, main_cst_1, main_v9, main_cst_2, main_v10, main_v11,
   main_v12, main_v13, main_v14, main_v15, main_cst_3, main_v16,
   main_v17, main_v18, main_v19, main_cst_4]
theorem ops4_writes : (ops4 : List (HloOp τ sig (Elt F))).Forall fun op =>
    op.writes ⊆ (ops4_W.map (Proc.devRef (τ := τ) .tc)).toFinset :=
  ⟨writes_sub main_v3 rfl (by decide), writes_sub main_v4 rfl (by decide), writes_sub main_v5 rfl (by decide),
   writes_sub main_v6 rfl (by decide), writes_sub main_cst rfl (by decide), writes_sub main_v7 rfl (by decide),
   writes_sub main_v8 rfl (by decide), writes_sub main_cst_1 rfl (by decide), writes_sub main_v9 rfl (by decide),
   writes_sub main_cst_2 rfl (by decide), writes_sub main_v10 rfl (by decide), writes_sub main_v11 rfl (by decide),
   writes_sub main_v12 rfl (by decide), writes_sub main_v13 rfl (by decide), writes_sub main_v14 rfl (by decide),
   writes_sub main_v15 rfl (by decide), writes_sub main_cst_3 rfl (by decide), writes_sub main_v16 rfl (by decide),
   writes_sub main_v17 rfl (by decide), writes_sub main_v18 rfl (by decide), writes_sub main_v19 rfl (by decide),
   writes_sub main_cst_4 rfl (by decide)⟩

/-- Operations 94 … 109 of the 173. -/
abbrev ops5 : List (HloOp τ sig (Elt F)) :=
  [ StableHlo.TRef.binary (TRef.of (T := ⟨S4x4096x8x8, .f32⟩) main_v19) (TRef.of (T := ⟨S4x4096x8x8, .f32⟩) main_v19) main_call3.v0 (cmpf .une),
    StableHlo.TRef.unary (TRef.of (T := ⟨S_, .f32⟩) main_cst_4) main_call3.v1 id,
    StableHlo.TRef.unary main_call3.v1 main_call3.call0.v0 (broadcastInDim S4x4096x8x8 ![] bcast_S_S4x4096x8x8),
    StableHlo.TRef.ternary main_call3.v0 main_call3.call0.v0 (TRef.of (T := ⟨S4x4096x8x8, .f32⟩) main_v19) main_call3.call0.v1 select,
    StableHlo.TRef.nullary main_call3.cst (constant S_ .f32 0x7F800000#32),
    StableHlo.TRef.unary main_call3.cst main_call3.v3 (broadcastInDim S4x4096x8x8 ![] bcast_S_S4x4096x8x8),
    StableHlo.TRef.binary main_call3.call0.v1 main_call3.v3 main_call3.v4 (cmpf .oeq),
    StableHlo.TRef.nullary main_call3.cst_0 (constant S_ .f32 0x7F7FFFFF#32),
    StableHlo.TRef.unary main_call3.cst_0 main_call3.call1.v0 (broadcastInDim S4x4096x8x8 ![] bcast_S_S4x4096x8x8),
    StableHlo.TRef.ternary main_call3.v4 main_call3.call1.v0 main_call3.call0.v1 main_call3.call1.v1 select,
    StableHlo.TRef.nullary main_call3.cst_1 (constant S_ .f32 0xFF800000#32),
    StableHlo.TRef.unary main_call3.cst_1 main_call3.v6 (broadcastInDim S4x4096x8x8 ![] bcast_S_S4x4096x8x8),
    StableHlo.TRef.binary main_call3.call1.v1 main_call3.v6 main_call3.v7 (cmpf .oeq),
    StableHlo.TRef.nullary main_call3.cst_2 (constant S_ .f32 0xFF7FFFFF#32),
    StableHlo.TRef.unary main_call3.cst_2 main_call3.call2.v0 (broadcastInDim S4x4096x8x8 ![] bcast_S_S4x4096x8x8),
    StableHlo.TRef.ternary main_call3.v7 main_call3.call2.v0 main_call3.call1.v1 main_call3.call2.v1 select ]
theorem ops5_sub : (ops5 : List (HloOp τ sig (Elt F))).Forall fun op => op.bufs ⊆ tcRefs τ sig :=
  ⟨binary_bufs_sub .., unary_bufs_sub .., unary_bufs_sub .., ternary_bufs_sub .., nullary_bufs_sub .., unary_bufs_sub ..,
   binary_bufs_sub .., nullary_bufs_sub .., unary_bufs_sub .., ternary_bufs_sub .., nullary_bufs_sub .., unary_bufs_sub ..,
   binary_bufs_sub .., nullary_bufs_sub .., unary_bufs_sub .., ternary_bufs_sub ..⟩
/-- The buffers they write, in order. -/
abbrev ops5_W : List (Ref sig .tc) :=
  [main_call3.v0.ref, main_call3.v1.ref, main_call3.call0.v0.ref, main_call3.call0.v1.ref, main_call3.cst.ref, main_call3.v3.ref,
   main_call3.v4.ref, main_call3.cst_0.ref, main_call3.call1.v0.ref, main_call3.call1.v1.ref, main_call3.cst_1.ref, main_call3.v6.ref,
   main_call3.v7.ref, main_call3.cst_2.ref, main_call3.call2.v0.ref, main_call3.call2.v1.ref]
theorem ops5_writes : (ops5 : List (HloOp τ sig (Elt F))).Forall fun op =>
    op.writes ⊆ (ops5_W.map (Proc.devRef (τ := τ) .tc)).toFinset :=
  ⟨writes_sub main_call3.v0.ref rfl (by decide), writes_sub main_call3.v1.ref rfl (by decide), writes_sub main_call3.call0.v0.ref rfl (by decide),
   writes_sub main_call3.call0.v1.ref rfl (by decide), writes_sub main_call3.cst.ref rfl (by decide), writes_sub main_call3.v3.ref rfl (by decide),
   writes_sub main_call3.v4.ref rfl (by decide), writes_sub main_call3.cst_0.ref rfl (by decide), writes_sub main_call3.call1.v0.ref rfl (by decide),
   writes_sub main_call3.call1.v1.ref rfl (by decide), writes_sub main_call3.cst_1.ref rfl (by decide), writes_sub main_call3.v6.ref rfl (by decide),
   writes_sub main_call3.v7.ref rfl (by decide), writes_sub main_call3.cst_2.ref rfl (by decide), writes_sub main_call3.call2.v0.ref rfl (by decide),
   writes_sub main_call3.call2.v1.ref rfl (by decide)⟩

/-- Operations 110 … 132 of the 173. -/
abbrev ops6 : List (HloOp τ sig (Elt F)) :=
  [ StableHlo.binary main_v20 main_v5 main_v21 ((fun l r => Host.dotGeneral dot_S4x4096x8x8_S4x4096x8x64_S4x4096x8x64_3_2_2_3_01_01 none l r) : (⟨S4x4096x8x8, .f32⟩ : BufTy).Contents (Elt F) → (⟨S4x4096x8x64, .f32⟩ : BufTy).Contents (Elt F) → (⟨S4x4096x8x64, .f32⟩ : BufTy).Contents (Elt F)),
    StableHlo.unary main_v0 main_v22 ((extractStridedSlice S4x4096x8x64 ![0, 0, 8, 0] · slices_S4x4096x16x64_S4x4096x8x64_0_0_8_0) : (⟨S4x4096x16x64, .f32⟩ : BufTy).Contents (Elt F) → (⟨S4x4096x8x64, .f32⟩ : BufTy).Contents (Elt F)),
    StableHlo.unary main_v1 main_v23 ((extractStridedSlice S4x4096x8x64 ![0, 0, 8, 0] · slices_S4x4096x16x64_S4x4096x8x64_0_0_8_0) : (⟨S4x4096x16x64, .f32⟩ : BufTy).Contents (Elt F) → (⟨S4x4096x8x64, .f32⟩ : BufTy).Contents (Elt F)),
    StableHlo.unary main_v2 main_v24 ((extractStridedSlice S4x4096x8x64 ![0, 0, 8, 0] · slices_S4x4096x16x64_S4x4096x8x64_0_0_8_0) : (⟨S4x4096x16x64, .f32⟩ : BufTy).Contents (Elt F) → (⟨S4x4096x8x64, .f32⟩ : BufTy).Contents (Elt F)),
    StableHlo.binary main_v22 main_v23 main_v25 ((fun l r => Host.dotGeneral dot_S4x4096x8x64_S4x4096x8x64_S4x4096x8x8_3_3_2_2_01_01 none l r) : (⟨S4x4096x8x64, .f32⟩ : BufTy).Contents (Elt F) → (⟨S4x4096x8x64, .f32⟩ : BufTy).Contents (Elt F) → (⟨S4x4096x8x8, .f32⟩ : BufTy).Contents (Elt F)),
    StableHlo.nullary main_cst_5 (constant S_ .f32 0x3E000000#32),
    StableHlo.unary main_cst_5 main_v26 (broadcastInDim S4x4096x8x8 ![] bcast_S_S4x4096x8x8 : (⟨S_, .f32⟩ : BufTy).Contents (Elt F) → (⟨S4x4096x8x8, .f32⟩ : BufTy).Contents (Elt F)),
    StableHlo.binary main_v25 main_v26 main_v27 (mulf : (⟨S4x4096x8x8, .f32⟩ : BufTy).Contents (Elt F) → (⟨S4x4096x8x8, .f32⟩ : BufTy).Contents (Elt F) → (⟨S4x4096x8x8, .f32⟩ : BufTy).Contents (Elt F)),
    StableHlo.nullary main_cst_6 (constant S_ .f32 0xFF800000#32),
    StableHlo.binary main_v27 main_cst_6 main_v28 ((fun x v => Host.reduce FloatOps.maximumf x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    StableHlo.nullary main_cst_7 (constant S_ .f32 0xFF800000#32),
    StableHlo.unary main_cst_7 main_v29 (broadcastInDim S4x4096x8 ![] bcast_S_S4x4096x8 : (⟨S_, .f32⟩ : BufTy).Contents (Elt F) → (⟨S4x4096x8, .f32⟩ : BufTy).Contents (Elt F)),
    StableHlo.binary main_v29 main_v28 main_v30 (maximumf : (⟨S4x4096x8, .f32⟩ : BufTy).Contents (Elt F) → (⟨S4x4096x8, .f32⟩ : BufTy).Contents (Elt F) → (⟨S4x4096x8, .f32⟩ : BufTy).Contents (Elt F)),
    StableHlo.unary main_v30 main_v31 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    StableHlo.unary main_v31 main_v32 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    StableHlo.binary main_v27 main_v32 main_v33 (subf : (⟨S4x4096x8x8, .f32⟩ : BufTy).Contents (Elt F) → (⟨S4x4096x8x8, .f32⟩ : BufTy).Contents (Elt F) → (⟨S4x4096x8x8, .f32⟩ : BufTy).Contents (Elt F)),
    StableHlo.unary main_v33 main_v34 (Host.exp : (⟨S4x4096x8x8, .f32⟩ : BufTy).Contents (Elt F) → (⟨S4x4096x8x8, .f32⟩ : BufTy).Contents (Elt F)),
    StableHlo.nullary main_cst_8 (constant S_ .f32 0x00000000#32),
    StableHlo.binary main_v34 main_cst_8 main_v35 ((fun x v => Host.reduceAdd x v reducesTo_S4x4096x8x8_S4x4096x8_d3 h_S_) : (⟨S4x4096x8x8, .f32⟩ : BufTy).Contents (Elt F) → (⟨S_, .f32⟩ : BufTy).Contents (Elt F) → (⟨S4x4096x8, .f32⟩ : BufTy).Contents (Elt F)),
    StableHlo.unary main_v35 main_v36 (broadcastInDim S4x4096x8x1 ![0, 1, 2] bcast_S4x4096x8_S4x4096x8x1_0_1_2 : (⟨S4x4096x8, .f32⟩ : BufTy).Contents (Elt F) → (⟨S4x4096x8x1, .f32⟩ : BufTy).Contents (Elt F)),
    StableHlo.unary main_v36 main_v37 (broadcastInDim S4x4096x8x8 ![0, 1, 2, 3] bcast_S4x4096x8x1_S4x4096x8x8_0_1_2_3 : (⟨S4x4096x8x1, .f32⟩ : BufTy).Contents (Elt F) → (⟨S4x4096x8x8, .f32⟩ : BufTy).Contents (Elt F)),
    StableHlo.binary main_v34 main_v37 main_v38 (Host.divf : (⟨S4x4096x8x8, .f32⟩ : BufTy).Contents (Elt F) → (⟨S4x4096x8x8, .f32⟩ : BufTy).Contents (Elt F) → (⟨S4x4096x8x8, .f32⟩ : BufTy).Contents (Elt F)),
    StableHlo.nullary main_cst_9 (constant S_ .f32 0x00000000#32) ]
theorem ops6_sub : (ops6 : List (HloOp τ sig (Elt F))).Forall fun op => op.bufs ⊆ tcRefs τ sig :=
  ⟨binary_bufs_sub .., unary_bufs_sub .., unary_bufs_sub .., unary_bufs_sub .., binary_bufs_sub .., nullary_bufs_sub ..,
   unary_bufs_sub .., binary_bufs_sub .., nullary_bufs_sub .., binary_bufs_sub .., nullary_bufs_sub .., unary_bufs_sub ..,
   binary_bufs_sub .., unary_bufs_sub .., unary_bufs_sub .., binary_bufs_sub .., unary_bufs_sub .., nullary_bufs_sub ..,
   binary_bufs_sub .., unary_bufs_sub .., unary_bufs_sub .., binary_bufs_sub .., nullary_bufs_sub ..⟩
/-- The buffers they write, in order. -/
abbrev ops6_W : List (Ref sig .tc) :=
  [main_v21, main_v22, main_v23, main_v24, main_v25, main_cst_5,
   main_v26, main_v27, main_cst_6, main_v28, main_cst_7, main_v29,
   main_v30, main_v31, main_v32, main_v33, main_v34, main_cst_8,
   main_v35, main_v36, main_v37, main_v38, main_cst_9]
theorem ops6_writes : (ops6 : List (HloOp τ sig (Elt F))).Forall fun op =>
    op.writes ⊆ (ops6_W.map (Proc.devRef (τ := τ) .tc)).toFinset :=
  ⟨writes_sub main_v21 rfl (by decide), writes_sub main_v22 rfl (by decide), writes_sub main_v23 rfl (by decide),
   writes_sub main_v24 rfl (by decide), writes_sub main_v25 rfl (by decide), writes_sub main_cst_5 rfl (by decide),
   writes_sub main_v26 rfl (by decide), writes_sub main_v27 rfl (by decide), writes_sub main_cst_6 rfl (by decide),
   writes_sub main_v28 rfl (by decide), writes_sub main_cst_7 rfl (by decide), writes_sub main_v29 rfl (by decide),
   writes_sub main_v30 rfl (by decide), writes_sub main_v31 rfl (by decide), writes_sub main_v32 rfl (by decide),
   writes_sub main_v33 rfl (by decide), writes_sub main_v34 rfl (by decide), writes_sub main_cst_8 rfl (by decide),
   writes_sub main_v35 rfl (by decide), writes_sub main_v36 rfl (by decide), writes_sub main_v37 rfl (by decide),
   writes_sub main_v38 rfl (by decide), writes_sub main_cst_9 rfl (by decide)⟩

/-- Operations 133 … 148 of the 173. -/
abbrev ops7 : List (HloOp τ sig (Elt F)) :=
  [ StableHlo.TRef.binary (TRef.of (T := ⟨S4x4096x8x8, .f32⟩) main_v38) (TRef.of (T := ⟨S4x4096x8x8, .f32⟩) main_v38) main_call4.v0 (cmpf .une),
    StableHlo.TRef.unary (TRef.of (T := ⟨S_, .f32⟩) main_cst_9) main_call4.v1 id,
    StableHlo.TRef.unary main_call4.v1 main_call4.call0.v0 (broadcastInDim S4x4096x8x8 ![] bcast_S_S4x4096x8x8),
    StableHlo.TRef.ternary main_call4.v0 main_call4.call0.v0 (TRef.of (T := ⟨S4x4096x8x8, .f32⟩) main_v38) main_call4.call0.v1 select,
    StableHlo.TRef.nullary main_call4.cst (constant S_ .f32 0x7F800000#32),
    StableHlo.TRef.unary main_call4.cst main_call4.v3 (broadcastInDim S4x4096x8x8 ![] bcast_S_S4x4096x8x8),
    StableHlo.TRef.binary main_call4.call0.v1 main_call4.v3 main_call4.v4 (cmpf .oeq),
    StableHlo.TRef.nullary main_call4.cst_0 (constant S_ .f32 0x7F7FFFFF#32),
    StableHlo.TRef.unary main_call4.cst_0 main_call4.call1.v0 (broadcastInDim S4x4096x8x8 ![] bcast_S_S4x4096x8x8),
    StableHlo.TRef.ternary main_call4.v4 main_call4.call1.v0 main_call4.call0.v1 main_call4.call1.v1 select,
    StableHlo.TRef.nullary main_call4.cst_1 (constant S_ .f32 0xFF800000#32),
    StableHlo.TRef.unary main_call4.cst_1 main_call4.v6 (broadcastInDim S4x4096x8x8 ![] bcast_S_S4x4096x8x8),
    StableHlo.TRef.binary main_call4.call1.v1 main_call4.v6 main_call4.v7 (cmpf .oeq),
    StableHlo.TRef.nullary main_call4.cst_2 (constant S_ .f32 0xFF7FFFFF#32),
    StableHlo.TRef.unary main_call4.cst_2 main_call4.call2.v0 (broadcastInDim S4x4096x8x8 ![] bcast_S_S4x4096x8x8),
    StableHlo.TRef.ternary main_call4.v7 main_call4.call2.v0 main_call4.call1.v1 main_call4.call2.v1 select ]
theorem ops7_sub : (ops7 : List (HloOp τ sig (Elt F))).Forall fun op => op.bufs ⊆ tcRefs τ sig :=
  ⟨binary_bufs_sub .., unary_bufs_sub .., unary_bufs_sub .., ternary_bufs_sub .., nullary_bufs_sub .., unary_bufs_sub ..,
   binary_bufs_sub .., nullary_bufs_sub .., unary_bufs_sub .., ternary_bufs_sub .., nullary_bufs_sub .., unary_bufs_sub ..,
   binary_bufs_sub .., nullary_bufs_sub .., unary_bufs_sub .., ternary_bufs_sub ..⟩
/-- The buffers they write, in order. -/
abbrev ops7_W : List (Ref sig .tc) :=
  [main_call4.v0.ref, main_call4.v1.ref, main_call4.call0.v0.ref, main_call4.call0.v1.ref, main_call4.cst.ref, main_call4.v3.ref,
   main_call4.v4.ref, main_call4.cst_0.ref, main_call4.call1.v0.ref, main_call4.call1.v1.ref, main_call4.cst_1.ref, main_call4.v6.ref,
   main_call4.v7.ref, main_call4.cst_2.ref, main_call4.call2.v0.ref, main_call4.call2.v1.ref]
theorem ops7_writes : (ops7 : List (HloOp τ sig (Elt F))).Forall fun op =>
    op.writes ⊆ (ops7_W.map (Proc.devRef (τ := τ) .tc)).toFinset :=
  ⟨writes_sub main_call4.v0.ref rfl (by decide), writes_sub main_call4.v1.ref rfl (by decide), writes_sub main_call4.call0.v0.ref rfl (by decide),
   writes_sub main_call4.call0.v1.ref rfl (by decide), writes_sub main_call4.cst.ref rfl (by decide), writes_sub main_call4.v3.ref rfl (by decide),
   writes_sub main_call4.v4.ref rfl (by decide), writes_sub main_call4.cst_0.ref rfl (by decide), writes_sub main_call4.call1.v0.ref rfl (by decide),
   writes_sub main_call4.call1.v1.ref rfl (by decide), writes_sub main_call4.cst_1.ref rfl (by decide), writes_sub main_call4.v6.ref rfl (by decide),
   writes_sub main_call4.v7.ref rfl (by decide), writes_sub main_call4.cst_2.ref rfl (by decide), writes_sub main_call4.call2.v0.ref rfl (by decide),
   writes_sub main_call4.call2.v1.ref rfl (by decide)⟩

/-- Operations 149 … 150 of the 173. -/
abbrev ops8 : List (HloOp τ sig (Elt F)) :=
  [ StableHlo.binary main_v39 main_v24 main_v40 ((fun l r => Host.dotGeneral dot_S4x4096x8x8_S4x4096x8x64_S4x4096x8x64_3_2_2_3_01_01 none l r) : (⟨S4x4096x8x8, .f32⟩ : BufTy).Contents (Elt F) → (⟨S4x4096x8x64, .f32⟩ : BufTy).Contents (Elt F) → (⟨S4x4096x8x64, .f32⟩ : BufTy).Contents (Elt F)),
    StableHlo.binary main_v21 main_v40 main_v41 ((fun a b => concatenate S4x4096x16x64 2 [⟨S4x4096x8x64, a⟩, ⟨S4x4096x8x64, b⟩] concatenates_S4x4096x8x64_S4x4096x8x64_S4x4096x16x64_d2) : (⟨S4x4096x8x64, .f32⟩ : BufTy).Contents (Elt F) → (⟨S4x4096x8x64, .f32⟩ : BufTy).Contents (Elt F) → (⟨S4x4096x16x64, .f32⟩ : BufTy).Contents (Elt F)) ]
theorem ops8_sub : (ops8 : List (HloOp τ sig (Elt F))).Forall fun op => op.bufs ⊆ tcRefs τ sig :=
  ⟨binary_bufs_sub .., binary_bufs_sub ..⟩
/-- The buffers they write, in order. -/
abbrev ops8_W : List (Ref sig .tc) :=
  [main_v40, main_v41]
theorem ops8_writes : (ops8 : List (HloOp τ sig (Elt F))).Forall fun op =>
    op.writes ⊆ (ops8_W.map (Proc.devRef (τ := τ) .tc)).toFinset :=
  ⟨writes_sub main_v40 rfl (by decide), writes_sub main_v41 rfl (by decide)⟩

/-- Operations 151 … 173 of the 173. -/
abbrev ops9 : List (HloOp τ sig (Elt F)) :=
  [ StableHlo.TRef.nullary main_call5.c (constantI S_ 32 0#32),
    StableHlo.TRef.unary main_call5.c main_call5.v0 (broadcastInDim S4096 ![] bcast_S_S4096),
    StableHlo.TRef.binary (TRef.of (T := ⟨S4096, .i32⟩) main_c_0) main_call5.v0 main_call5.v1 (cmpi .slt),
    StableHlo.TRef.nullary main_call5.c_0 (constantI S_ 32 4096#32),
    StableHlo.TRef.unary main_call5.c_0 main_call5.v2 (broadcastInDim S4096 ![] bcast_S_S4096),
    StableHlo.TRef.binary (TRef.of (T := ⟨S4096, .i32⟩) main_c_0) main_call5.v2 main_call5.v3 addi,
    StableHlo.TRef.ternary main_call5.v1 main_call5.v3 (TRef.of (T := ⟨S4096, .i32⟩) main_c_0) main_call5.call0.v0 select,
    StableHlo.TRef.unary main_call5.call0.v0 main_call5.v5 (broadcastInDim S4096x1 ![0] bcast_S4096_S4096x1_0),
    StableHlo.TRef.nullary main_call5.c_1 (constantI S1 32 4095#32),
    StableHlo.TRef.nullary main_call5.c_2 (constantI S_ 32 0#32),
    StableHlo.TRef.unary main_call5.c_2 main_call5.v6 (broadcastInDim S4096x1 ![] bcast_S_S4096x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S4096x1 ![0, 1] bcast_S1x1_S4096x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1_S4096_d1 h_S_),
    StableHlo.TRef.binary (TRef.of (T := ⟨S4x4096x16x64, .f32⟩) main_v41) main_call5.v5 main_call5.v13 (fun x i => Host.gather gather_S4x4096x16x64_S4096x1_S4x4096x16x64_023_1_n_n_1_1_411664 x i),
    StableHlo.TRef.unary main_call5.v12 main_call5.v14 (broadcastInDim S4x4096x16x64 ![1] bcast_S4096_S4x4096x16x64_1),
    StableHlo.TRef.nullary main_call5.cst (constant S_ .f32 0x7FC00000#32),
    StableHlo.TRef.unary main_call5.cst main_call5.v15 (broadcastInDim S4x4096x16x64 ![] bcast_S_S4x4096x16x64),
    StableHlo.TRef.ternary main_call5.v14 main_call5.v13 main_call5.v15 main_call5.v16 select ]
theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., nullary_bufs_sub .., nullary_bufs_sub .., unary_bufs_sub .., binary_bufs_sub ..,
   unary_bufs_sub .., unary_bufs_sub .., binary_bufs_sub .., binary_bufs_sub .., nullary_bufs_sub .., binary_bufs_sub ..,
   binary_bufs_sub .., unary_bufs_sub .., nullary_bufs_sub .., unary_bufs_sub .., ternary_bufs_sub ..⟩
/-- The buffers they write, in order. -/
abbrev ops9_W : List (Ref sig .tc) :=
  [main_call5.c.ref, main_call5.v0.ref, main_call5.v1.ref, main_call5.c_0.ref, main_call5.v2.ref, main_call5.v3.ref,
   main_call5.call0.v0.ref, main_call5.v5.ref, main_call5.c_1.ref, main_call5.c_2.ref, main_call5.v6.ref, main_call5.v7.ref,
   main_call5.v8.ref, main_call5.v9.ref, main_call5.v10.ref, main_call5.v11.ref, main_call5.c_3.ref, main_call5.v12.ref,
   main_call5.v13.ref, main_call5.v14.ref, main_call5.cst.ref, main_call5.v15.ref, main_call5.v16.ref]
theorem ops9_writes : (ops9 : List (HloOp τ sig (Elt F))).Forall fun op =>
    op.writes ⊆ (ops9_W.map (Proc.devRef (τ := τ) .tc)).toFinset :=
  ⟨writes_sub main_call5.c.ref rfl (by decide), writes_sub main_call5.v0.ref rfl (by decide), writes_sub main_call5.v1.ref rfl (by decide),
   writes_sub main_call5.c_0.ref rfl (by decide), writes_sub main_call5.v2.ref rfl (by decide), writes_sub main_call5.v3.ref rfl (by decide),
   writes_sub main_call5.call0.v0.ref rfl (by decide), writes_sub main_call5.v5.ref rfl (by decide), writes_sub main_call5.c_1.ref rfl (by decide),
   writes_sub main_call5.c_2.ref rfl (by decide), writes_sub main_call5.v6.ref rfl (by decide), writes_sub main_call5.v7.ref rfl (by decide),
   writes_sub main_call5.v8.ref rfl (by decide), writes_sub main_call5.v9.ref rfl (by decide), writes_sub main_call5.v10.ref rfl (by decide),
   writes_sub main_call5.v11.ref rfl (by decide), writes_sub main_call5.c_3.ref rfl (by decide), writes_sub main_call5.v12.ref rfl (by decide),
   writes_sub main_call5.v13.ref rfl (by decide), writes_sub main_call5.v14.ref rfl (by decide), writes_sub main_call5.cst.ref rfl (by decide),
   writes_sub main_call5.v15.ref rfl (by decide), writes_sub main_call5.v16.ref rfl (by decide)⟩

/-- @main's 173 operations, in order: the 10 stretches one after the other. -/
abbrev ops : List (HloOp τ sig (Elt F)) :=
  ops0 ++ (ops1 ++ (ops2 ++ (ops3 ++ (ops4 ++ (ops5 ++ (ops6 ++ (ops7 ++ (ops8 ++ (ops9)))))))))

-- one bind per operation is re-associated, and the rewriting under the chain recurses once per operation
set_option maxRecDepth 16384 in
set_option maxHeartbeats 4000000 in
/-- @main is that straight line: the called functions' definitions unfolded at their calls and the stretches' lists at
    their operations, both sides are one chain of operation steps once sequencing is re-associated. -/
theorem main_eq (c : Dev nD) : main (F := F) c = seq ops := by
  simp only [main, fn_take.body, fn_take_1.body, fn_where.body, fn_where_0.body, fn_nan_to_num.body, ops,
    ops0, ops1, ops2, ops3, ops4, ops5, ops6, ops7, ops8, ops9,
    seq_append, seq, bind_assoc, pure_bind]
  <;> rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: stretch by stretch. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h,
      List.forall_iff_forall_mem.mp ops8_sub op h, List.forall_iff_forall_mem.mp ops9_sub op h]

set_option maxRecDepth 16384 in
set_option maxHeartbeats 4000000 in
/-- For any float values, from any memory with zero counters: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefRun.lean ====
/-
  The reference's run, read back stretch by stretch.

  The reference's @main is a straight line of host operations (`ops`, the stretches `ops0 … ops9` one after the other), so
  after any weakly fair execution every buffer holds the fold of the operations over the launch contents. Here that
  fold is computed at the result buffer. `valK V0` is what the buffers hold after the first K stretches, from any
  contents `V0`; a stretch leaves every buffer it does not write as it found it (`valK_keep`), and each buffer a later
  stretch reads is, after the stretch that writes it, a stage function of the argument buffers' contents:

    after the two tables          the tables themselves (`tbl0`, `tbl1`);
    after each first re-ordering  an argument's rows re-ordered by the first table (`takeSeq · tbl0`);
    after a group's plain run     the group's softmax weights, `soft (scores …)`, and its slice of the value rows;
    after a group's replacement   the weights with undefined and infinite entries replaced (`nanToNum`);
    after the second product      both groups' rows, then side by side along the head axis (`half`, `both`);
    after the last re-ordering    the result, `refOut` of the three arguments.

  Each of these is read off one stretch's operations — every operation puts its function's value of its operands'
  contents in its result buffer and leaves the others — and then is an equation between two spellings of one term: the
  operations of a called function write and read their buffers through transports along the buffers' types, which
  are the identity at these buffers. `run` states the whole at exact real arithmetic.
-/
import proofs.«144455_j4784593568285_2_alg».proof.Proof.RefOps
import proofs.«144455_j4784593568285_2_alg».proof.Proof.LibStretch
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo
open Cert.RefStages

variable {F : FTy → Type} [FloatOps F]

/-! ## The contents after each stretch -/

/-- The buffer contents before the first stretch. -/
def val0 (V0 : Valuation τ sig (Elt F)) : Valuation τ sig (Elt F) := V0
/-- After the two tables. -/
def val1 (V0 : Valuation τ sig (Elt F)) : Valuation τ sig (Elt F) := after ops0 (val0 V0)
/-- After the first argument's re-ordering. -/
def val2 (V0 : Valuation τ sig (Elt F)) : Valuation τ sig (Elt F) := after ops1 (val1 V0)
/-- After the second argument's. -/
def val3 (V0 : Valuation τ sig (Elt F)) : Valuation τ sig (Elt F) := after ops2 (val2 V0)
/-- After the third argument's. -/
def val4 (V0 : Valuation τ sig (Elt F)) : Valuation τ sig (Elt F) := after ops3 (val3 V0)
/-- After the first group's scores and softmax. -/
def val5 (V0 : Valuation τ sig (Elt F)) : Valuation τ sig (Elt F) := after ops4 (val4 V0)
/-- After the first group's replacement of undefined and infinite weights. -/
def val6 (V0 : Valuation τ sig (Elt F)) : Valuation τ sig (Elt F) := after ops5 (val5 V0)
/-- After the first group's output rows and the second group's scores and softmax. -/
def val7 (V0 : Valuation τ sig (Elt F)) : Valuation τ sig (Elt F) := after ops6 (val6 V0)
/-- After the second group's replacement. -/
def val8 (V0 : Valuation τ sig (Elt F)) : Valuation τ sig (Elt F) := after ops7 (val7 V0)
/-- After the second group's output rows and the two groups put side by side. -/
def val9 (V0 : Valuation τ sig (Elt F)) : Valuation τ sig (Elt F) := after ops8 (val8 V0)
/-- After the re-ordering by the second table: the end. -/
def val10 (V0 : Valuation τ sig (Elt F)) : Valuation τ sig (Elt F) := after ops9 (val9 V0)

/-- The whole line's fold is the last of them. -/
theorem after_ops (V0 : Valuation τ sig (Elt F)) : after ops V0 = val10 V0 := by
  simp only [ops, Cert.LibStretch.after_append]
  rfl

/-! ## A stretch leaves the buffers it does not write -/

theorem val1_keep (V0 : Valuation τ sig (Elt F)) (r : Ref sig .tc) (h : r ∉ ops0_W) :
    val1 V0 (Proc.devRef .tc r) = val0 V0 (Proc.devRef .tc r) := after_of_writes_sub ops0 _ ops0_writes h
theorem val2_keep (V0 : Valuation τ sig (Elt F)) (r : Ref sig .tc) (h : r ∉ ops1_W) :
    val2 V0 (Proc.devRef .tc r) = val1 V0 (Proc.devRef .tc r) := after_of_writes_sub ops1 _ ops1_writes h
theorem val3_keep (V0 : Valuation τ sig (Elt F)) (r : Ref sig .tc) (h : r ∉ ops2_W) :
    val3 V0 (Proc.devRef .tc r) = val2 V0 (Proc.devRef .tc r) := after_of_writes_sub ops2 _ ops2_writes h
theorem val4_keep (V0 : Valuation τ sig (Elt F)) (r : Ref sig .tc) (h : r ∉ ops3_W) :
    val4 V0 (Proc.devRef .tc r) = val3 V0 (Proc.devRef .tc r) := after_of_writes_sub ops3 _ ops3_writes h
theorem val5_keep (V0 : Valuation τ sig (Elt F)) (r : Ref sig .tc) (h : r ∉ ops4_W) :
    val5 V0 (Proc.devRef .tc r) = val4 V0 (Proc.devRef .tc r) := after_of_writes_sub ops4 _ ops4_writes h
theorem val6_keep (V0 : Valuation τ sig (Elt F)) (r : Ref sig .tc) (h : r ∉ ops5_W) :
    val6 V0 (Proc.devRef .tc r) = val5 V0 (Proc.devRef .tc r) := after_of_writes_sub ops5 _ ops5_writes h
theorem val7_keep (V0 : Valuation τ sig (Elt F)) (r : Ref sig .tc) (h : r ∉ ops6_W) :
    val7 V0 (Proc.devRef .tc r) = val6 V0 (Proc.devRef .tc r) := after_of_writes_sub ops6 _ ops6_writes h
theorem val8_keep (V0 : Valuation τ sig (Elt F)) (r : Ref sig .tc) (h : r ∉ ops7_W) :
    val8 V0 (Proc.devRef .tc r) = val7 V0 (Proc.devRef .tc r) := after_of_writes_sub ops7 _ ops7_writes h
theorem val9_keep (V0 : Valuation τ sig (Elt F)) (r : Ref sig .tc) (h : r ∉ ops8_W) :
    val9 V0 (Proc.devRef .tc r) = val8 V0 (Proc.devRef .tc r) := after_of_writes_sub ops8 _ ops8_writes h
theorem val10_keep (V0 : Valuation τ sig (Elt F)) (r : Ref sig .tc) (h : r ∉ ops9_W) :
    val10 V0 (Proc.devRef .tc r) = val9 V0 (Proc.devRef .tc r) := after_of_writes_sub ops9 _ ops9_writes h

/-- A buffer holds its launch contents after one, two, three and all ten stretches. -/
abbrev Kept (V0 : Valuation τ sig (Elt F)) (r : Ref sig .tc) : Prop :=
  val1 V0 (Proc.devRef .tc r) = V0 (Proc.devRef .tc r) ∧ val2 V0 (Proc.devRef .tc r) = V0 (Proc.devRef .tc r)
    ∧ val3 V0 (Proc.devRef .tc r) = V0 (Proc.devRef .tc r) ∧ val10 V0 (Proc.devRef .tc r) = V0 (Proc.devRef .tc r)

/-- A buffer no stretch writes keeps its launch contents throughout. -/
theorem keep_args (V0 : Valuation τ sig (Elt F)) (r : Ref sig .tc)
    (h : r ∉ ops0_W ∧ r ∉ ops1_W ∧ r ∉ ops2_W ∧ r ∉ ops3_W ∧ r ∉ ops4_W ∧ r ∉ ops5_W ∧ r ∉ ops6_W ∧ r ∉ ops7_W
      ∧ r ∉ ops8_W ∧ r ∉ ops9_W) : Kept V0 r := by
  obtain ⟨h0, h1, h2, h3, h4, h5, h6, h7, h8, h9⟩ := h
  have e1 : val1 V0 (Proc.devRef .tc r) = V0 (Proc.devRef .tc r) := val1_keep V0 r h0
  have e2 := (val2_keep V0 r h1).trans e1
  have e3 := (val3_keep V0 r h2).trans e2
  exact ⟨e1, e2, e3,
    (val10_keep V0 r h9).trans <| (val9_keep V0 r h8).trans <| (val8_keep V0 r h7).trans <| (val7_keep V0 r h6).trans <|
      (val6_keep V0 r h5).trans <| (val5_keep V0 r h4).trans <| (val4_keep V0 r h3).trans e3⟩

/-- The three argument buffers are written by no stretch. -/
theorem keep_arg0 (V0 : Valuation τ sig (Elt F)) : Kept V0 main_arg0 := keep_args V0 main_arg0 (by decide)
theorem keep_arg1 (V0 : Valuation τ sig (Elt F)) : Kept V0 main_arg1 := keep_args V0 main_arg1 (by decide)
theorem keep_arg2 (V0 : Valuation τ sig (Elt F)) : Kept V0 main_arg2 := keep_args V0 main_arg2 (by decide)

theorem val1_arg0 (V0 : Valuation τ sig (Elt F)) :
    val1 V0 (no_index (Proc.devRef .tc main_arg0)) = V0 (Proc.devRef .tc main_arg0) := (keep_arg0 V0).1
theorem val2_arg1 (V0 : Valuation τ sig (Elt F)) :
    val2 V0 (no_index (Proc.devRef .tc main_arg1)) = V0 (Proc.devRef .tc main_arg1) := (keep_arg1 V0).2.1
theorem val3_arg2 (V0 : Valuation τ sig (Elt F)) :
    val3 V0 (no_index (Proc.devRef .tc main_arg2)) = V0 (Proc.devRef .tc main_arg2) := (keep_arg2 V0).2.2.1

/-! ## The two tables -/

theorem val1_c (V0 : Valuation τ sig (Elt F)) : val1 V0 (no_index (Proc.devRef .tc main_c)) = tbl0 (F := F) := by
  unfold val1
  simp only [ops0]
  after_results_simp <;> rfl
theorem val1_c0 (V0 : Valuation τ sig (Elt F)) : val1 V0 (no_index (Proc.devRef .tc main_c_0)) = tbl1 (F := F) := by
  unfold val1
  simp only [ops0]
  after_results_simp <;> rfl

theorem val2_c (V0 : Valuation τ sig (Elt F)) : val2 V0 (no_index (Proc.devRef .tc main_c)) = tbl0 (F := F) :=
  (val2_keep V0 main_c (by decide)).trans (val1_c V0)
theorem val3_c (V0 : Valuation τ sig (Elt F)) : val3 V0 (no_index (Proc.devRef .tc main_c)) = tbl0 (F := F) :=
  (val3_keep V0 main_c (by decide)).trans (val2_c V0)

/-- The second table waits, untouched, for the last stretch. -/
theorem val9_c0 (V0 : Valuation τ sig (Elt F)) : val9 V0 (no_index (Proc.devRef .tc main_c_0)) = tbl1 (F := F) :=
  (val9_keep V0 main_c_0 (by decide)).trans <| (val8_keep V0 main_c_0 (by decide)).trans <|
    (val7_keep V0 main_c_0 (by decide)).trans <| (val6_keep V0 main_c_0 (by decide)).trans <|
    (val5_keep V0 main_c_0 (by decide)).trans <| (val4_keep V0 main_c_0 (by decide)).trans <|
    (val3_keep V0 main_c_0 (by decide)).trans <| (val2_keep V0 main_c_0 (by decide)).trans (val1_c0 V0)

/-! ## The arguments re-ordered by the first table -/

/-- The first argument's rows re-ordered by the first table. -/
abbrev tq (V0 : Valuation τ sig (Elt F)) : Arr F := takeSeq (F := F) (V0 (Proc.devRef .tc main_arg0)) (tbl0 (F := F))
/-- The second argument's. -/
abbrev tk (V0 : Valuation τ sig (Elt F)) : Arr F := takeSeq (F := F) (V0 (Proc.devRef .tc main_arg1)) (tbl0 (F := F))
/-- The third argument's. -/
abbrev tv (V0 : Valuation τ sig (Elt F)) : Arr F := takeSeq (F := F) (V0 (Proc.devRef .tc main_arg2)) (tbl0 (F := F))

attribute [local irreducible] Host.reduce Host.gather in
set_option maxRecDepth 8192 in
set_option maxHeartbeats 2000000 in
theorem val2_v0 (V0 : Valuation τ sig (Elt F)) : val2 V0 (no_index (Proc.devRef .tc main_v0)) = tq V0 := by
  unfold val2
  simp only [ops1]
  after_results_simp
  simp only [val1_arg0, val1_c] <;> rfl

attribute [local irreducible] Host.reduce Host.gather in
set_option maxRecDepth 8192 in
set_option maxHeartbeats 2000000 in
theorem val3_v1 (V0 : Valuation τ sig (Elt F)) : val3 V0 (no_index (Proc.devRef .tc main_v1)) = tk V0 := by
  unfold val3
  simp only [ops2]
  after_results_simp
  simp only [val2_arg1, val2_c] <;> rfl

attribute [local irreducible] Host.reduce Host.gather in
set_option maxRecDepth 8192 in
set_option maxHeartbeats 2000000 in
theorem val4_v2 (V0 : Valuation τ sig (Elt F)) : val4 V0 (no_index (Proc.devRef .tc main_v2)) = tv V0 := by
  unfold val4
  simp only [ops3]
  after_results_simp
  simp only [val3_arg2, val3_c] <;> rfl

theorem val4_v0 (V0 : Valuation τ sig (Elt F)) : val4 V0 (no_index (Proc.devRef .tc main_v0)) = tq V0 :=
  (val4_keep V0 main_v0 (by decide)).trans <| (val3_keep V0 main_v0 (by decide)).trans (val2_v0 V0)
theorem val4_v1 (V0 : Valuation τ sig (Elt F)) : val4 V0 (no_index (Proc.devRef .tc main_v1)) = tk V0 :=
  (val4_keep V0 main_v1 (by decide)).trans (val3_v1 V0)
theorem val6_v0 (V0 : Valuation τ sig (Elt F)) : val6 V0 (no_index (Proc.devRef .tc main_v0)) = tq V0 :=
  (val6_keep V0 main_v0 (by decide)).trans <| (val5_keep V0 main_v0 (by decide)).trans (val4_v0 V0)
theorem val6_v1 (V0 : Valuation τ sig (Elt F)) : val6 V0 (no_index (Proc.devRef .tc main_v1)) = tk V0 :=
  (val6_keep V0 main_v1 (by decide)).trans <| (val5_keep V0 main_v1 (by decide)).trans (val4_v1 V0)
theorem val6_v2 (V0 : Valuation τ sig (Elt F)) : val6 V0 (no_index (Proc.devRef .tc main_v2)) = tv V0 :=
  (val6_keep V0 main_v2 (by decide)).trans <| (val5_keep V0 main_v2 (by decide)).trans (val4_v2 V0)

/-! ## The first group -/

attribute [local irreducible] Host.reduce Host.reduceAdd in
set_option maxRecDepth 8192 in
set_option maxHeartbeats 2000000 in
theorem val5_v19 (V0 : Valuation τ sig (Elt F)) : val5 V0 (no_index (Proc.devRef .tc main_v19))
    = soft (F := F) (scores (F := F) ![0, 0, 0, 0] slices_S4x4096x16x64_S4x4096x8x64_0_0_0_0 (tq V0) (tk V0)) := by
  unfold val5
  simp only [ops4]
  after_results_simp
  simp only [val4_v0, val4_v1] <;> rfl

set_option maxRecDepth 8192 in
set_option maxHeartbeats 2000000 in
theorem val5_cst4 (V0 : Valuation τ sig (Elt F)) : val5 V0 (no_index (Proc.devRef .tc main_cst_4))
    = (constant S_ .f32 0x00000000#32 : (⟨S_, .f32⟩ : BufTy).Contents (Elt F)) := by
  unfold val5
  simp only [ops4]
  after_results_simp <;> rfl

set_option maxRecDepth 8192 in
set_option maxHeartbeats 2000000 in
theorem val5_v5 (V0 : Valuation τ sig (Elt F)) : val5 V0 (no_index (Proc.devRef .tc main_v5))
    = (extractStridedSlice S4x4096x8x64 ![0, 0, 0, 0] (tv V0) slices_S4x4096x16x64_S4x4096x8x64_0_0_0_0 : Arr8 F) := by
  unfold val5
  simp only [ops4]
  after_results_simp
  simp only [val4_v2] <;> rfl

theorem val6_v5 (V0 : Valuation τ sig (Elt F)) : val6 V0 (no_index (Proc.devRef .tc main_v5))
    = (extractStridedSlice S4x4096x8x64 ![0, 0, 0, 0] (tv V0) slices_S4x4096x16x64_S4x4096x8x64_0_0_0_0 : Arr8 F) :=
  (val6_keep V0 main_v5 (by decide)).trans (val5_v5 V0)

set_option maxRecDepth 8192 in
set_option maxHeartbeats 2000000 in
theorem val6_v20 (V0 : Valuation τ sig (Elt F)) : val6 V0 (no_index (Proc.devRef .tc main_v20))
    = nanToNum (F := F)
        (soft (F := F) (scores (F := F) ![0, 0, 0, 0] slices_S4x4096x16x64_S4x4096x8x64_0_0_0_0 (tq V0) (tk V0)))
        (constant S_ .f32 0x00000000#32) := by
  unfold val6
  simp only [ops5]
  after_results_simp
  simp only [val5_v19, val5_cst4] <;> rfl

/-! ## The first group's rows and the second group -/

set_option maxRecDepth 8192 in
set_option maxHeartbeats 2000000 in
theorem val7_v21 (V0 : Valuation τ sig (Elt F)) : val7 V0 (no_index (Proc.devRef .tc main_v21))
    = half (F := F) ![0, 0, 0, 0] slices_S4x4096x16x64_S4x4096x8x64_0_0_0_0 (tq V0) (tk V0) (tv V0) := by
  unfold val7
  simp only [ops6]
  after_results_simp
  simp only [val6_v20, val6_v5] <;> rfl

attribute [local irreducible] Host.reduce Host.reduceAdd in
set_option maxRecDepth 8192 in
set_option maxHeartbeats 2000000 in
theorem val7_v38 (V0 : Valuation τ sig (Elt F)) : val7 V0 (no_index (Proc.devRef .tc main_v38))
    = soft (F := F) (scores (F := F) ![0, 0, 8, 0] slices_S4x4096x16x64_S4x4096x8x64_0_0_8_0 (tq V0) (tk V0)) := by
  unfold val7
  simp only [ops6]
  after_results_simp
  simp only [val6_v0, val6_v1] <;> rfl

set_option maxRecDepth 8192 in
set_option maxHeartbeats 2000000 in
theorem val7_cst9 (V0 : Valuation τ sig (Elt F)) : val7 V0 (no_index (Proc.devRef .tc main_cst_9))
    = (constant S_ .f32 0x00000000#32 : (⟨S_, .f32⟩ : BufTy).Contents (Elt F)) := by
  unfold val7
  simp only [ops6]
  after_results_simp <;> rfl

set_option maxRecDepth 8192 in
set_option maxHeartbeats 2000000 in
theorem val7_v24 (V0 : Valuation τ sig (Elt F)) : val7 V0 (no_index (Proc.devRef .tc main_v24))
    = (extractStridedSlice S4x4096x8x64 ![0, 0, 8, 0] (tv V0) slices_S4x4096x16x64_S4x4096x8x64_0_0_8_0 : Arr8 F) := by
  unfold val7
  simp only [ops6]
  after_results_simp
  simp only [val6_v2] <;> rfl

theorem val8_v21 (V0 : Valuation τ sig (Elt F)) : val8 V0 (no_index (Proc.devRef .tc main_v21))
    = half (F := F) ![0, 0, 0, 0] slices_S4x4096x16x64_S4x4096x8x64_0_0_0_0 (tq V0) (tk V0) (tv V0) :=
  (val8_keep V0 main_v21 (by decide)).trans (val7_v21 V0)
theorem val8_v24 (V0 : Valuation τ sig (Elt F)) : val8 V0 (no_index (Proc.devRef .tc main_v24))
    = (extractStridedSlice S4x4096x8x64 ![0, 0, 8, 0] (tv V0) slices_S4x4096x16x64_S4x4096x8x64_0_0_8_0 : Arr8 F) :=
  (val8_keep V0 main_v24 (by decide)).trans (val7_v24 V0)

set_option maxRecDepth 8192 in
set_option maxHeartbeats 2000000 in
theorem val8_v39 (V0 : Valuation τ sig (Elt F)) : val8 V0 (no_index (Proc.devRef .tc main_v39))
    = nanToNum (F := F)
        (soft (F := F) (scores (F := F) ![0, 0, 8, 0] slices_S4x4096x16x64_S4x4096x8x64_0_0_8_0 (tq V0) (tk V0)))
        (constant S_ .f32 0x00000000#32) := by
  unfold val8
  simp only [ops7]
  after_results_simp
  simp only [val7_v38, val7_cst9] <;> rfl

/-! ## Both groups, and the re-ordering by the second table -/

/-- Two pairs of equal row blocks put side by side along the head axis give equal arrays. -/
theorem side_by_side {a b a' b' : Arr8 F} (ha : a = a') (hb : b = b') :
    concatenate S4x4096x16x64 2 [⟨S4x4096x8x64, a⟩, ⟨S4x4096x8x64, b⟩] concatenates_S4x4096x8x64_S4x4096x8x64_S4x4096x16x64_d2
      = concatenate S4x4096x16x64 2 [⟨S4x4096x8x64, a'⟩, ⟨S4x4096x8x64, b'⟩]
          concatenates_S4x4096x8x64_S4x4096x8x64_S4x4096x16x64_d2 := by
  subst ha hb
  rfl

set_option maxRecDepth 8192 in
set_option maxHeartbeats 2000000 in
theorem val9_v41 (V0 : Valuation τ sig (Elt F)) : val9 V0 (no_index (Proc.devRef .tc main_v41))
    = both (F := F) (tq V0) (tk V0) (tv V0) := by
  unfold val9
  simp only [ops8]
  after_results_simp
  -- the two blocks sit inside the list of blocks, each read off on its own
  refine (side_by_side
    (a' := half (F := F) ![0, 0, 0, 0] slices_S4x4096x16x64_S4x4096x8x64_0_0_0_0 (tq V0) (tk V0) (tv V0))
    (b' := half (F := F) ![0, 0, 8, 0] slices_S4x4096x16x64_S4x4096x8x64_0_0_8_0 (tq V0) (tk V0) (tv V0)) ?_ ?_).trans rfl
  · after_results_simp
    simp only [val8_v21] <;> rfl
  · after_results_simp
    simp only [val8_v39, val8_v24] <;> rfl

attribute [local irreducible] Host.reduce Host.gather in
set_option maxRecDepth 8192 in
set_option maxHeartbeats 2000000 in
theorem val10_v42 (V0 : Valuation τ sig (Elt F)) : val10 V0 (no_index (Proc.devRef .tc main_v42))
    = refOut (F := F) (V0 (Proc.devRef .tc main_arg0)) (V0 (Proc.devRef .tc main_arg1)) (V0 (Proc.devRef .tc main_arg2)) := by
  unfold val10
  simp only [ops9]
  after_results_simp
  simp only [val9_v41, val9_c0] <;> rfl

/-! ## The run -/

/-- For any float values, from any memory with zero counters: every weakly fair execution of @main terminates with the
    result buffer at `refOut` of the three arguments' launch contents, and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v42) = refOut (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      (h c main_v42).trans (by simp only [after_ops]; exact val10_v42 (launchContents m c)),
      (h c main_arg0).trans (by simp only [after_ops]; exact (keep_arg0 (launchContents m c)).2.2.2),
      (h c main_arg1).trans (by simp only [after_ops]; exact (keep_arg1 (launchContents m c)).2.2.2),
      (h c main_arg2).trans (by simp only [after_ops]; exact (keep_arg2 (launchContents m c)).2.2.2)⟩)
    (run_main m ρ)

/-- The same at exact real arithmetic. -/
theorem run (m : (ℓ : Loc nD τ sig) → Buf (Elt Idealize.ShloMosaic.Ideal) ℓ) (ρ : Dev nD → PrngReg) :
    θ_run (defs (F := Idealize.ShloMosaic.Ideal)) (onTc (τ := τ) (main (F := Idealize.ShloMosaic.Ideal))) ⟨m, fun _ => 0, ρ⟩ fun r => ∀ c : Dev nD,
      r.2.mem ((c.tc : Thread nD τ).loc main_v42) = Cert.RefStages.refOut (F := Idealize.ShloMosaic.Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run_gen (F := Idealize.ShloMosaic.Ideal) m ρ

end Cert.RefRun

end
-- ==== Proof.RefTake.lean ====
/-
  The re-ordering along the sequence axis.

  The reference re-orders the rows of an array along its sequence axis by an index table: a negative entry is first
  wrapped by the axis length, the wrapped entry is the start index of a gather on the sequence axis, and a row whose
  entry falls outside 0 … 4095 is replaced by a filler.  For a table whose entries all lie below 4096, read as
  unsigned words, none of this does anything beyond the gather itself: no entry is negative, so the wrap keeps it;
  every entry passes both range tests, so the mask is one everywhere and the filler is never chosen; and the gather's
  clamp of the start index into 0 … 4095 keeps it.  What is left is: position s of the result is row (table s) of
  the argument (`takeSeq_apply`).

  The program's two tables are permutations of 0 … 4095, each the inverse of the other; the three facts used later —
  both tables' entries lie below 4096, and the first table read at an entry of the second gives back the position —
  are finite checks over the 4096 positions (`lit0_lt`, `lit1_lt`, `lit0_lit1`).
-/
import proofs.«144455_j4784593568285_2_alg».proof.Proof.RefStages
import Idealize.ShloMosaic.Lib.ValueIdx
import Idealize.ShloMosaic.Lib.Pipeline.Value
import Idealize.ShloMosaic.PureOps.Reduce

noncomputable section

namespace Cert.RefTake

open Idealize.ShloMosaic Idealize.ShloMosaic.ValueIdx Cert.ReferenceIdeal

/-! ## The two tables -/

/-- Every entry of the first table lies below 4096 (checked at each of the 4096 positions). -/
theorem lit0_lt_all : ∀ s : Fin 4096, (lit0 s).toNat < 4096 := by decide +kernel

/-- Every entry of the second table lies below 4096. -/
theorem lit1_lt_all : ∀ s : Fin 4096, (lit1 s).toNat < 4096 := by decide +kernel

/-- The first table read at an entry of the second gives back the position: the tables are inverse permutations. -/
theorem lit0_lit1_all : ∀ t : Fin 4096, (lit0t (lit1t t.val).toNat).toNat = t.val := by decide +kernel

theorem lit0_lt (s : Fin 4096) : (lit0 s).toNat < 4096 := lit0_lt_all s

theorem lit1_lt (s : Fin 4096) : (lit1 s).toNat < 4096 := lit1_lt_all s

theorem lit0_lit1 (t : Fin 4096) : (lit0 ⟨(lit1 t).toNat, lit1_lt t⟩).toNat = t.val := lit0_lit1_all t

/-! ## Words below 4096, read signed -/

/-- A word below 4096 reads signed as itself. -/
theorem toInt_of_lt (w : BitVec 32) (h : w.toNat < 4096) : w.toInt = (w.toNat : ℤ) :=
  BitVec.toInt_eq_toNat_of_lt (by omega)

theorem toInt_zero32 : (0#32 : BitVec 32).toInt = 0 := by decide

theorem toInt_4095 : (4095#32 : BitVec 32).toInt = 4095 := by decide

/-- A word below 4096 is not negative … -/
theorem cmpi_slt_zero (w : BitVec 32) (h : w.toNat < 4096) : IntOp.cmpi .slt w 0#32 = 0#1 := by
  have hs : BitVec.slt w 0#32 = false :=
    decide_eq_false (show ¬ w.toInt < (0#32 : BitVec 32).toInt by rw [toInt_of_lt w h, toInt_zero32]; omega)
  show BitVec.ofBool (BitVec.slt w 0#32) = 0#1
  rw [hs]; rfl

/-- … it is at least zero … -/
theorem cmpi_sge_zero (w : BitVec 32) (h : w.toNat < 4096) : IntOp.cmpi .sge w 0#32 = 1#1 := by
  have hs : BitVec.sle 0#32 w = true :=
    decide_eq_true (show (0#32 : BitVec 32).toInt ≤ w.toInt by rw [toInt_of_lt w h, toInt_zero32]; omega)
  show BitVec.ofBool (BitVec.sle 0#32 w) = 1#1
  rw [hs]; rfl

/-- … and at most 4095. -/
theorem cmpi_sle_4095 (w : BitVec 32) (h : w.toNat < 4096) : IntOp.cmpi .sle w 4095#32 = 1#1 := by
  have hs : BitVec.sle w 4095#32 = true :=
    decide_eq_true (show w.toInt ≤ (4095#32 : BitVec 32).toInt by rw [toInt_of_lt w h, toInt_4095]; omega)
  show BitVec.ofBool (BitVec.sle w 4095#32) = 1#1
  rw [hs]; rfl

/-- The wrap of negative entries keeps an entry below 4096. -/
theorem wrap_eq (w : BitVec 32) (h : w.toNat < 4096) :
    Scalar.select (IntOp.cmpi .slt w 0#32) (IntOp.addi w 4096#32) w = w := by
  rw [cmpi_slt_zero w h]; exact select_zero _ _

/-! ## A conjunction of ones -/

/-- A left fold by "and" from one over words that are all one is one. -/
theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_one f hf l

/-- A reduction by "and" from one of an array of ones is one at every index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_one x hx _

section
variable [Cert.ReferenceIdeal.Facts]
open Cert.ReferenceIdeal.Facts₀ Cert.ReferenceIdeal.Facts Cert.RefStages

/-! ## The wrapped table and the range mask -/

/-- The wrapped table as a column, at row s: the wrap applied to entry s. -/
theorem takeIdx_apply (T : Tbl Ideal) (s : Fin 4096) (u : Fin 1) :
    Cert.RefStages.takeIdx (F := Ideal) T (ix2 s u)
      = Scalar.select (IntOp.cmpi .slt (T (ix1 s)) 0#32) (IntOp.addi (T (ix1 s)) 4096#32) (T (ix1 s)) := by
  unfold Cert.RefStages.takeIdx
  refine (broadcastInDim_apply _ _ _ (ix2 s u) (ix1 s) fun a => ?_).trans rfl
  match a with
  | ⟨0, _⟩ =>
    show s.val = if (4096 : ℕ) = 1 then 0 else s.val
    rw [if_neg (by decide)]

/-- For entries below 4096 the wrapped column is the table. -/
theorem takeIdx_eq (T : Tbl Ideal) (hT : ∀ i, (T i).toNat < 4096) (s : Fin 4096) (u : Fin 1) :
    Cert.RefStages.takeIdx (F := Ideal) T (ix2 s u) = T (ix1 s) :=
  (takeIdx_apply T s u).trans (wrap_eq _ (hT _))

/-- For entries below 4096 the range mask is one at every position. -/
theorem takeOk_apply (T : Tbl Ideal) (hT : ∀ i, (T i).toNat < 4096) (j : S4096.Idx) :
    takeOk (F := Ideal) T j = 1#1 := by
  unfold Cert.RefStages.takeOk
  refine reduce_andi_one _ _ _ _ (fun i => ?_) (fun _ => rfl) j
  obtain ⟨s, u, rfl⟩ : ∃ (s : Fin 4096) (u : Fin 1), i = ix2 s u := ⟨i 0, i 1, eq_ix2 i⟩
  show IntOp.andi (IntOp.cmpi .sge (Cert.RefStages.takeIdx (F := Ideal) T (ix2 s u)) 0#32)
      (IntOp.cmpi .sle (Cert.RefStages.takeIdx (F := Ideal) T (ix2 s u)) 4095#32) = 1#1
  rw [takeIdx_eq T hT s u, cmpi_sge_zero _ (hT _), cmpi_sle_4095 _ (hT _)]
  decide

/-- … and so is the mask put over the whole array. -/
theorem mask_apply (T : Tbl Ideal) (hT : ∀ i, (T i).toNat < 4096) (j : S4x4096x16x64.Idx) :
    broadcastInDim S4x4096x16x64 ![1] bcast_S4096_S4x4096x16x64_1 (takeOk (F := Ideal) T) j = 1#1 := by
  unfold broadcastInDim
  exact takeOk_apply T hT _

/-! ## The gather along the sequence axis -/

/-- The gather with one start index per output position, on the sequence axis, the other three axes whole: output
    position (b, s, h, d) reads the argument at (b, r, h, d), r the s-th start index read signed and clamped into
    0 … 4095. -/
theorem gather_apply {α : Type} (x : S4x4096x16x64.Idx → α) (idx : IVec S4096x1 32)
    (b : Fin 4) (s : Fin 4096) (h : Fin 16) (d : Fin 64) :
    Host.gather gather_S4x4096x16x64_S4096x1_S4x4096x16x64_023_1_n_n_1_1_411664 x idx (ix4 b s h d)
      = x (ix4 b ⟨min (idx (ix2 s (0 : Fin 1))).toInt.toNat (4096 - 1), by omega⟩ h d) := by
  unfold Host.gather
  refine congrArg x (funext fun a => Fin.ext ?_)
  show gather_S4x4096x16x64_S4096x1_S4x4096x16x64_023_1_n_n_1_1_411664.start (ix4 b s h d) idx a
      + gather_S4x4096x16x64_S4096x1_S4x4096x16x64_023_1_n_n_1_1_411664.batchCoord (ix4 b s h d) a
      + gather_S4x4096x16x64_S4096x1_S4x4096x16x64_023_1_n_n_1_1_411664.offCoord (ix4 b s h d) a = _
  match a with
  | ⟨0, h0⟩ =>
    have e1 : gather_S4x4096x16x64_S4096x1_S4x4096x16x64_023_1_n_n_1_1_411664.start (ix4 b s h d) idx ⟨0, h0⟩ = 0 := rfl
    have e2 : gather_S4x4096x16x64_S4096x1_S4x4096x16x64_023_1_n_n_1_1_411664.batchCoord (ix4 b s h d) ⟨0, h0⟩ = 0 := rfl
    have e3 : gather_S4x4096x16x64_S4096x1_S4x4096x16x64_023_1_n_n_1_1_411664.offCoord (ix4 b s h d) ⟨0, h0⟩ = b.val := rfl
    rw [e1, e2, e3]
    exact (by omega : 0 + 0 + b.val = b.val)
  | ⟨1, h1⟩ =>
    have e2 : gather_S4x4096x16x64_S4096x1_S4x4096x16x64_023_1_n_n_1_1_411664.batchCoord (ix4 b s h d) ⟨1, h1⟩ = 0 := rfl
    have e3 : gather_S4x4096x16x64_S4096x1_S4x4096x16x64_023_1_n_n_1_1_411664.offCoord (ix4 b s h d) ⟨1, h1⟩ = 0 := rfl
    have e1 : gather_S4x4096x16x64_S4096x1_S4x4096x16x64_023_1_n_n_1_1_411664.start (ix4 b s h d) idx ⟨1, h1⟩
        = min (idx (ix2 s (0 : Fin 1))).toInt.toNat (4096 - 1) := by
      unfold GatherDims.start
      rw [dif_pos (show (⟨1, h1⟩ : Fin S4x4096x16x64.rank)
        ∈ gather_S4x4096x16x64_S4096x1_S4x4096x16x64_023_1_n_n_1_1_411664.startIndexMap from List.mem_singleton.mpr rfl)]
      have hsi : gather_S4x4096x16x64_S4096x1_S4x4096x16x64_023_1_n_n_1_1_411664.siIdx (ix4 b s h d)
          ⟨List.idxOf (⟨1, h1⟩ : Fin S4x4096x16x64.rank)
            gather_S4x4096x16x64_S4096x1_S4x4096x16x64_023_1_n_n_1_1_411664.startIndexMap,
            List.idxOf_lt_length_iff.2 (List.mem_singleton.mpr rfl)⟩ = ix2 s (0 : Fin 1) := by
        funext c; refine Fin.ext ?_
        match c with
        | ⟨0, _⟩ => rfl
        | ⟨1, _⟩ => rfl
      rw [hsi]
      rfl
    rw [e1, e2, e3]
    rfl
  | ⟨2, h2⟩ =>
    have e1 : gather_S4x4096x16x64_S4096x1_S4x4096x16x64_023_1_n_n_1_1_411664.start (ix4 b s h d) idx ⟨2, h2⟩ = 0 := rfl
    have e2 : gather_S4x4096x16x64_S4096x1_S4x4096x16x64_023_1_n_n_1_1_411664.batchCoord (ix4 b s h d) ⟨2, h2⟩ = 0 := rfl
    have e3 : gather_S4x4096x16x64_S4096x1_S4x4096x16x64_023_1_n_n_1_1_411664.offCoord (ix4 b s h d) ⟨2, h2⟩ = h.val := rfl
    rw [e1, e2, e3]
    exact (by omega : 0 + 0 + h.val = h.val)
  | ⟨3, h3⟩ =>
    have e1 : gather_S4x4096x16x64_S4096x1_S4x4096x16x64_023_1_n_n_1_1_411664.start (ix4 b s h d) idx ⟨3, h3⟩ = 0 := rfl
    have e2 : gather_S4x4096x16x64_S4096x1_S4x4096x16x64_023_1_n_n_1_1_411664.batchCoord (ix4 b s h d) ⟨3, h3⟩ = 0 := rfl
    have e3 : gather_S4x4096x16x64_S4096x1_S4x4096x16x64_023_1_n_n_1_1_411664.offCoord (ix4 b s h d) ⟨3, h3⟩ = d.val := rfl
    rw [e1, e2, e3]
    exact (by omega : 0 + 0 + d.val = d.val)

/-! ## The re-ordering read at an index -/

/-- For a table with entries below 4096, position s of the re-ordered array is row (table s) of the argument. -/
theorem takeSeq_apply_tbl (x : Arr Ideal) (T : Tbl Ideal) (hT : ∀ i, (T i).toNat < 4096)
    (b : Fin 4) (s : Fin 4096) (h : Fin 16) (d : Fin 64) :
    takeSeq (F := Ideal) x T (ix4 b s h d) = x (ix4 b ⟨(T (ix1 s)).toNat, hT _⟩ h d) := by
  unfold Cert.RefStages.takeSeq
  rw [select_apply, mask_apply T hT, select_one, gather_apply]
  refine congrArg x (congrArg (fun r : Fin 4096 => ix4 b r h d) (Fin.ext ?_))
  show min (Cert.RefStages.takeIdx (F := Ideal) T (ix2 s (0 : Fin 1))).toInt.toNat (4096 - 1) = (T (ix1 s)).toNat
  rw [takeIdx_eq T hT s 0, toInt_of_lt _ (hT _)]
  have := hT (ix1 s)
  omega

/-- The same with the table given by its row-major listing, as the program holds it. -/
theorem takeSeq_apply (x : Arr Ideal) (t : Fin 4096 → BitVec 32) (ht : ∀ s, (t s).toNat < 4096)
    (b : Fin 4) (s : Fin 4096) (h : Fin 16) (d : Fin 64) :
    takeSeq (F := Ideal) x (fun i => t (S4096.rowMajor i)) (ix4 b s h d) = x (ix4 b ⟨(t s).toNat, ht s⟩ h d) := by
  have hr : S4096.rowMajor (ix1 s) = s := Fin.ext ((Shape.rowMajor_val_one (ix1 s)).trans rfl)
  refine (takeSeq_apply_tbl x (fun i => t (S4096.rowMajor i)) (fun i => ht _) b s h d).trans ?_
  refine congrArg x (congrArg (fun r : Fin 4096 => ix4 b r h d) (Fin.ext ?_))
  show (t (S4096.rowMajor (ix1 s))).toNat = (t s).toNat
  rw [hr]

end

end Cert.RefTake

end
-- ==== Proof.RefHalf.lean ====
/-
  One head group of the reference, read at an index.

  The reference cuts eight heads out of the sixteen (a slice along the head axis starting at head 0 or 8), scores
  every head of the group against every other, `s i j = (∑ e, q i e · k j e) · 1/8`, turns each row of scores into weights
  by a softmax along its last axis, passes the weights through three replacements that leave a real number as it is,
  and applies them to the group's value rows, `∑ j, w i j · v j d`.  Each stage is read here at an index written by
  its coordinates:

  * a product of two rank-4 arrays with batch axes 0 and 1 and one contracted axis is the sum over the contracted
    coordinate of the products of the entries;
  * a `[a, b, c]` array put back over a fourth axis (first with extent one, then broadcast) reads the same entry
    whatever the fourth coordinate; the maximum and the sum along the last axis of an `[a, b, c, d]` array are the fold
    of `max` and the sum over the fourth coordinate;
  * hence a row of the softmax of the scores is the weight function of that row of scores, a real number whenever the
    query and key entries are real, so none of the three replacements changes it;
  * two groups laid side by side along the head axis read the first group below head 8 and the second from head 8 on.

  Together: the reference's group `o` at batch entry `b`, position `s`, head `i`, entry `d` is the head-mixing
  formula at those coordinates.
-/
import proofs.«144455_j4784593568285_2_alg».proof.Proof.HeadMix
import proofs.«144455_j4784593568285_2_alg».proof.Proof.RefStages
import Idealize.ShloMosaic.Lib.ValueLayout
import Idealize.ShloMosaic.Lib.IdealHost

noncomputable section

namespace Cert.RefHalf

open Idealize.ShloMosaic Idealize.ShloMosaic.ValueIdx Cert.ReferenceIdeal
open Cert.HeadMix (IsReal)

/-! ## Products of rank-4 arrays with two batch axes -/

section Dots
variable {n0 n1 n2 n3 n4 : ℕ} {φ₁ φ₂ : FTy}

/-- Rows against rows: `[a, b, c, e] × [a, b, c, e] → [a, b, c, c]`, the last axes contracted. At `(b, s, i, j)` the sum
over `e` of row `i` of the first times row `j` of the second. -/
theorem dot_rows_apply
    (w : DotDims.WF ⟨4, ![n0, n1, n2, n3]⟩ ⟨4, ![n0, n1, n2, n3]⟩ ⟨4, ![n0, n1, n2, n2]⟩ [3] [3] [2] [2] [0, 1] [0, 1])
    (prec : Option ContractPrecision) (A : FVec Ideal ⟨4, ![n0, n1, n2, n3]⟩ φ₁)
    (B : FVec Ideal ⟨4, ![n0, n1, n2, n3]⟩ φ₂) (b : Fin n0) (s : Fin n1) (i j : Fin n2) :
    Host.dotGeneral (⟨[3], [3], [2], [2], [0, 1], [0, 1], w⟩ : DotDims _ _ _) prec A B (ix4 b s i j)
      = ∑ e : Fin n3, A (ix4 b s i e) * B (ix4 b s j e) := by
  show FloatOps.dotGeneral _ prec _ A B (ix4 b s i j) = _
  rw [Ideal.dotGeneral_apply,
    ← Equiv.sum_comp (contrEquiv1 (⟨[3], [3], [2], [2], [0, 1], [0, 1], w⟩ : DotDims _ _ _) n3 rfl rfl).symm]
  refine Finset.sum_congr rfl fun c _ => ?_
  have c3 := contrEquiv1_symm_val
    (⟨[3], [3], [2], [2], [0, 1], [0, 1], w⟩ :
      DotDims ⟨4, ![n0, n1, n2, n3]⟩ ⟨4, ![n0, n1, n2, n3]⟩ ⟨4, ![n0, n1, n2, n2]⟩) n3 rfl rfl c
  have l4 : (⟨[3], [3], [2], [2], [0, 1], [0, 1], w⟩ :
      DotDims ⟨4, ![n0, n1, n2, n3]⟩ ⟨4, ![n0, n1, n2, n3]⟩ ⟨4, ![n0, n1, n2, n2]⟩).lhsIdx (ix4 b s i j)
      ((contrEquiv1 _ n3 rfl rfl).symm c) = ix4 b s i c := by
    funext ax; apply Fin.ext
    match ax with
    | ⟨0, _⟩ => first | rfl | (simp [DotDims.lhsIdx] <;> rfl)
    | ⟨1, _⟩ => first | rfl | (simp [DotDims.lhsIdx] <;> rfl)
    | ⟨2, _⟩ => first | rfl | (simp [DotDims.lhsIdx] <;> rfl)
    | ⟨3, _⟩ => first | exact c3 | (simp [DotDims.lhsIdx] <;> exact c3)
  have r4 : (⟨[3], [3], [2], [2], [0, 1], [0, 1], w⟩ :
      DotDims ⟨4, ![n0, n1, n2, n3]⟩ ⟨4, ![n0, n1, n2, n3]⟩ ⟨4, ![n0, n1, n2, n2]⟩).rhsIdx (ix4 b s i j)
      ((contrEquiv1 _ n3 rfl rfl).symm c) = ix4 b s j c := by
    funext ax; apply Fin.ext
    match ax with
    | ⟨0, _⟩ => first | rfl | (simp [DotDims.rhsIdx] <;> rfl)
    | ⟨1, _⟩ => first | rfl | (simp [DotDims.rhsIdx] <;> rfl)
    | ⟨2, _⟩ => first | rfl | (simp [DotDims.rhsIdx] <;> rfl)
    | ⟨3, _⟩ => first | exact c3 | (simp [DotDims.rhsIdx] <;> exact c3)
  rw [l4, r4]

/-- Weights against value rows: `[a, b, c, k] × [a, b, k, d] → [a, b, c, d]`. At `(b, s, i, d)` the sum over `k` of
entry `k` of row `i` times entry `d` of row `k`. -/
theorem dot_mix_apply
    (w : DotDims.WF ⟨4, ![n0, n1, n2, n3]⟩ ⟨4, ![n0, n1, n3, n4]⟩ ⟨4, ![n0, n1, n2, n4]⟩ [3] [2] [2] [3] [0, 1] [0, 1])
    (prec : Option ContractPrecision) (A : FVec Ideal ⟨4, ![n0, n1, n2, n3]⟩ φ₁)
    (B : FVec Ideal ⟨4, ![n0, n1, n3, n4]⟩ φ₂) (b : Fin n0) (s : Fin n1) (i : Fin n2) (d : Fin n4) :
    Host.dotGeneral (⟨[3], [2], [2], [3], [0, 1], [0, 1], w⟩ : DotDims _ _ _) prec A B (ix4 b s i d)
      = ∑ c : Fin n3, A (ix4 b s i c) * B (ix4 b s c d) := by
  show FloatOps.dotGeneral _ prec _ A B (ix4 b s i d) = _
  rw [Ideal.dotGeneral_apply,
    ← Equiv.sum_comp (contrEquiv1 (⟨[3], [2], [2], [3], [0, 1], [0, 1], w⟩ : DotDims _ _ _) n3 rfl rfl).symm]
  refine Finset.sum_congr rfl fun c _ => ?_
  have c3 := contrEquiv1_symm_val
    (⟨[3], [2], [2], [3], [0, 1], [0, 1], w⟩ :
      DotDims ⟨4, ![n0, n1, n2, n3]⟩ ⟨4, ![n0, n1, n3, n4]⟩ ⟨4, ![n0, n1, n2, n4]⟩) n3 rfl rfl c
  have l4 : (⟨[3], [2], [2], [3], [0, 1], [0, 1], w⟩ :
      DotDims ⟨4, ![n0, n1, n2, n3]⟩ ⟨4, ![n0, n1, n3, n4]⟩ ⟨4, ![n0, n1, n2, n4]⟩).lhsIdx (ix4 b s i d)
      ((contrEquiv1 _ n3 rfl rfl).symm c) = ix4 b s i c := by
    funext ax; apply Fin.ext
    match ax with
    | ⟨0, _⟩ => first | rfl | (simp [DotDims.lhsIdx] <;> rfl)
    | ⟨1, _⟩ => first | rfl | (simp [DotDims.lhsIdx] <;> rfl)
    | ⟨2, _⟩ => first | rfl | (simp [DotDims.lhsIdx] <;> rfl)
    | ⟨3, _⟩ => first | exact c3 | (simp [DotDims.lhsIdx] <;> exact c3)
  have r4 : (⟨[3], [2], [2], [3], [0, 1], [0, 1], w⟩ :
      DotDims ⟨4, ![n0, n1, n2, n3]⟩ ⟨4, ![n0, n1, n3, n4]⟩ ⟨4, ![n0, n1, n2, n4]⟩).rhsIdx (ix4 b s i d)
      ((contrEquiv1 _ n3 rfl rfl).symm c) = ix4 b s c d := by
    funext ax; apply Fin.ext
    match ax with
    | ⟨0, _⟩ => first | rfl | (simp [DotDims.rhsIdx] <;> rfl)
    | ⟨1, _⟩ => first | rfl | (simp [DotDims.rhsIdx] <;> rfl)
    | ⟨2, _⟩ => first | exact c3 | (simp [DotDims.rhsIdx] <;> exact c3)
    | ⟨3, _⟩ => first | rfl | (simp [DotDims.rhsIdx] <;> rfl)
  rw [l4, r4]

end Dots

/-! ## The last axis reduced, put back with extent one, and broadcast again -/

section Keepdims4
variable {α : Type} {n0 n1 n2 n3 : ℕ}

/-- An `[a, b, c]` array given a fourth axis of extent one reads, at `(b, s, i, u)`, the operand at `(b, s, i)`. -/
theorem bcast_abc_abc1_apply (y : (⟨3, ![n0, n1, n2]⟩ : Shape).Idx → α)
    (h : (⟨3, ![n0, n1, n2]⟩ : Shape).BroadcastsInDim ⟨4, ![n0, n1, n2, 1]⟩ (![0, 1, 2] : Fin 3 → Fin 4))
    (b : Fin n0) (s : Fin n1) (i : Fin n2) (u : Fin 1) :
    broadcastInDim ⟨4, ![n0, n1, n2, 1]⟩ (![0, 1, 2] : Fin 3 → Fin 4) h y (ix4 b s i u) = y (ix3 b s i) := by
  refine broadcastInDim_apply (![0, 1, 2] : Fin 3 → Fin 4) h y (ix4 b s i u) (ix3 b s i) fun ax => ?_
  match ax with
  | ⟨0, _⟩ =>
    show b.val = if n0 = 1 then 0 else b.val
    split
    · have := b.isLt; omega
    · rfl
  | ⟨1, _⟩ =>
    show s.val = if n1 = 1 then 0 else s.val
    split
    · have := s.isLt; omega
    · rfl
  | ⟨2, _⟩ =>
    show i.val = if n2 = 1 then 0 else i.val
    split
    · have := i.isLt; omega
    · rfl

/-- An `[a, b, c, 1]` array broadcast to `[a, b, c, d]` reads, at `(b, s, i, j)`, the operand at `(b, s, i, 0)`. -/
theorem bcast_abc1_abcd_apply (v : (⟨4, ![n0, n1, n2, 1]⟩ : Shape).Idx → α)
    (h : (⟨4, ![n0, n1, n2, 1]⟩ : Shape).BroadcastsInDim ⟨4, ![n0, n1, n2, n3]⟩ (![0, 1, 2, 3] : Fin 4 → Fin 4))
    (b : Fin n0) (s : Fin n1) (i : Fin n2) (j : Fin n3) :
    broadcastInDim ⟨4, ![n0, n1, n2, n3]⟩ (![0, 1, 2, 3] : Fin 4 → Fin 4) h v (ix4 b s i j)
      = v (ix4 b s i (0 : Fin 1)) := by
  refine broadcastInDim_apply (![0, 1, 2, 3] : Fin 4 → Fin 4) h v (ix4 b s i j) (ix4 b s i (0 : Fin 1)) fun ax => ?_
  match ax with
  | ⟨0, _⟩ =>
    show b.val = if n0 = 1 then 0 else b.val
    split
    · have := b.isLt; omega
    · rfl
  | ⟨1, _⟩ =>
    show s.val = if n1 = 1 then 0 else s.val
    split
    · have := s.isLt; omega
    · rfl
  | ⟨2, _⟩ =>
    show i.val = if n2 = 1 then 0 else i.val
    split
    · have := i.isLt; omega
    · rfl
  | ⟨3, _⟩ =>
    show 0 = if (1 : ℕ) = 1 then 0 else j.val
    rw [if_pos rfl]

/-- Dropping one axis of a shape of rank at least two leaves a shape of positive rank: the reduction is also one in the
sense that names the index with a coordinate inserted. -/
theorem reduces_of_reducesTo {s t : Shape} {axes : List (Fin s.rank)} (h : s.ReducesTo axes t) (ht : 0 < t.rank) :
    s.Reduces axes t := by
  obtain ⟨e, f⟩ := h
  exact ⟨e, ht, f⟩

/-- Over `(b, s, i)`, with `k` inserted on the last axis: `(b, s, i, k)`. -/
theorem lift_last4 (h : (⟨4, ![n0, n1, n2, n3]⟩ : Shape).Reduces [3] ⟨3, ![n0, n1, n2]⟩)
    (b : Fin n0) (s : Fin n1) (i : Fin n2) (k : Fin n3) : h.lift (ix3 b s i) k = ix4 b s i k := by
  funext ax
  apply Fin.ext
  match ax with
  | ⟨0, _⟩ => rfl
  | ⟨1, _⟩ => rfl
  | ⟨2, _⟩ => rfl
  | ⟨3, _⟩ => rfl

variable {φ : FTy}

/-- The maximum along the last axis, at `(b, s, i)`: the fold of `max` from the initial value over the fourth coordinate. -/
theorem hostReduce_max_last4 {u : Shape} (x : (⟨4, ![n0, n1, n2, n3]⟩ : Shape).Idx → Ideal φ) (init : u.Idx → Ideal φ)
    (h' : (⟨4, ![n0, n1, n2, n3]⟩ : Shape).ReducesTo [3] ⟨3, ![n0, n1, n2]⟩) (hu : 0 < u.numel)
    (b : Fin n0) (s : Fin n1) (i : Fin n2) :
    Host.reduce (FloatOps.maximumf (F := Ideal) (φ := φ)) x init h' hu (ix3 b s i)
      = (Finset.univ : Finset (Fin n3)).fold max (init (Shape.Idx.first hu)) fun k => x (ix4 b s i k) := by
  have h : (⟨4, ![n0, n1, n2, n3]⟩ : Shape).Reduces [3] ⟨3, ![n0, n1, n2]⟩ := reduces_of_reducesTo h' (by show 0 < 3; omega)
  refine (Host.reduce_eq_fold_single (FloatOps.maximumf (F := Ideal) (φ := φ)) x init h' h hu (ix3 b s i)).trans ?_
  refine congrArg (Finset.fold max (init (Shape.Idx.first hu)) · Finset.univ) (funext fun k => ?_)
  exact congrArg x (lift_last4 h b s i k)

/-- The sum along the last axis, at `(b, s, i)`: the initial value plus the sum over the fourth coordinate. -/
theorem hostReduceAdd_last4 {u : Shape} (x : FVec Ideal ⟨4, ![n0, n1, n2, n3]⟩ φ) (init : u.Idx → Ideal φ)
    (h' : (⟨4, ![n0, n1, n2, n3]⟩ : Shape).ReducesTo [3] ⟨3, ![n0, n1, n2]⟩) (hu : 0 < u.numel)
    (b : Fin n0) (s : Fin n1) (i : Fin n2) :
    Host.reduceAdd x init h' hu (ix3 b s i) = init (Shape.Idx.first hu) + ∑ k : Fin n3, x (ix4 b s i k) := by
  have h : (⟨4, ![n0, n1, n2, n3]⟩ : Shape).Reduces [3] ⟨3, ![n0, n1, n2]⟩ := reduces_of_reducesTo h' (by show 0 < 3; omega)
  refine (hostReduceAdd_apply x init h' hu (ix3 b s i)).trans ?_
  refine (Ideal.hostReduceAdd_single h' h x (init (Shape.Idx.first hu)) (ix3 b s i)).trans ?_
  exact congrArg (init (Shape.Idx.first hu) + ·)
    (Finset.sum_congr rfl fun k _ => congrArg x (lift_last4 h b s i k))

end Keepdims4

/-! ## Comparisons that come out false -/

/-- No extended real differs from itself. -/
theorem cmp_une_self (a : EReal) : Ideal.cmp .une a a = 0#1 := by simp [Ideal.cmp]

/-- Two different extended reals do not compare equal. -/
theorem cmp_oeq_of_ne {a c : EReal} (h : a ≠ c) : Ideal.cmp .oeq a c = 0#1 := by simp [Ideal.cmp, h]

/-- The pattern of `+∞`. -/
theorem pinf_eq : Ideal.ofBits .f32 0x7F800000#32 = ⊤ := by simp [Ideal.ofBits, Ideal.ieee]

/-! ## The reference's stages at an index -/

section Stages
variable [Cert.ReferenceIdeal.Facts]
open Cert.ReferenceIdeal.Facts₀ Cert.ReferenceIdeal.Facts
open Cert.RefStages Cert.HeadMix

/-- The slice that starts at head `8 o` holds group `o`'s rows. -/
theorem slice_apply (o : Fin 2) (hs : S4x4096x16x64.Slices ![0, 0, 8 * o.val, 0] S4x4096x8x64) (x : Arr Ideal)
    (b : Fin 4) (s : Fin 4096) (i : Fin 8) (e : Fin 64) :
    extractStridedSlice S4x4096x8x64 ![0, 0, 8 * o.val, 0] x hs (ix4 b s i e) = grp x b s o i e :=
  slice4_axis2_apply (8 * o.val) x hs b s i e
    (⟨8 * o.val + i.val, by have := o.isLt; have := i.isLt; omega⟩ : Fin 16) rfl

/-- The scaled scores of group `o`. -/
theorem scores_apply (o : Fin 2) (hs : S4x4096x16x64.Slices ![0, 0, 8 * o.val, 0] S4x4096x8x64) (tq tk : Arr Ideal)
    (b : Fin 4) (s : Fin 4096) (i j : Fin 8) :
    scores (F := Ideal) ![0, 0, 8 * o.val, 0] hs tq tk (ix4 b s i j) = score (grp tq b s o) (grp tk b s o) i j := by
  unfold scores score
  refine (mulf_apply _ _ _).trans ?_
  refine congrArg₂ (· * ·) ?_ ?_
  · refine (dot_rows_apply _ none _ _ b s i j).trans ?_
    exact Finset.sum_congr rfl fun e _ =>
      congrArg₂ (· * ·) (slice_apply o hs tq b s i e) (slice_apply o hs tk b s j e)
  · exact (broadcastInDim_scalar_apply _ _ _).trans (constant_apply _ _)

/-- A `[4, 4096, 8]` array put back over the last axis reads the same entry at every last coordinate. -/
theorem overLast_apply (y : (⟨S4x4096x8, .f32⟩ : BufTy).Contents (Elt Ideal))
    (b : Fin 4) (s : Fin 4096) (i j : Fin 8) : overLast (F := Ideal) y (ix4 b s i j) = y (ix3 b s i) := by
  unfold overLast
  refine (bcast_abc1_abcd_apply _ _ b s i j).trans ?_
  exact bcast_abc_abc1_apply _ _ b s i 0

/-- The largest score of a row, over the row again, is the row's maximum. -/
theorem rmaxB_apply (s8 : Sc8 Ideal) (b : Fin 4) (s : Fin 4096) (i j : Fin 8) :
    rmaxB (F := Ideal) s8 (ix4 b s i j) = rowMax fun k => s8 (ix4 b s i k) := by
  unfold rmaxB rowMax
  refine (overLast_apply _ b s i j).trans ?_
  refine (maximumf_apply _ _ _).trans ?_
  refine congrArg₂ max ?_ ?_
  · exact (broadcastInDim_scalar_apply _ _ _).trans (constant_apply _ _)
  · exact hostReduce_max_last4 s8 _ _ _ b s i

/-- The shifted exponential of a score. -/
theorem expo_apply (s8 : Sc8 Ideal) (b : Fin 4) (s : Fin 4096) (i j : Fin 8) :
    expo (F := Ideal) s8 (ix4 b s i j) = ex (fun k => s8 (ix4 b s i k)) j :=
  congrArg (fun m => Ideal.exp (s8 (ix4 b s i j) - m)) (rmaxB_apply s8 b s i j)

/-- The softmax weight of a score. -/
theorem soft_apply (s8 : Sc8 Ideal) (b : Fin 4) (s : Fin 4096) (i j : Fin 8) :
    soft (F := Ideal) s8 (ix4 b s i j) = wgt (fun k => s8 (ix4 b s i k)) j := by
  unfold soft wgt
  refine (hostDivf_apply _ _ _).trans ?_
  refine congrArg₂ Ideal.div (expo_apply s8 b s i j) ?_
  refine (overLast_apply _ b s i j).trans ?_
  refine (hostReduceAdd_last4 _ _ _ _ b s i).trans ?_
  exact (congrArg₂ (· + ·) Ideal.ofBits_zero_f32
    (Finset.sum_congr rfl fun k _ => expo_apply s8 b s i k)).trans (zero_add _)

/-- The first replacement changes nothing: no entry differs from itself. -/
theorem nan1_apply (x : Sc8 Ideal) (z : (⟨S_, .f32⟩ : BufTy).Contents (Elt Ideal)) (idx : S4x4096x8x8.Idx) :
    nan1 (F := Ideal) x z idx = x idx := by
  show Scalar.select (Ideal.cmp .une (x idx) (x idx)) _ (x idx) = x idx
  rw [cmp_une_self, select_zero]

/-- The second replacement leaves an entry other than `+∞` as it is. -/
theorem nan2_apply (a : Sc8 Ideal) (idx : S4x4096x8x8.Idx) (h : a idx ≠ ⊤) : nan2 (F := Ideal) a idx = a idx := by
  show Scalar.select (Ideal.cmp .oeq (a idx) (Ideal.ofBits .f32 0x7F800000#32)) _ (a idx) = a idx
  rw [pinf_eq, cmp_oeq_of_ne h, select_zero]

/-- The third replacement leaves an entry other than `-∞` as it is. -/
theorem nan3_apply (c : Sc8 Ideal) (idx : S4x4096x8x8.Idx) (h : c idx ≠ ⊥) : nan3 (F := Ideal) c idx = c idx := by
  show Scalar.select (Ideal.cmp .oeq (c idx) ninf) _ (c idx) = c idx
  rw [ninf_eq, cmp_oeq_of_ne h, select_zero]

/-- The three replacements in a row leave a real entry as it is. -/
theorem nanToNum_apply (x : Sc8 Ideal) (z : (⟨S_, .f32⟩ : BufTy).Contents (Elt Ideal)) (idx : S4x4096x8x8.Idx)
    (h : IsReal (x idx)) : nanToNum (F := Ideal) x z idx = x idx := by
  unfold nanToNum
  have e1 : nan1 (F := Ideal) x z idx = x idx := nan1_apply x z idx
  have e2 : nan2 (F := Ideal) (nan1 (F := Ideal) x z) idx = x idx :=
    (nan2_apply _ idx (by rw [e1]; exact h.ne_top)).trans e1
  exact (nan3_apply _ idx (by rw [e2]; exact h.ne_bot)).trans e2

/-! ## One group, and both side by side -/

/-- One group of the reference at an index is the head-mixing formula there. -/
theorem half_apply (o : Fin 2) (off : Fin 4 → ℕ) (hs : S4x4096x16x64.Slices off S4x4096x8x64)
    (hoff : off = ![0, 0, 8 * o.val, 0]) (tq tk tv : Arr Ideal) (hq : ∀ j, IsReal (tq j)) (hk : ∀ j, IsReal (tk j))
    (b : Fin 4) (s : Fin 4096) (i : Fin 8) (d : Fin 64) :
    half (F := Ideal) off hs tq tk tv (ix4 b s i d) = Gat tq tk tv b s o i d := by
  subst hoff
  unfold half Gat mix
  refine (dot_mix_apply _ none _ _ b s i d).trans ?_
  refine Finset.sum_congr rfl fun j _ => ?_
  have hrow : (fun k => scores (F := Ideal) ![0, 0, 8 * o.val, 0] hs tq tk (ix4 b s i k))
      = score (grp tq b s o) (grp tk b s o) i := funext fun k => scores_apply o hs tq tk b s i k
  have hsoft : soft (F := Ideal) (scores (F := Ideal) ![0, 0, 8 * o.val, 0] hs tq tk) (ix4 b s i j)
      = wgt (score (grp tq b s o) (grp tk b s o) i) j :=
    (soft_apply _ b s i j).trans (congrArg (fun r => wgt r j) hrow)
  have hreal : IsReal (soft (F := Ideal) (scores (F := Ideal) ![0, 0, 8 * o.val, 0] hs tq tk) (ix4 b s i j)) := by
    rw [hsoft]
    exact wgt_isReal _ _ (fun _ _ => hq _) (fun _ _ => hk _) i j
  exact congrArg₂ (· * ·) ((nanToNum_apply _ _ _ hreal).trans hsoft) (slice_apply o hs tv b s j d)

/-- Below head 8 the two groups side by side read the first group. -/
theorem both_lo (tq tk tv : Arr Ideal) (b : Fin 4) (s : Fin 4096) (i : Fin 8) (d : Fin 64) (k : Fin 16)
    (hk : k.val = i.val) :
    both (F := Ideal) tq tk tv (ix4 b s k d)
      = half (F := Ideal) ![0, 0, 0, 0] slices_S4x4096x16x64_S4x4096x8x64_0_0_0_0 tq tk tv (ix4 b s i d) := by
  unfold both
  refine concatenate_pair_apply_left (s₁ := S4x4096x8x64) (s₂ := S4x4096x8x64) (2 : Fin S4x4096x16x64.rank) _ _ _
    (ix4 b s k d) rfl (ix4 b s i d) fun ax => ?_
  match ax with
  | ⟨0, _⟩ => rfl
  | ⟨1, _⟩ => rfl
  | ⟨2, _⟩ => exact hk.symm
  | ⟨3, _⟩ => rfl

/-- From head 8 on they read the second group, eight heads lower. -/
theorem both_hi (tq tk tv : Arr Ideal) (b : Fin 4) (s : Fin 4096) (i : Fin 8) (d : Fin 64) (k : Fin 16)
    (hk : k.val = 8 + i.val) :
    both (F := Ideal) tq tk tv (ix4 b s k d)
      = half (F := Ideal) ![0, 0, 8, 0] slices_S4x4096x16x64_S4x4096x8x64_0_0_8_0 tq tk tv (ix4 b s i d) := by
  unfold both
  refine concatenate_pair_apply_right (s₁ := S4x4096x8x64) (s₂ := S4x4096x8x64) (2 : Fin S4x4096x16x64.rank) _ _ _
    (ix4 b s k d) rfl rfl (ix4 b s i d)
    (fun ax => ?_) ?_
  · match ax with
    | ⟨0, _⟩ => exact fun _ => rfl
    | ⟨1, _⟩ => exact fun _ => rfl
    | ⟨2, _⟩ => exact fun hne => absurd (Fin.ext rfl) hne
    | ⟨3, _⟩ => exact fun _ => rfl
  · show i.val + 8 = k.val
    omega

/-- Both groups side by side, at head `8 o + i`: the head-mixing formula for group `o`, head `i`. -/
theorem both_apply (tq tk tv : Arr Ideal) (hq : ∀ j, IsReal (tq j)) (hk : ∀ j, IsReal (tk j))
    (b : Fin 4) (s : Fin 4096) (o : Fin 2) (i : Fin 8) (d : Fin 64) (h : 8 * o.val + i.val < 16) :
    both (F := Ideal) tq tk tv (ix4 b s ⟨8 * o.val + i.val, h⟩ d) = Gat tq tk tv b s o i d := by
  have ho : o = 0 ∨ o = 1 := by
    rcases o with ⟨ov, hov⟩
    have hv : ov = 0 ∨ ov = 1 := by omega
    rcases hv with rfl | rfl
    · exact Or.inl rfl
    · exact Or.inr rfl
  rcases ho with rfl | rfl
  · refine (both_lo tq tk tv b s i d _ ?_).trans (half_apply 0 _ _ rfl tq tk tv hq hk b s i d)
    show 8 * 0 + i.val = i.val
    omega
  · refine (both_hi tq tk tv b s i d _ ?_).trans (half_apply 1 _ _ rfl tq tk tv hq hk b s i d)
    show 8 * 1 + i.val = 8 + i.val
    omega

end Stages

end Cert.RefHalf

end
-- ==== Proof.RefValue.lean ====
/-
  The reference's result is the head-mixing formula at every position.

  The reference re-orders the sequence axis of its three arguments by the first table, mixes the heads of each group at
  every position, and re-orders the result by the second table.  Position t of the result is therefore position
  (second table at t) of the mixed array, and every row the mixing reads there is row (first table at (second table
  at t)) of an argument — row t, the two tables being inverse permutations.  Mixing at one position reads no other
  position, so the two re-orderings cancel and the result at t is the formula applied to the arguments' rows at t.
-/
import proofs.«144455_j4784593568285_2_alg».proof.Proof.HeadMix
import proofs.«144455_j4784593568285_2_alg».proof.Proof.RefStages
import proofs.«144455_j4784593568285_2_alg».proof.Proof.RefTake
import proofs.«144455_j4784593568285_2_alg».proof.Proof.RefHalf

noncomputable section

namespace Cert.RefValue

open Idealize.ShloMosaic Idealize.ShloMosaic.ValueIdx Cert.ReferenceIdeal Cert.HeadMix

variable [Cert.ReferenceIdeal.Facts]
open Cert.ReferenceIdeal.Facts₀ Cert.ReferenceIdeal.Facts Cert.RefStages

/-- Re-ordered by the first table: position s is row (first table at s). -/
theorem takeSeq_tbl0 (x : Arr Ideal) (b : Fin 4) (s : Fin 4096) (h : Fin 16) (d : Fin 64) :
    takeSeq (F := Ideal) x (tbl0 (F := Ideal)) (ix4 b s h d)
      = x (ix4 b ⟨(lit0 s).toNat, Cert.RefTake.lit0_lt s⟩ h d) :=
  Cert.RefTake.takeSeq_apply x lit0 Cert.RefTake.lit0_lt b s h d

/-- Re-ordered by the second table: position s is row (second table at s). -/
theorem takeSeq_tbl1 (x : Arr Ideal) (b : Fin 4) (s : Fin 4096) (h : Fin 16) (d : Fin 64) :
    takeSeq (F := Ideal) x (tbl1 (F := Ideal)) (ix4 b s h d)
      = x (ix4 b ⟨(lit1 s).toNat, Cert.RefTake.lit1_lt s⟩ h d) :=
  Cert.RefTake.takeSeq_apply x lit1 Cert.RefTake.lit1_lt b s h d

/-- A re-ordering of an array of reals is an array of reals. -/
theorem takeSeq_tbl0_isReal (x : Arr Ideal) (hx : ∀ j, IsReal (x j)) (j : S4x4096x16x64.Idx) :
    IsReal (takeSeq (F := Ideal) x (tbl0 (F := Ideal)) j) := by
  obtain ⟨b, s, h, d, rfl⟩ : ∃ (b : Fin 4) (s : Fin 4096) (h : Fin 16) (d : Fin 64), j = ix4 b s h d :=
    ⟨j 0, j 1, j 2, j 3, eq_ix4 j⟩
  rw [takeSeq_tbl0]
  exact hx _

/-- The rows of a group at position (second table at t) of the array re-ordered by the first table are the argument's
    rows at position t. -/
theorem grp_takeSeq (x : Arr Ideal) (b : Fin 4) (t : Fin 4096) (o : Fin 2) :
    grp (takeSeq (F := Ideal) x (tbl0 (F := Ideal))) b ⟨(lit1 t).toNat, Cert.RefTake.lit1_lt t⟩ o = grp x b t o := by
  funext i e
  show takeSeq (F := Ideal) x (tbl0 (F := Ideal))
      (ix4 b ⟨(lit1 t).toNat, Cert.RefTake.lit1_lt t⟩ (⟨8 * o.val + i.val, by have := o.isLt; have := i.isLt; omega⟩ : Fin 16) e)
    = x (ix4 b t (⟨8 * o.val + i.val, by have := o.isLt; have := i.isLt; omega⟩ : Fin 16) e)
  rw [takeSeq_tbl0]
  exact congrArg (fun r : Fin 4096 => x (ix4 b r _ e)) (Fin.ext (Cert.RefTake.lit0_lit1 t))

/-- The reference's result is the head-mixing formula of its arguments. -/
theorem refOut_eq (q k v : Arr Ideal) (hq : ∀ j, IsReal (q j)) (hk : ∀ j, IsReal (k j)) :
    refOut (F := Ideal) q k v = G q k v := by
  funext j
  obtain ⟨b, t, hd, d, rfl⟩ : ∃ (b : Fin 4) (t : Fin 4096) (hd : Fin 16) (d : Fin 64), j = ix4 b t hd d :=
    ⟨j 0, j 1, j 2, j 3, eq_ix4 j⟩
  obtain ⟨o, i, hlt, rfl⟩ : ∃ (o : Fin 2) (i : Fin 8) (hlt : 8 * o.val + i.val < 16), hd = ⟨8 * o.val + i.val, hlt⟩ :=
    ⟨⟨hd.val / 8, by have := hd.isLt; omega⟩, ⟨hd.val % 8, Nat.mod_lt _ (by decide)⟩,
      by have := hd.isLt; show 8 * (hd.val / 8) + hd.val % 8 < 16; omega,
      Fin.ext (by show hd.val = 8 * (hd.val / 8) + hd.val % 8; omega)⟩
  unfold Cert.RefStages.refOut
  rw [takeSeq_tbl1,
    Cert.RefHalf.both_apply _ _ _ (takeSeq_tbl0_isReal q hq) (takeSeq_tbl0_isReal k hk) b _ o i d hlt,
    G_ix4 q k v b t o i d hlt]
  unfold Gat
  rw [grp_takeSeq q b t o, grp_takeSeq k b t o, grp_takeSeq v b t o]

end Cert.RefValue

end
-- ==== Proof.lean ====
/-
  The kernel computes, at every batch entry and sequence position, the head-mixing attention of the two head groups:
  inside a group head `i` is scored against head `j` by `(∑ e, q i e · k j e) · 1/8`, the scores of head `i` go through
  a softmax over `j`, and head `i`'s output is the weighted sum of the group's value rows.  The reference first
  re-orders the sequence axis of all three arguments by a fixed table, computes the same thing position by position,
  and re-orders the result by a second table.  Nothing mixes positions, and the two tables are permutations of
  `0 … 4095` inverse to each other, so the two re-orderings cancel: both programs end with the one array
  `Cert.HeadMix.G q k v`.

  * The kernel (`Cert.KernelFinal.run` over `Cert.KernelBlock.outSpec`): one grid point handles 256 consecutive flat
    rows; the block it writes back is the formula at those rows, the 64 blocks tile the flat array, and the reshape
    after the region reads the flat array back as `[4, 4096, 16, 64]`.
  * The reference (`Cert.RefRun.run`, `Cert.RefValue.refOut_eq`): its run ends at the composed stage functions of the
    arguments, and those are `G` index by index.  The reference also replaces an undefined or infinite softmax weight
    by a finite number; for real queries and keys every weight is a real number, so nothing is replaced — this is the
    one place the precondition (every input finite, `Cert.FiniteArgs.real_of_pre`) is used.
  * The three frames are the generated kernel frames and the reference's run with its result dropped; the idealization
    rewrote nothing, so `preserves` asks nothing.
-/
import proofs.«144455_j4784593568285_2_alg».proof.Defs
import proofs.«144455_j4784593568285_2_alg».proof.Proof.Gen.Kernel
import proofs.«144455_j4784593568285_2_alg».proof.Proof.Gen.Kernel.Frame
import proofs.«144455_j4784593568285_2_alg».proof.Proof.Gen.KernelIdeal
import proofs.«144455_j4784593568285_2_alg».proof.Proof.Gen.KernelIdeal.Frame
import proofs.«144455_j4784593568285_2_alg».proof.Proof.Gen.ReferenceIdeal
import proofs.«144455_j4784593568285_2_alg».proof.Proof.Gen.Pre_finite_inputs
import proofs.«144455_j4784593568285_2_alg».proof.Proof.FiniteArgs
import proofs.«144455_j4784593568285_2_alg».proof.Proof.KernelBlock
import proofs.«144455_j4784593568285_2_alg».proof.Proof.KernelFinal
import proofs.«144455_j4784593568285_2_alg».proof.Proof.RefRun
import proofs.«144455_j4784593568285_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.RefRun.run m ρ)

/-- The idealization rewrote no operation. -/
theorem preserves : Cert.preserves_Kernel_KernelIdeal := trivial

/-- Both runs end at `G` of the arguments. -/
theorem algebraic : Cert.algebraic_KernelIdeal_ReferenceIdeal := by
  intro m ρ m' ρ' hpre hagree
  refine ⟨_, Cert.KernelFinal.run Cert.KernelBlock.outSpec m ρ, ?_⟩
  refine (θ_run Cert.ReferenceIdeal.defs _ _).mono (fun _ h c => ⟨(h c).1.trans ?_, (h c).2⟩)
    (Cert.RefRun.run m' ρ')
  obtain ⟨hq, hk, -⟩ := Cert.FiniteArgs.real_of_pre _ _ _ (hpre c)
  rw [(hagree c).1, (hagree c).2.1, (hagree c).2.2]
  exact Cert.RefValue.refOut_eq _ _ _ hq hk

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
